-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x8x8 : Shape := ⟨4, ![16, 4096, 8, 8]⟩
abbrev S16x1024x8x8 : Shape := ⟨4, ![16, 1024, 8, 8]⟩
abbrev S8x8 : Shape := ⟨2, ![8, 8]⟩
abbrev S_ : Shape := ⟨0, ![]⟩

class Facts : Prop where
  bcast_S_S16x4096x8x8 : S_.BroadcastsInDim S16x4096x8x8 (![] : Fin 0 → Fin S16x4096x8x8.rank)
  reducesTo_S16x4096x8x8_S_d0_1_2_3 : S16x4096x8x8.ReducesTo [0, 1, 2, 3] S_
  h_S_ : 0 < S_.numel
  bcast_S_S16x1024x8x8 : S_.BroadcastsInDim S16x1024x8x8 (![] : Fin 0 → Fin S16x1024x8x8.rank)
  reducesTo_S16x1024x8x8_S_d0_1_2_3 : S16x1024x8x8.ReducesTo [0, 1, 2, 3] S_
  bcast_S_S8x8 : S_.BroadcastsInDim S8x8 (![] : Fin 0 → Fin S8x8.rank)
  reducesTo_S8x8_S_d0_1 : S8x8.ReducesTo [0, 1] S_

variable [Facts]

def fn_part1 {F : FTy → Type} [FloatOps F] (main_arg4 : FVec F S8x8 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8x8 .f32 := Host.absf main_arg4
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  main_v23

def fn {F : FTy → Type} [FloatOps F] (main_arg0 : FVec F S16x4096x8x8 .f32) (main_arg1 : FVec F S16x1024x8x8 .f32) (main_arg2 : FVec F S16x1024x8x8 .f32) (main_arg3 : FVec F S8x8 .f32) (main_arg4 : FVec F S8x8 .f32) : IVec S_ 1 :=
  let main_v0 : FVec F S16x4096x8x8 .f32 := Host.absf main_arg0
  let main_cst : FVec F S_ .f32 := constant S_ .f32 0x7F800000#32
  let main_v1 : FVec F S16x4096x8x8 .f32 := broadcastInDim S16x4096x8x8 ![] bcast_S_S16x4096x8x8 main_cst
  let main_v2 : IVec S16x4096x8x8 1 := cmpf .olt main_v0 main_v1
  let main_c : IVec S_ 1 := constantI S_ 1 1#1
  let main_v3 : IVec S_ 1 := (fun x v => Host.reduce IntOp.andi x v reducesTo_S16x4096x8x8_S_d0_1_2_3 h_S_) main_v2 main_c
  let main_v4 : FVec F S16x1024x8x8 .f32 := Host.absf main_arg1
  let main_cst_0 : FVec F S_ .f32 := constant S_ .f32 0x7F800000#32
  let main_v5 : FVec F S16x1024x8x8 .f32 := broadcastInDim S16x1024x8x8 ![] bcast_S_S16x1024x8x8 main_cst_0
  let main_v6 : IVec S16x1024x8x8 1 := cmpf .olt main_v4 main_v5
  let main_c_1 : IVec S_ 1 := constantI S_ 1 1#1
  let main_v7 : IVec S_ 1 := (fun x v => Host.reduce IntOp.andi x v reducesTo_S16x1024x8x8_S_d0_1_2_3 h_S_) main_v6 main_c_1
  let main_v8 : IVec S_ 1 := andi main_v3 main_v7
  let main_v9 : FVec F S16x1024x8x8 .f32 := Host.absf main_arg2
  let main_cst_2 : FVec F S_ .f32 := constant S_ .f32 0x7F800000#32
  let main_v10 : FVec F S16x1024x8x8 .f32 := broadcastInDim S16x1024x8x8 ![] bcast_S_S16x1024x8x8 main_cst_2
  let main_v11 : IVec S16x1024x8x8 1 := cmpf .olt main_v9 main_v10
  let main_c_3 : IVec S_ 1 := constantI S_ 1 1#1
  let main_v12 : IVec S_ 1 := (fun x v => Host.reduce IntOp.andi x v reducesTo_S16x1024x8x8_S_d0_1_2_3 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_v13 main_v16
-- ==== Kernel.lean ====
abbrev S16x4096x8x8 : Shape := ⟨4, ![16, 4096, 8, 8]⟩
abbrev S16x1024x8x8 : Shape := ⟨4, ![16, 1024, 8, 8]⟩
abbrev S8x8 : Shape := ⟨2, ![8, 8]⟩
abbrev S64 : Shape := ⟨1, ![64]⟩
abbrev S64x64 : Shape := ⟨2, ![64, 64]⟩
abbrev S16x4096x64 : Shape := ⟨3, ![16, 4096, 64]⟩
abbrev S16x1024x64 : Shape := ⟨3, ![16, 1024, 64]⟩
abbrev S64x1 : Shape := ⟨2, ![64, 1]⟩
abbrev S_ : Shape := ⟨0, ![]⟩
abbrev S64x8x8 : Shape := ⟨3, ![64, 8, 8]⟩
abbrev S64x8x8x2 : Shape := ⟨4, ![64, 8, 8, 2]⟩
abbrev S64x8x16 : Shape := ⟨3, ![64, 8, 16]⟩
abbrev S64x128 : Shape := ⟨2, ![64, 128]⟩
abbrev S16x3x512x512 : Shape := ⟨4, ![16, 3, 512, 512]⟩
abbrev S1x512x64 : Shape := ⟨3, ![1, 512, 64]⟩
abbrev S1x128x64 : Shape := ⟨3, ![1, 128, 64]⟩
abbrev S1x3x64x512 : Shape := ⟨4, ![1, 3, 64, 512]⟩
abbrev S512x64 : Shape := ⟨2, ![512, 64]⟩
abbrev S8x64x8x8 : Shape := ⟨4, ![8, 64, 8, 8]⟩
abbrev S8x8x64x8 : Shape := ⟨4, ![8, 8, 64, 8]⟩
abbrev S64x512 : Shape := ⟨2, ![64, 512]⟩
abbrev S128x64 : Shape := ⟨2, ![128, 64]⟩
abbrev S128x128 : Shape := ⟨2, ![128, 128]⟩
abbrev S4x32x8x16 : Shape := ⟨4, ![4, 32, 8, 16]⟩
abbrev S4x8x32x16 : Shape := ⟨4, ![4, 8, 32, 16]⟩
abbrev S32x512 : Shape := ⟨2, ![32, 512]⟩
abbrev S32x1x512 : Shape := ⟨3, ![32, 1, 512]⟩
abbrev S32x2x512 : Shape := ⟨3, ![32, 2, 512]⟩
abbrev S1x1x64x512 : Shape := ⟨4, ![1, 1, 64, 512]⟩

abbrev nBuf : Space → Nat
  | .hbm => 31
  | .vmem => 10
  | .smem => 0
  | _ => 0

abbrev bufTy : (tb : Table) → Fin (tcTables nBuf tb) → BufTy
  | .hbm, ⟨0, _⟩ => ⟨S16x4096x8x8, .f32⟩
  | .hbm, ⟨1, _⟩ => ⟨S16x1024x8x8, .f32⟩
  | .hbm, ⟨2, _⟩ => ⟨S16x1024x8x8, .f32⟩
  | .hbm, ⟨3, _⟩ => ⟨S8x8, .f32⟩
  | .hbm, ⟨4, _⟩ => ⟨S8x8, .f32⟩
  | .hbm, ⟨5, _⟩ => ⟨S64, .f32⟩
  | .hbm, ⟨6, _⟩ => ⟨S64x64, .f32⟩
  | .hbm, ⟨7, _⟩ => ⟨S16x4096x64, .f32⟩
  | .hbm, ⟨8, _⟩ => ⟨S16x1024x64, .f32⟩
  | .hbm, ⟨9, _⟩ => ⟨S16x1024x64, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S64x64, .f32⟩
  | .hbm, ⟨25, _⟩ => ⟨S64x64, .f32⟩
  | .hbm, ⟨26, _⟩ => ⟨S64x8x8, .f32⟩
  | .hbm, ⟨27, _⟩ => ⟨S64x8x8x2, .f32⟩
  | .hbm, ⟨28, _⟩ => ⟨S64x8x16, .f32⟩
  | .hbm, ⟨29, _⟩ => ⟨S64x128, .f32⟩
  | .hbm, ⟨30, _⟩ => ⟨S16x3x512x512, .f32⟩
  | .local _ .vmem, ⟨0, _⟩ => ⟨S1x512x64, .f32⟩
  | .local _ .vmem, ⟨1, _⟩ => ⟨S1x512x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S64x64, .f32⟩
  | .local _ .vmem, ⟨7, _⟩ => ⟨S64x128, .f32⟩
  | .local _ .vmem, ⟨8, _⟩ => ⟨S1x3x64x512, .f32⟩
  | .local _ .vmem, ⟨9, _⟩ => ⟨S1x3x64x512, .f32⟩
  | _, _ => ⟨S16x4096x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16x4096x8x8_S16x4096x64 : S16x4096x8x8.ShapeCasts S16x4096x64
  shapeCasts_S16x1024x8x8_S16x1024x64 : S16x1024x8x8.ShapeCasts S16x1024x64
  shapeCasts_S8x8_S64 : S8x8.ShapeCasts S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  shapeCasts_S64x64_S64x8x8 : S64x64.ShapeCasts S64x8x8
  bcast_S64x8x8_S64x8x8x2_0_1_2 : S64x8x8.BroadcastsInDim S64x8x8x2 (![0, 1, 2] : Fin 3 → Fin S64x8x8x2.rank)
  shapeCasts_S64x8x8x2_S64x8x16 : S64x8x8x2.ShapeCasts S64x8x16
  shapeCasts_S64x8x16_S64x128 : S64x8x16.ShapeCasts S64x128
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S512x64_S8x64x8x8 : S512x64.ShapeCasts S8x64x8x8
  transposes_S8x64x8x8_p0_2_1_3_S8x8x64x8 : S8x64x8x8.Transposes [0, 2, 1, 3] S8x8x64x8
  shapeCasts_S8x8x64x8_S64x512 : S8x8x64x8.ShapeCasts S64x512
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S128x128_S4x32x8x16 : S128x128.ShapeCasts S4x32x8x16
  transposes_S4x32x8x16_p0_2_1_3_S4x8x32x16 : S4x32x8x16.Transposes [0, 2, 1, 3] S4x8x32x16
  shapeCasts_S4x8x32x16_S32x512 : S4x8x32x16.ShapeCasts S32x512
  shapeCasts_S32x512_S32x1x512 : S32x512.ShapeCasts S32x1x512
  broadcasts_S32x1x512_S32x2x512 : S32x1x512.Broadcasts S32x2x512
  shapeCasts_S32x2x512_S64x512 : S32x2x512.ShapeCasts S64x512
  inb_S1x3x64x512_S1x1x64x512_0_0_0_0 : ∀ a, (![0, 0, 0, 0] : Fin 4 → Nat) a + S1x1x64x512.size a ≤ S1x3x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  inb_S1x3x64x512_S1x1x64x512_0_1_0_0 : ∀ a, (![0, 1, 0, 0] : Fin 4 → Nat) a + S1x1x64x512.size a ≤ S1x3x64x512.size a
  inb_S1x3x64x512_S1x1x64x512_0_2_0_0 : ∀ a, (![0, 2, 0, 0] : Fin 4 → Nat) a + S1x1x64x512.size a ≤ S1x3x64x512.size a
  dot_S512x64_S64x64_S512x64_1_0_0_1_n_n_wf : DotDims.WF S512x64 S64x64 S512x64 [1] [0] [0] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x4096x64.size a
  hwx0_0 : ∀ i : grid0.Coords, EltTy.bits .f32 = 32 ∨ (Rect.block (s := S16x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S16x1024x64.size a
  hwx0_1 : ∀ i : grid0.Coords, EltTy.bits .f32 = 32 ∨ (Rect.block (s := S16x1024x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S16x1024x64.size a
  hwx0_2 : ∀ i : grid0.Coords, EltTy.bits .f32 = 32 ∨ (Rect.block (s := S16x1024x64) S1x128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x64x512.size a ≤ S16x3x512x512.size a
  hwx0_5 : ∀ i : grid0.Coords, EltTy.bits .f32 = 32 ∨ (Rect.block (s := S16x3x512x512) S1x3x64x512.size (cc0_transform_5 i) (hinb0_5 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x3x64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x8x8 : Shape := ⟨4, ![16, 4096, 8, 8]⟩
abbrev S16x1024x8x8 : Shape := ⟨4, ![16, 1024, 8, 8]⟩
abbrev S8x8 : Shape := ⟨2, ![8, 8]⟩
abbrev S64 : Shape := ⟨1, ![64]⟩
abbrev S64x64 : Shape := ⟨2, ![64, 64]⟩
abbrev S64x1 : Shape := ⟨2, ![64, 1]⟩
abbrev S_ : Shape := ⟨0, ![]⟩
abbrev S2x2 : Shape := ⟨2, ![2, 2]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S32768x128 : Shape := ⟨2, ![32768, 128]⟩
abbrev S2048x128 : Shape := ⟨2, ![2048, 128]⟩
abbrev S8192x128 : Shape := ⟨2, ![8192, 128]⟩
abbrev S16x64x64x8x8 : Shape := ⟨5, ![16, 64, 64, 8, 8]⟩
abbrev S16x64x8x64x8 : Shape := ⟨5, ![16, 64, 8, 64, 8]⟩
abbrev S16x512x512 : Shape := ⟨3, ![16, 512, 512]⟩
abbrev S16x32x32x8x8 : Shape := ⟨5, ![16, 32, 32, 8, 8]⟩
abbrev S16x32x8x32x8 : Shape := ⟨5, ![16, 32, 8, 32, 8]⟩
abbrev S16x256x256 : Shape := ⟨3, ![16, 256, 256]⟩
abbrev S16x256x2x256 : Shape := ⟨4, ![16, 256, 2, 256]⟩
abbrev S16x512x256 : Shape := ⟨3, ![16, 512, 256]⟩
abbrev S16x512x256x2 : Shape := ⟨4, ![16, 512, 256, 2]⟩
abbrev S16x3x512x512 : Shape := ⟨4, ![16, 3, 512, 512]⟩
abbrev S1x256x512 : Shape := ⟨3, ![1, 256, 512]⟩
abbrev S1x3x256x512 : Shape := ⟨4, ![1, 3, 256, 512]⟩
abbrev S256x512 : Shape := ⟨2, ![256, 512]⟩
abbrev S1x1x256x512 : Shape := ⟨4, ![1, 1, 256, 512]⟩

abbrev nBuf : Space → Nat
  | .hbm => 97
  | .vmem => 23
  | .smem => 0
  | _ => 0

abbrev bufTy : (tb : Table) → Fin (tcTables nBuf tb) → BufTy
  | .hbm, ⟨0, _⟩ => ⟨S16x4096x8x8, .f32⟩
  | .hbm, ⟨1, _⟩ => ⟨S16x1024x8x8, .f32⟩
  | .hbm, ⟨2, _⟩ => ⟨S16x1024x8x8, .f32⟩
  | .hbm, ⟨3, _⟩ => ⟨S8x8, .f32⟩
  | .hbm, ⟨4, _⟩ => ⟨S8x8, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x64, .f32⟩
  | .hbm, ⟨14, _⟩ => ⟨S64x64, .f32⟩
  | .hbm, ⟨15, _⟩ => ⟨S2x2, .i32⟩
  | .hbm, ⟨16, _⟩ => ⟨S2x2, .i32⟩
  | .hbm, ⟨17, _⟩ => ⟨S_, .i32⟩
  | .hbm, ⟨18, _⟩ => ⟨S2x2, .i32⟩
  | .hbm, ⟨19, _⟩ => ⟨S2x2, .i32⟩
  | .hbm, ⟨20, _⟩ => ⟨S2x2, .i1⟩
  | .hbm, ⟨21, _⟩ => ⟨S2x2, .f32⟩
  | .hbm, ⟨22, _⟩ => ⟨S2x1x2x1, .f32⟩
  | .hbm, ⟨23, _⟩ => ⟨S1x64x1x64, .f32⟩
  | .hbm, ⟨24, _⟩ => ⟨S2x64x2x64, .f32⟩
  | .hbm, ⟨25, _⟩ => ⟨S2x64x2x64, .f32⟩
  | .hbm, ⟨26, _⟩ => ⟨S2x64x2x64, .f32⟩
  | .hbm, ⟨27, _⟩ => ⟨S128x128, .f32⟩
  | .hbm, ⟨28, _⟩ => ⟨S32768x128, .f32⟩
  | .hbm, ⟨29, _⟩ => ⟨S32768x128, .f32⟩
  | .hbm, ⟨30, _⟩ => ⟨S16x4096x8x8, .f32⟩
  | .hbm, ⟨31, _⟩ => ⟨S64, .f32⟩
  | .hbm, ⟨32, _⟩ => ⟨S64, .f32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S64x64, .f32⟩
  | .hbm, ⟨38, _⟩ => ⟨S64x64, .f32⟩
  | .hbm, ⟨39, _⟩ => ⟨S2x2, .i32⟩
  | .hbm, ⟨40, _⟩ => ⟨S2x2, .i32⟩
  | .hbm, ⟨41, _⟩ => ⟨S_, .i32⟩
  | .hbm, ⟨42, _⟩ => ⟨S2x2, .i32⟩
  | .hbm, ⟨43, _⟩ => ⟨S2x2, .i32⟩
  | .hbm, ⟨44, _⟩ => ⟨S2x2, .i1⟩
  | .hbm, ⟨45, _⟩ => ⟨S2x2, .f32⟩
  | .hbm, ⟨46, _⟩ => ⟨S2x1x2x1, .f32⟩
  | .hbm, ⟨47, _⟩ => ⟨S1x64x1x64, .f32⟩
  | .hbm, ⟨48, _⟩ => ⟨S2x64x2x64, .f32⟩
  | .hbm, ⟨49, _⟩ => ⟨S2x64x2x64, .f32⟩
  | .hbm, ⟨50, _⟩ => ⟨S2x64x2x64, .f32⟩
  | .hbm, ⟨51, _⟩ => ⟨S128x128, .f32⟩
  | .hbm, ⟨52, _⟩ => ⟨S8192x128, .f32⟩
  | .hbm, ⟨53, _⟩ => ⟨S8192x128, .f32⟩
  | .hbm, ⟨54, _⟩ => ⟨S16x1024x8x8, .f32⟩
  | .hbm, ⟨55, _⟩ => ⟨S64, .f32⟩
  | .hbm, ⟨56, _⟩ => ⟨S64, .f32⟩
  | .hbm, ⟨57, _⟩ => ⟨S64x1, .f32⟩
  | .hbm, ⟨58, _⟩ => ⟨S_, .f32⟩
  | .hbm, ⟨59, _⟩ => ⟨S64x1, .f32⟩
  | .hbm, ⟨60, _⟩ => ⟨S64x1, .f32⟩
  | .hbm, ⟨61, _⟩ => ⟨S64x64, .f32⟩
  | .hbm, ⟨62, _⟩ => ⟨S64x64, .f32⟩
  | .hbm, ⟨63, _⟩ => ⟨S2x2, .i32⟩
  | .hbm, ⟨64, _⟩ => ⟨S2x2, .i32⟩
  | .hbm, ⟨65, _⟩ => ⟨S_, .i32⟩
  | .hbm, ⟨66, _⟩ => ⟨S2x2, .i32⟩
  | .hbm, ⟨67, _⟩ => ⟨S2x2, .i32⟩
  | .hbm, ⟨68, _⟩ => ⟨S2x2, .i1⟩
  | .hbm, ⟨69, _⟩ => ⟨S2x2, .f32⟩
  | .hbm, ⟨70, _⟩ => ⟨S2x1x2x1, .f32⟩
  | .hbm, ⟨71, _⟩ => ⟨S1x64x1x64, .f32⟩
  | .hbm, ⟨72, _⟩ => ⟨S2x64x2x64, .f32⟩
  | .hbm, ⟨73, _⟩ => ⟨S2x64x2x64, .f32⟩
  | .hbm, ⟨74, _⟩ => ⟨S2x64x2x64, .f32⟩
  | .hbm, ⟨75, _⟩ => ⟨S128x128, .f32⟩
  | .hbm, ⟨76, _⟩ => ⟨S8192x128, .f32⟩
  | .hbm, ⟨77, _⟩ => ⟨S8192x128, .f32⟩
  | .hbm, ⟨78, _⟩ => ⟨S16x1024x8x8, .f32⟩
  | .hbm, ⟨79, _⟩ => ⟨S16x64x64x8x8, .f32⟩
  | .hbm, ⟨80, _⟩ => ⟨S16x64x8x64x8, .f32⟩
  | .hbm, ⟨81, _⟩ => ⟨S16x512x512, .f32⟩
  | .hbm, ⟨82, _⟩ => ⟨S16x32x32x8x8, .f32⟩
  | .hbm, ⟨83, _⟩ => ⟨S16x32x8x32x8, .f32⟩
  | .hbm, ⟨84, _⟩ => ⟨S16x256x256, .f32⟩
  | .hbm, ⟨85, _⟩ => ⟨S16x32x32x8x8, .f32⟩
  | .hbm, ⟨86, _⟩ => ⟨S16x32x8x32x8, .f32⟩
  | .hbm, ⟨87, _⟩ => ⟨S16x256x256, .f32⟩
  | .hbm, ⟨88, _⟩ => ⟨S16x256x2x256, .f32⟩
  | .hbm, ⟨89, _⟩ => ⟨S16x512x256, .f32⟩
  | .hbm, ⟨90, _⟩ => ⟨S16x512x256x2, .f32⟩
  | .hbm, ⟨91, _⟩ => ⟨S16x512x512, .f32⟩
  | .hbm, ⟨92, _⟩ => ⟨S16x256x2x256, .f32⟩
  | .hbm, ⟨93, _⟩ => ⟨S16x512x256, .f32⟩
  | .hbm, ⟨94, _⟩ => ⟨S16x512x256x2, .f32⟩
  | .hbm, ⟨95, _⟩ => ⟨S16x512x512, .f32⟩
  | .hbm, ⟨96, _⟩ => ⟨S16x3x512x512, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S128x128, .f32⟩
  | .local _ .vmem, ⟨13, _⟩ => ⟨S2048x128, .f32⟩
  | .local _ .vmem, ⟨14, _⟩ => ⟨S2048x128, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x3x256x512, .f32⟩
  | .local _ .vmem, ⟨22, _⟩ => ⟨S1x3x256x512, .f32⟩
  | _, _ => ⟨S16x4096x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x256x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x3x256x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  shapeCasts_S8x8_S64 : S8x8.ShapeCasts S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S_S2x2 : S_.BroadcastsInDim S2x2 (![] : Fin 0 → Fin S2x2.rank)
  bcast_S2x2_S2x1x2x1_0_2 : S2x2.BroadcastsInDim S2x1x2x1 (![0, 2] : Fin 2 → Fin S2x1x2x1.rank)
  bcast_S64x64_S1x64x1x64_1_3 : S64x64.BroadcastsInDim S1x64x1x64 (![1, 3] : Fin 2 → Fin S1x64x1x64.rank)
  bcast_S2x1x2x1_S2x64x2x64_0_1_2_3 : S2x1x2x1.BroadcastsInDim S2x64x2x64 (![0, 1, 2, 3] : Fin 4 → Fin S2x64x2x64.rank)
  bcast_S1x64x1x64_S2x64x2x64_0_1_2_3 : S1x64x1x64.BroadcastsInDim S2x64x2x64 (![0, 1, 2, 3] : Fin 4 → Fin S2x64x2x64.rank)
  shapeCasts_S2x64x2x64_S128x128 : S2x64x2x64.ShapeCasts S128x128
  shapeCasts_S16x4096x8x8_S32768x128 : S16x4096x8x8.ShapeCasts S32768x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S32768x128_S16x4096x8x8 : S32768x128.ShapeCasts S16x4096x8x8
  shapeCasts_S16x1024x8x8_S8192x128 : S16x1024x8x8.ShapeCasts S8192x128
  shapeCasts_S8192x128_S16x1024x8x8 : S8192x128.ShapeCasts S16x1024x8x8
  shapeCasts_S16x4096x8x8_S16x64x64x8x8 : S16x4096x8x8.ShapeCasts S16x64x64x8x8
  transposes_S16x64x64x8x8_S16x64x8x64x8_0_1_3_2_4 : S16x64x64x8x8.Transposes [0, 1, 3, 2, 4] S16x64x8x64x8
  shapeCasts_S16x64x8x64x8_S16x512x512 : S16x64x8x64x8.ShapeCasts S16x512x512
  shapeCasts_S16x1024x8x8_S16x32x32x8x8 : S16x1024x8x8.ShapeCasts S16x32x32x8x8
  transposes_S16x32x32x8x8_S16x32x8x32x8_0_1_3_2_4 : S16x32x32x8x8.Transposes [0, 1, 3, 2, 4] S16x32x8x32x8
  shapeCasts_S16x32x8x32x8_S16x256x256 : S16x32x8x32x8.ShapeCasts S16x256x256
  bcast_S16x256x256_S16x256x2x256_0_1_3 : S16x256x256.BroadcastsInDim S16x256x2x256 (![0, 1, 3] : Fin 3 → Fin S16x256x2x256.rank)
  shapeCasts_S16x256x2x256_S16x512x256 : S16x256x2x256.ShapeCasts S16x512x256
  bcast_S16x512x256_S16x512x256x2_0_1_2 : S16x512x256.BroadcastsInDim S16x512x256x2 (![0, 1, 2] : Fin 3 → Fin S16x512x256x2.rank)
  shapeCasts_S16x512x256x2_S16x512x512 : S16x512x256x2.ShapeCasts S16x512x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x3x256x512_S1x1x256x512_0_0_0_0 : ∀ a, (![0, 0, 0, 0] : Fin 4 → Nat) a + S1x1x256x512.size a ≤ S1x3x256x512.size a
  h_S1x1x256x512 : 0 < S1x1x256x512.numel
  shapeCasts_S1x1x256x512_S256x512 : S1x1x256x512.ShapeCasts S256x512
  shapeCasts_S256x512_S1x1x256x512 : S256x512.ShapeCasts S1x1x256x512
  inb_S1x3x256x512_S1x1x256x512_0_1_0_0 : ∀ a, (![0, 1, 0, 0] : Fin 4 → Nat) a + S1x1x256x512.size a ≤ S1x3x256x512.size a
  inb_S1x3x256x512_S1x1x256x512_0_2_0_0 : ∀ a, (![0, 2, 0, 0] : Fin 4 → Nat) a + S1x1x256x512.size a ≤ S1x3x256x512.size a
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .f32 = 32 ∨ (Rect.block (s := S8192x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x512.size a ≤ S16x512x512.size a
  hwx3_0 : ∀ i : grid3.Coords, EltTy.bits .f32 = 32 ∨ (Rect.block (s := S16x512x512) S1x256x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x512.size a ≤ S16x512x512.size a
  hwx3_1 : ∀ i : grid3.Coords, EltTy.bits .f32 = 32 ∨ (Rect.block (s := S16x512x512) S1x256x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x512.size a ≤ S16x512x512.size a
  hwx3_2 : ∀ i : grid3.Coords, EltTy.bits .f32 = 32 ∨ (Rect.block (s := S16x512x512) S1x256x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x3x256x512.size a ≤ S16x3x512x512.size a
  hwx3_3 : ∀ i : grid3.Coords, EltTy.bits .f32 = 32 ∨ (Rect.block (s := S16x3x512x512) S1x3x256x512.size (cc3_transform_3 i) (hinb3_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v14) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S1x256x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x256x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x256x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x3x256x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== Proof.DecodeSpec.lean ====
/-
  The three whole-array functions this certificate is stated over, as functions of arrays of extended
  reals, index by index, over literal shapes.

  * `Decode.fused`: an image decoded in one pass. Luma coefficients `y2` (one row of 64 per 8×8 block, 4096 blocks
    per image laid 64 per block-row) are multiplied by a 64×64 matrix `wy` and 128 is added; pixel (r, c) of
    the 512×512 plane reads block (r/8)·64 + c/8, entry (r%8)·8 + c%8 of that product. Chroma coefficients
    (1024 blocks per image, 32 per block-row) are multiplied by a 64×128 matrix `wc` whose columns come in
    equal pairs (a 2× widening along a row); pixel (r, c) reads block (r/16)·32 + c/16, entry
    ((r/2)%8)·16 + c%16 (each chroma row serves two pixel rows). The three channels are the clamped
    affine combinations of the luma value and the two chroma values.
  * `Decode.stage`: rows of 128 coefficients (two blocks side by side) times a 128×128 matrix, plus 128.
  * `Decode.colour`: the clamped combinations of three planes, the two chroma planes first lowered by 128.
-/
import Idealize.ShloMosaic.PureOps.Ideal
import Idealize.ShloMosaic.Lib.ValueIdx

noncomputable section

namespace Decode

open Idealize.ShloMosaic Idealize.ShloMosaic.ValueIdx

/-- The float constants of the colour transform and of the clamp, as their binary values. -/
abbrev k128 : EReal := Ideal.ofBits .f32 0x43000000#32
abbrev kR : EReal := Ideal.ofBits .f32 0x3FB374BC#32
abbrev kGb : EReal := Ideal.ofBits .f32 0x3EB03298#32
abbrev kGr : EReal := Ideal.ofBits .f32 0x3F36D19E#32
abbrev kB : EReal := Ideal.ofBits .f32 0x3FE2D0E5#32
abbrev k0 : EReal := Ideal.ofBits .f32 0x00000000#32
abbrev k255 : EReal := Ideal.ofBits .f32 0x437F0000#32

/-- Clamp to [0, 255]. -/
def clamp (x : EReal) : EReal := min k255 (max k0 x)

/-- Channel `ch` of a pixel from its luma value `l` and its two chroma values `b`, `r`. -/
def rgb (ch : Fin 3) (l b r : EReal) : EReal :=
  match ch with
  | ⟨0, _⟩ => clamp (l + kR * r)
  | ⟨1, _⟩ => clamp ((l - kGb * b) - kGr * r)
  | ⟨2, _⟩ => clamp (l + kB * b)

theorem lumaBlk_lt (r c : Fin 512) : r.val / 8 * 64 + c.val / 8 < 4096 := by omega
theorem lumaEnt_lt (r c : Fin 512) : r.val % 8 * 8 + c.val % 8 < 64 := by omega
theorem chromaBlk_lt (r c : Fin 512) : r.val / 16 * 32 + c.val / 16 < 1024 := by omega
theorem chromaEnt_lt (r c : Fin 512) : r.val / 2 % 8 * 16 + c.val % 16 < 128 := by omega

/-- The fused decoder: see the header. -/
def fused (y2 : (⟨3, ![16, 4096, 64]⟩ : Shape).Idx → EReal) (cb2 cr2 : (⟨3, ![16, 1024, 64]⟩ : Shape).Idx → EReal)
    (wy : (⟨2, ![64, 64]⟩ : Shape).Idx → EReal) (wc : (⟨2, ![64, 128]⟩ : Shape).Idx → EReal) :
    (⟨4, ![16, 3, 512, 512]⟩ : Shape).Idx → EReal := fun i =>
  rgb (i 1)
    ((∑ k : Fin 64, y2 (ix3 (i 0) ⟨_, lumaBlk_lt (i 2) (i 3)⟩ k) * wy (ix2 k ⟨_, lumaEnt_lt (i 2) (i 3)⟩)) + k128)
    (∑ k : Fin 64, cb2 (ix3 (i 0) ⟨_, chromaBlk_lt (i 2) (i 3)⟩ k) * wc (ix2 k ⟨_, chromaEnt_lt (i 2) (i 3)⟩))
    (∑ k : Fin 64, cr2 (ix3 (i 0) ⟨_, chromaBlk_lt (i 2) (i 3)⟩ k) * wc (ix2 k ⟨_, chromaEnt_lt (i 2) (i 3)⟩))

/-- One dequantise-and-transform stage on `n` packed rows: row times matrix, plus 128. -/
def stage {n : Nat} (x : (⟨2, ![n, 128]⟩ : Shape).Idx → EReal) (w : (⟨2, ![128, 128]⟩ : Shape).Idx → EReal) :
    (⟨2, ![n, 128]⟩ : Shape).Idx → EReal := fun i =>
  (∑ k : Fin 128, x (ix2 (i 0) k) * w (ix2 k (i 1))) + k128

/-- The colour stage on three full planes. -/
def colour (yp cbp crp : (⟨3, ![16, 512, 512]⟩ : Shape).Idx → EReal) :
    (⟨4, ![16, 3, 512, 512]⟩ : Shape).Idx → EReal := fun i =>
  rgb (i 1) (yp (ix3 (i 0) (i 2) (i 3))) (cbp (ix3 (i 0) (i 2) (i 3)) - k128) (crp (ix3 (i 0) (i 2) (i 3)) - k128)

end Decode

end
-- ==== Proof.FusedValue.lean ====
/-
  The value of the fused decoder kernel: after the run, the output array is `Decode.fused` of the five arrays the
  launch reads (luma coefficients, the two chroma coefficient arrays, the 64×64 luma matrix and the 64×128 widened
  chroma matrix).

  One grid point (b, i) decodes rows 64·i … 64·i + 63 of image b. Its luma tile is the product of 512 coefficient rows
  (block rows 8·i … 8·i + 7, 64 blocks each) with the 64×64 matrix, re-laid from "one row per block" to pixels: pixel
  (r', c) of the tile reads product row (r'/8)·64 + c/8, column (r'%8)·8 + c%8. Each chroma tile is the product of 128
  coefficient rows (block rows 4·i … 4·i + 3, 32 blocks each) with the 64×128 matrix, re-laid the same way to a 32×512
  half-height tile and then every row doubled: pixel (r', c) reads product row (r'/16)·32 + c/16, column
  ((r'/2)%8)·16 + c%16. The three channels are the clamped affine combinations of these three tiles.

  The file reads each layout operation at an index, then each matrix product as a sum over the contracted coordinate,
  then the three stored channels, then identifies what a grid point writes back with the block of `Decode.fused` it
  covers, and finally shows that the blocks cover the whole output array.
-/
import proofs.«133770_g2000209683478752_pallasbulk_677_4_alg».proof.Proof.Gen.KernelIdeal.Value
import proofs.«133770_g2000209683478752_pallasbulk_677_4_alg».proof.Proof.DecodeSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Fused

open Cert.KernelIdeal Cert.KernelIdeal.Gen Idealize.ShloMosaic Idealize.ShloMosaic.ValueIdx Idealize.ShloMosaic.TcCoe Idealize.SL.Sem
open Idealize.ShloMosaic.Pipeline (Dat)

/-! ## Layout operations read at an index -/

section Layout
variable {α : Type}

/-- 512 rows of 64 seen as 8 block-rows of 64 blocks of 8×8: entry (a, b, s, u) is row 64·a + b, column 8·s + u. -/
theorem cast_rows_blocks8 (x : S512x64.Idx → α) (h : S512x64.ShapeCasts S8x64x8x8) (a : Fin 8) (b : Fin 64) (s : Fin 8) (u : Fin 8) :
    shapeCast S8x64x8x8 x h (ix4 a b s u) = x (ix2 ⟨a.val * 64 + b.val, by omega⟩ ⟨s.val * 8 + u.val, by omega⟩) :=
  shapeCast_apply x h _ _ (by
    rw [Shape.rowMajor_val_two, Shape.rowMajor_val_four]
    show (a.val * 64 + b.val) * 64 + (s.val * 8 + u.val) = ((a.val * 64 + b.val) * 8 + s.val) * 8 + u.val
    omega)

/-- The two middle axes exchanged. -/
theorem transpose_blocks8 (x : S8x64x8x8.Idx → α) (h : S8x64x8x8.Transposes [0, 2, 1, 3] S8x8x64x8) (a : Fin 8) (s : Fin 8) (b : Fin 64) (u : Fin 8) :
    transpose S8x8x64x8 [0, 2, 1, 3] x h (ix4 a s b u) = x (ix4 a b s u) :=
  transpose_apply _ x h _ _ fun c => match c with | ⟨0, _⟩ => rfl | ⟨1, _⟩ => rfl | ⟨2, _⟩ => rfl | ⟨3, _⟩ => rfl

/-- 8×8×64×8 flattened to 64 pixel rows of 512: pixel (r, c) is entry (r/8, r%8, c/8, c%8). -/
theorem cast_blocks8_pixels (x : S8x8x64x8.Idx → α) (h : S8x8x64x8.ShapeCasts S64x512) (r : Fin 64) (c : Fin 512) :
    shapeCast S64x512 x h (ix2 r c) = x (ix4 ⟨r.val / 8, by omega⟩ ⟨r.val % 8, by omega⟩ ⟨c.val / 8, by omega⟩ ⟨c.val % 8, by omega⟩) :=
  shapeCast_apply x h _ _ (by
    rw [Shape.rowMajor_val_four, Shape.rowMajor_val_two]
    show ((r.val / 8 * 8 + r.val % 8) * 64 + c.val / 8) * 8 + c.val % 8 = r.val * 512 + c.val
    omega)

/-- 128 rows of 128 seen as 4 block-rows of 32 blocks of 8×16: entry (a, b, s, u) is row 32·a + b, column 16·s + u. -/
theorem cast_rows_blocks16 (x : S128x128.Idx → α) (h : S128x128.ShapeCasts S4x32x8x16) (a : Fin 4) (b : Fin 32) (s : Fin 8) (u : Fin 16) :
    shapeCast S4x32x8x16 x h (ix4 a b s u) = x (ix2 ⟨a.val * 32 + b.val, by omega⟩ ⟨s.val * 16 + u.val, by omega⟩) :=
  shapeCast_apply x h _ _ (by
    rw [Shape.rowMajor_val_two, Shape.rowMajor_val_four]
    show (a.val * 32 + b.val) * 128 + (s.val * 16 + u.val) = ((a.val * 32 + b.val) * 8 + s.val) * 16 + u.val
    omega)

/-- The two middle axes exchanged. -/
theorem transpose_blocks16 (x : S4x32x8x16.Idx → α) (h : S4x32x8x16.Transposes [0, 2, 1, 3] S4x8x32x16) (a : Fin 4) (s : Fin 8) (b : Fin 32) (u : Fin 16) :
    transpose S4x8x32x16 [0, 2, 1, 3] x h (ix4 a s b u) = x (ix4 a b s u) :=
  transpose_apply _ x h _ _ fun c => match c with | ⟨0, _⟩ => rfl | ⟨1, _⟩ => rfl | ⟨2, _⟩ => rfl | ⟨3, _⟩ => rfl

/-- 4×8×32×16 flattened to 32 half-height rows of 512: entry (g, c) is (g/8, g%8, c/16, c%16). -/
theorem cast_blocks16_half (x : S4x8x32x16.Idx → α) (h : S4x8x32x16.ShapeCasts S32x512) (g : Fin 32) (c : Fin 512) :
    shapeCast S32x512 x h (ix2 g c) = x (ix4 ⟨g.val / 8, by omega⟩ ⟨g.val % 8, by omega⟩ ⟨c.val / 16, by omega⟩ ⟨c.val % 16, by omega⟩) :=
  shapeCast_apply x h _ _ (by
    rw [Shape.rowMajor_val_four, Shape.rowMajor_val_two]
    show ((g.val / 8 * 8 + g.val % 8) * 32 + c.val / 16) * 16 + c.val % 16 = g.val * 512 + c.val
    omega)

/-- A unit axis put in the middle. -/
theorem cast_half_unit (x : S32x512.Idx → α) (h : S32x512.ShapeCasts S32x1x512) (g : Fin 32) (z : Fin 1) (c : Fin 512) :
    shapeCast S32x1x512 x h (ix3 g z c) = x (ix2 g c) :=
  shapeCast_apply x h _ _ (by
    have hz : z.val = 0 := by omega
    rw [Shape.rowMajor_val_two, Shape.rowMajor_val_three]
    show g.val * 512 + c.val = (g.val * 1 + z.val) * 512 + c.val
    rw [hz]; omega)

/-- The unit axis doubled: both copies read the one row. -/
theorem broadcast_double (x : S32x1x512.Idx → α) (h : S32x1x512.Broadcasts S32x2x512) (g : Fin 32) (e : Fin 2) (c : Fin 512) :
    broadcastTo S32x2x512 x h (ix3 g e c) = x (ix3 g (0 : Fin 1) c) :=
  broadcastTo_apply x h _ _ fun a => match a with | ⟨0, _⟩ => rfl | ⟨1, _⟩ => rfl | ⟨2, _⟩ => rfl

/-- 32×2×512 flattened to 64 pixel rows: row r is (r/2, r%2). -/
theorem cast_double_pixels (x : S32x2x512.Idx → α) (h : S32x2x512.ShapeCasts S64x512) (r : Fin 64) (c : Fin 512) :
    shapeCast S64x512 x h (ix2 r c) = x (ix3 ⟨r.val / 2, by omega⟩ ⟨r.val % 2, by omega⟩ c) :=
  shapeCast_apply x h _ _ (by
    rw [Shape.rowMajor_val_three, Shape.rowMajor_val_two]
    show (r.val / 2 * 2 + r.val % 2) * 512 + c.val = r.val * 512 + c.val
    omega)

/-- A tile with two unit axes in front. -/
theorem cast_pixels_unit2 (x : S64x512.Idx → α) (h : S64x512.ShapeCasts S1x1x64x512) (z0 z1 : Fin 1) (r : Fin 64) (c : Fin 512) :
    shapeCast S1x1x64x512 x h (ix4 z0 z1 r c) = x (ix2 r c) :=
  shapeCast_apply x h _ _ (by
    have h0 : z0.val = 0 := by omega
    have h1 : z1.val = 0 := by omega
    rw [Shape.rowMajor_val_two, Shape.rowMajor_val_four]
    show r.val * 512 + c.val = ((z0.val * 1 + z1.val) * 64 + r.val) * 512 + c.val
    rw [h0, h1]; omega)

end Layout

/-! ## The two matrix products read at an index -/

/-- The luma product's row coordinate does not depend on the contracted coordinate. -/
theorem lumaDot_lhs0 (j : S512x64.Idx) (q : dot_S512x64_S64x64_S512x64_1_0_0_1_n_n.contr.Idx) :
    (dot_S512x64_S64x64_S512x64_1_0_0_1_n_n.lhsIdx j q 0).val = (j 0).val := by
  unfold DotDims.lhsIdx
  rw [dif_neg (show ¬(0 : Fin S512x64.rank) ∈ dot_S512x64_S64x64_S512x64_1_0_0_1_n_n.lhsBatch by decide),
    dif_pos (show (0 : Fin S512x64.rank) ∈ dot_S512x64_S64x64_S512x64_1_0_0_1_n_n.lhsNonContracting by decide)]
  rfl

/-- Nor does its column coordinate. -/
theorem lumaDot_rhs1 (j : S512x64.Idx) (q : dot_S512x64_S64x64_S512x64_1_0_0_1_n_n.contr.Idx) :
    (dot_S512x64_S64x64_S512x64_1_0_0_1_n_n.rhsIdx j q 1).val = (j 1).val := by
  unfold DotDims.rhsIdx
  rw [dif_neg (show ¬(1 : Fin S64x64.rank) ∈ dot_S512x64_S64x64_S512x64_1_0_0_1_n_n.rhsBatch by decide),
    dif_pos (show (1 : Fin S64x64.rank) ∈ dot_S512x64_S64x64_S512x64_1_0_0_1_n_n.rhsNonContracting by decide)]
  rfl

/-- The 512×64 by 64×64 product into a zero accumulator: entry (p, q) is the sum over k of A(p, k)·B(k, q). -/
theorem lumaDot_apply (A : FVec Ideal S512x64 .f32) (B : FVec Ideal S64x64 .f32) (p : Fin 512) (q : Fin 64) :
    matmul dot_S512x64_S64x64_S512x64_1_0_0_1_n_n none A B (constant (F := Ideal) S512x64 .f32 0x00000000#32) (ix2 p q)
      = ∑ k : Fin 64, A (ix2 p k) * B (ix2 k q) := by
  show FloatOps.matmul _ none A B _ (ix2 p q) = _
  rw [Ideal.matmul_constant_zero_apply, ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 p q) ((contrEquiv1 dot_S512x64_S64x64_S512x64_1_0_0_1_n_n 64 rfl rfl).symm k) = ix2 p k :=
    funext fun a => Fin.ext (by
      match a with
      | ⟨0, _⟩ => exact lumaDot_lhs0 _ _
      | ⟨1, _⟩ => exact (dot_S512x64_S64x64_S512x64_1_0_0_1_n_n.lhsIdx_val_of_single rfl _ _).trans hk)
  have er : dot_S512x64_S64x64_S512x64_1_0_0_1_n_n.rhsIdx (ix2 p q) ((contrEquiv1 dot_S512x64_S64x64_S512x64_1_0_0_1_n_n 64 rfl rfl).symm k) = ix2 k q :=
    funext fun a => Fin.ext (by
      match a with
      | ⟨0, _⟩ => exact (dot_S512x64_S64x64_S512x64_1_0_0_1_n_n.rhsIdx_val_of_single rfl _ _).trans hk
      | ⟨1, _⟩ => exact lumaDot_rhs1 _ _)
  rw [el, er]

/-- The chroma product's row coordinate does not depend on the contracted coordinate. -/
theorem chromaDot_lhs0 (j : S128x128.Idx) (q : dot_S128x64_S64x128_S128x128_1_0_0_1_n_n.contr.Idx) :
    (dot_S128x64_S64x128_S128x128_1_0_0_1_n_n.lhsIdx j q 0).val = (j 0).val := by
  unfold DotDims.lhsIdx
  rw [dif_neg (show ¬(0 : Fin S128x64.rank) ∈ dot_S128x64_S64x128_S128x128_1_0_0_1_n_n.lhsBatch by decide),
    dif_pos (show (0 : Fin S128x64.rank) ∈ dot_S128x64_S64x128_S128x128_1_0_0_1_n_n.lhsNonContracting by decide)]
  rfl

/-- Nor does its column coordinate. -/
theorem chromaDot_rhs1 (j : S128x128.Idx) (q : dot_S128x64_S64x128_S128x128_1_0_0_1_n_n.contr.Idx) :
    (dot_S128x64_S64x128_S128x128_1_0_0_1_n_n.rhsIdx j q 1).val = (j 1).val := by
  unfold DotDims.rhsIdx
  rw [dif_neg (show ¬(1 : Fin S64x128.rank) ∈ dot_S128x64_S64x128_S128x128_1_0_0_1_n_n.rhsBatch by decide),
    dif_pos (show (1 : Fin S64x128.rank) ∈ dot_S128x64_S64x128_S128x128_1_0_0_1_n_n.rhsNonContracting by decide)]
  rfl

/-- The 128×64 by 64×128 product into a zero accumulator: entry (p, q) is the sum over k of A(p, k)·B(k, q). -/
theorem chromaDot_apply (A : FVec Ideal S128x64 .f32) (B : FVec Ideal S64x128 .f32) (p : Fin 128) (q : Fin 128) :
    matmul dot_S128x64_S64x128_S128x128_1_0_0_1_n_n none A B (constant (F := Ideal) S128x128 .f32 0x00000000#32) (ix2 p q)
      = ∑ k : Fin 64, A (ix2 p k) * B (ix2 k q) := by
  show FloatOps.matmul _ none A B _ (ix2 p q) = _
  rw [Ideal.matmul_constant_zero_apply, ← Equiv.sum_comp (contrEquiv1 dot_S128x64_S64x128_S128x128_1_0_0_1_n_n 64 rfl rfl).symm]
  refine Finset.sum_congr rfl fun k _ => ?_
  have hk := contrEquiv1_symm_val dot_S128x64_S64x128_S128x128_1_0_0_1_n_n 64 rfl rfl k
  have el : dot_S128x64_S64x128_S128x128_1_0_0_1_n_n.lhsIdx (ix2 p q) ((contrEquiv1 dot_S128x64_S64x128_S128x128_1_0_0_1_n_n 64 rfl rfl).symm k) = ix2 p k :=
    funext fun a => Fin.ext (by
      match a with
      | ⟨0, _⟩ => exact chromaDot_lhs0 _ _
      | ⟨1, _⟩ => exact (dot_S128x64_S64x128_S128x128_1_0_0_1_n_n.lhsIdx_val_of_single rfl _ _).trans hk)
  have er : dot_S128x64_S64x128_S128x128_1_0_0_1_n_n.rhsIdx (ix2 p q) ((contrEquiv1 dot_S128x64_S64x128_S128x128_1_0_0_1_n_n 64 rfl rfl).symm k) = ix2 k q :=
    funext fun a => Fin.ext (by
      match a with
      | ⟨0, _⟩ => exact (dot_S128x64_S64x128_S128x128_1_0_0_1_n_n.rhsIdx_val_of_single rfl _ _).trans hk
      | ⟨1, _⟩ => exact chromaDot_rhs1 _ _)
  rw [el, er]

/-! ## The three tiles at a pixel -/

theorem lumaRow_lt (r : Fin 64) (c : Fin 512) : r.val / 8 * 64 + c.val / 8 < 512 := by omega
theorem lumaCol_lt (r : Fin 64) (c : Fin 512) : r.val % 8 * 8 + c.val % 8 < 64 := by omega
theorem chromaRow_lt (r : Fin 64) (c : Fin 512) : r.val / 2 / 8 * 32 + c.val / 16 < 128 := by omega
theorem chromaCol_lt (r : Fin 64) (c : Fin 512) : r.val / 2 % 8 * 16 + c.val % 16 < 128 := by omega

/-- THE LUMA TILE at pixel (r, c): coefficient row (r/8)·64 + c/8 of the block times column (r%8)·8 + c%8 of the
    matrix, plus 128. -/
theorem luma_at (x0 : Vec Ideal S1x512x64 .f32) (w : Vec Ideal S64x64 .f32) (r : Fin 64) (c : Fin 512) :
    k0_pay4 (F := Ideal) x0 w (ix2 r c)
      = (∑ k : Fin 64, x0 (ix3 (0 : Fin 1) ⟨r.val / 8 * 64 + c.val / 8, lumaRow_lt r c⟩ k) * w (ix2 k ⟨r.val % 8 * 8 + c.val % 8, lumaCol_lt r c⟩))
        + Ideal.ofBits .f32 0x43000000#32 := by
  unfold k0_pay4
  dsimp only
  rw [addf_apply, broadcast_apply, cast_blocks8_pixels, transpose_blocks8, cast_rows_blocks8, lumaDot_apply]
  refine congrArg (· + _) (Finset.sum_congr rfl fun k _ => ?_)
  rw [shapeCast_1ab_ab_apply, shapeCast_self]

/-- A CHROMA TILE at pixel (r, c): coefficient row ((r/2)/8)·32 + c/16 of the block times column ((r/2)%8)·16 + c%16 of
    the widened matrix (row r of the tile is row r/2 of the half-height tile). -/
theorem chromaB_at (x1 : Vec Ideal S1x128x64 .f32) (w : Vec Ideal S64x128 .f32) (r : Fin 64) (c : Fin 512) :
    k0_pay5 (F := Ideal) x1 w (ix2 r c)
      = ∑ k : Fin 64, x1 (ix3 (0 : Fin 1) ⟨r.val / 2 / 8 * 32 + c.val / 16, chromaRow_lt r c⟩ k) * w (ix2 k ⟨r.val / 2 % 8 * 16 + c.val % 16, chromaCol_lt r c⟩) := by
  unfold k0_pay5
  dsimp only
  rw [cast_double_pixels, broadcast_double, cast_half_unit, cast_blocks16_half, transpose_blocks16, cast_rows_blocks16, chromaDot_apply]
  refine Finset.sum_congr rfl fun k _ => ?_
  rw [shapeCast_1ab_ab_apply, shapeCast_self]

/-- The other chroma tile is the same function of its own coefficient block. -/
theorem chromaR_at (x2 : Vec Ideal S1x128x64 .f32) (w : Vec Ideal S64x128 .f32) (r : Fin 64) (c : Fin 512) :
    k0_pay6 (F := Ideal) x2 w (ix2 r c)
      = ∑ k : Fin 64, x2 (ix3 (0 : Fin 1) ⟨r.val / 2 / 8 * 32 + c.val / 16, chromaRow_lt r c⟩ k) * w (ix2 k ⟨r.val / 2 % 8 * 16 + c.val % 16, chromaCol_lt r c⟩) :=
  chromaB_at x2 w r c

/-! ## The three stored channels at a pixel -/

/-- The first channel's stored value: the clamp of the luma tile plus the scaled second chroma tile. -/
theorem red_at (x0 : Vec Ideal S1x512x64 .f32) (w : Vec Ideal S64x64 .f32) (x2 : Vec Ideal S1x128x64 .f32) (wc : Vec Ideal S64x128 .f32)
    (z0 z1 : Fin 1) (r : Fin 64) (c : Fin 512) :
    k0_pay1 (F := Ideal) (k0_pay7 x0 w x2 wc) (Scalar.ofBits .f32 0x437F0000#32) (k0_pay8 (F := Ideal)) (ix4 z0 z1 r c)
      = Decode.clamp (k0_pay4 (F := Ideal) x0 w (ix2 r c) + Decode.kR * k0_pay6 (F := Ideal) x2 wc (ix2 r c)) := by
  unfold k0_pay1
  rw [cast_pixels_unit2]
  rfl

/-- The second channel's: the clamp of the luma tile less the two scaled chroma tiles. -/
theorem green_at (l b rr : FVec Ideal S64x512 .f32) (z0 z1 : Fin 1) (r : Fin 64) (c : Fin 512) :
    k0_pay2 (F := Ideal) l b rr (ix4 z0 z1 r c)
      = Decode.clamp ((l (ix2 r c) - Decode.kGb * b (ix2 r c)) - Decode.kGr * rr (ix2 r c)) := by
  unfold k0_pay2
  rw [cast_pixels_unit2]
  rfl

/-- The third channel's: the clamp of the luma tile plus the scaled first chroma tile. -/
theorem blue_at (l b : FVec Ideal S64x512 .f32) (z0 z1 : Fin 1) (r : Fin 64) (c : Fin 512) :
    k0_pay3 (F := Ideal) l b (ix4 z0 z1 r c) = Decode.clamp (l (ix2 r c) + Decode.kB * b (ix2 r c)) := by
  unfold k0_pay3
  rw [cast_pixels_unit2]
  rfl

/-! ## The output block at a pixel -/

theorem hz3 : (![0, 0, 0] : Fin 3 → Nat) = fun _ => 0 := funext fun a => by fin_cases a <;> rfl
theorem hz2 : (![0, 0] : Fin 2 → Nat) = fun _ => 0 := funext fun a => by fin_cases a <;> rfl

/-- Three stores, each filling one channel of a 1×3×64×512 block whole, the last one made listed first: channel 0 of the
    block holds the third listed store's value, -/
theorem canon_ch0 (p0 p1 p2 : Vec Ideal S1x1x64x512 .f32) (z : Fin 1) (r : Fin 64) (c : Fin 512) :
    View.canon ([⟨r0_6, p0⟩, ⟨r0_5, p1⟩, ⟨r0_4, p2⟩] : List (View.Piece (Elt Ideal) S1x3x64x512 .f32)) (ix4 z (0 : Fin 3) r c)
      = p2 (ix4 (0 : Fin 1) (0 : Fin 1) r c) := by
  have hz0 : z.val = 0 := by omega
  have n6 : ix4 z (0 : Fin 3) r c ∉ r0_6.set := by
    rw [Rect.mem_set_unit]; intro h; have h1 : (2 : Nat) ≤ 0 := (h 1).1; omega
  have n5 : ix4 z (0 : Fin 3) r c ∉ r0_5.set := by
    rw [Rect.mem_set_unit]; intro h; have h1 : (1 : Nat) ≤ 0 := (h 1).1; omega
  have e : r0_4.emb (ix4 (0 : Fin 1) (0 : Fin 1) r c) = ix4 z (0 : Fin 3) r c := funext fun a => Fin.ext (by
    match a with
    | ⟨0, _⟩ => show 0 + 1 * 0 = z.val; omega
    | ⟨1, _⟩ => rfl
    | ⟨2, _⟩ => show 0 + 1 * r.val = r.val; omega
    | ⟨3, _⟩ => show 0 + 1 * c.val = c.val; omega)
  refine (View.canon_cons_of_not_mem (⟨r0_6, p0⟩ : View.Piece (Elt Ideal) S1x3x64x512 .f32) [⟨r0_5, p1⟩, ⟨r0_4, p2⟩] n6).trans ?_
  refine (View.canon_cons_of_not_mem (⟨r0_5, p1⟩ : View.Piece (Elt Ideal) S1x3x64x512 .f32) [⟨r0_4, p2⟩] n5).trans ?_
  rw [← e]
  exact View.canon_cons_emb r0_4 p2 [] _

/-- channel 1 the second's, -/
theorem canon_ch1 (p0 p1 p2 : Vec Ideal S1x1x64x512 .f32) (z : Fin 1) (r : Fin 64) (c : Fin 512) :
    View.canon ([⟨r0_6, p0⟩, ⟨r0_5, p1⟩, ⟨r0_4, p2⟩] : List (View.Piece (Elt Ideal) S1x3x64x512 .f32)) (ix4 z (1 : Fin 3) r c)
      = p1 (ix4 (0 : Fin 1) (0 : Fin 1) r c) := by
  have hz0 : z.val = 0 := by omega
  have n6 : ix4 z (1 : Fin 3) r c ∉ r0_6.set := by
    rw [Rect.mem_set_unit]; intro h; have h1 : (2 : Nat) ≤ 1 := (h 1).1; omega
  have e : r0_5.emb (ix4 (0 : Fin 1) (0 : Fin 1) r c) = ix4 z (1 : Fin 3) r c := funext fun a => Fin.ext (by
    match a with
    | ⟨0, _⟩ => show 0 + 1 * 0 = z.val; omega
    | ⟨1, _⟩ => rfl
    | ⟨2, _⟩ => show 0 + 1 * r.val = r.val; omega
    | ⟨3, _⟩ => show 0 + 1 * c.val = c.val; omega)
  refine (View.canon_cons_of_not_mem (⟨r0_6, p0⟩ : View.Piece (Elt Ideal) S1x3x64x512 .f32) [⟨r0_5, p1⟩, ⟨r0_4, p2⟩] n6).trans ?_
  rw [← e]
  exact View.canon_cons_emb r0_5 p1 [⟨r0_4, p2⟩] _

/-- and channel 2 the first's. -/
theorem canon_ch2 (p0 p1 p2 : Vec Ideal S1x1x64x512 .f32) (z : Fin 1) (r : Fin 64) (c : Fin 512) :
    View.canon ([⟨r0_6, p0⟩, ⟨r0_5, p1⟩, ⟨r0_4, p2⟩] : List (View.Piece (Elt Ideal) S1x3x64x512 .f32)) (ix4 z (2 : Fin 3) r c)
      = p0 (ix4 (0 : Fin 1) (0 : Fin 1) r c) := by
  have hz0 : z.val = 0 := by omega
  have e : r0_6.emb (ix4 (0 : Fin 1) (0 : Fin 1) r c) = ix4 z (2 : Fin 3) r c := funext fun a => Fin.ext (by
    match a with
    | ⟨0, _⟩ => show 0 + 1 * 0 = z.val; omega
    | ⟨1, _⟩ => rfl
    | ⟨2, _⟩ => show 0 + 1 * r.val = r.val; omega
    | ⟨3, _⟩ => show 0 + 1 * c.val = c.val; omega)
  rw [← e]
  exact View.canon_cons_emb r0_6 p0 [⟨r0_5, p1⟩, ⟨r0_4, p2⟩] _

/-- THE OUTPUT BLOCK at channel ch, pixel (r, c): the three stores each fill one channel of the block whole, so the
    block holds, at channel ch, that channel's combination of the three tiles at the pixel. -/
theorem out_at (x0 : Vec Ideal S1x512x64 .f32) (x1 x2 : Vec Ideal S1x128x64 .f32) (x3 : Vec Ideal S64x64 .f32) (x4 : Vec Ideal S64x128 .f32)
    (z : Fin 1) (ch : Fin 3) (r : Fin 64) (c : Fin 512) :
    out0_5 (F := Ideal) x0 x1 x2 x3 x4 (ix4 z ch r c)
      = Decode.rgb ch (k0_pay4 (F := Ideal) x0 x3 (ix2 r c)) (k0_pay5 (F := Ideal) x1 x4 (ix2 r c)) (k0_pay6 (F := Ideal) x2 x4 (ix2 r c)) := by
  unfold out0_5
  simp only [View.ld_unit_zero (S := S1x512x64) hz3, View.ld_unit_zero (S := S1x128x64) hz3, View.ld_unit_zero (S := S64x64) hz2,
    View.ld_unit_zero (S := S64x128) hz2]
  match ch with
  | ⟨0, _⟩ => exact (canon_ch0 _ _ _ z r c).trans (red_at x0 x3 x2 x4 0 0 r c)
  | ⟨1, _⟩ => exact (canon_ch1 _ _ _ z r c).trans (green_at _ _ _ 0 0 r c)
  | ⟨2, _⟩ => exact (canon_ch2 _ _ _ z r c).trans (blue_at _ _ 0 0 r c)

/-! ## A grid point's block is the block of the fused decoder it covers -/

/-- The luma tile at a pixel, with the two indices it reads named by their values. -/
theorem luma_at' (x0 : Vec Ideal S1x512x64 .f32) (w : Vec Ideal S64x64 .f32) (r : Fin 64) (c : Fin 512) (P : Fin 512) (Q : Fin 64)
    (hP : P.val = r.val / 8 * 64 + c.val / 8) (hQ : Q.val = r.val % 8 * 8 + c.val % 8) :
    k0_pay4 (F := Ideal) x0 w (ix2 r c) = (∑ k : Fin 64, x0 (ix3 (0 : Fin 1) P k) * w (ix2 k Q)) + Decode.k128 := by
  obtain rfl : P = ⟨r.val / 8 * 64 + c.val / 8, lumaRow_lt r c⟩ := Fin.ext hP
  obtain rfl : Q = ⟨r.val % 8 * 8 + c.val % 8, lumaCol_lt r c⟩ := Fin.ext hQ
  exact luma_at x0 w r c

/-- A chroma tile at a pixel, likewise. -/
theorem chromaB_at' (x1 : Vec Ideal S1x128x64 .f32) (w : Vec Ideal S64x128 .f32) (r : Fin 64) (c : Fin 512) (P : Fin 128) (Q : Fin 128)
    (hP : P.val = r.val / 2 / 8 * 32 + c.val / 16) (hQ : Q.val = r.val / 2 % 8 * 16 + c.val % 16) :
    k0_pay5 (F := Ideal) x1 w (ix2 r c) = ∑ k : Fin 64, x1 (ix3 (0 : Fin 1) P k) * w (ix2 k Q) := by
  obtain rfl : P = ⟨r.val / 2 / 8 * 32 + c.val / 16, chromaRow_lt r c⟩ := Fin.ext hP
  obtain rfl : Q = ⟨r.val / 2 % 8 * 16 + c.val % 16, chromaCol_lt r c⟩ := Fin.ext hQ
  exact chromaB_at x1 w r c

theorem chromaR_at' (x2 : Vec Ideal S1x128x64 .f32) (w : Vec Ideal S64x128 .f32) (r : Fin 64) (c : Fin 512) (P : Fin 128) (Q : Fin 128)
    (hP : P.val = r.val / 2 / 8 * 32 + c.val / 16) (hQ : Q.val = r.val / 2 % 8 * 16 + c.val % 16) :
    k0_pay6 (F := Ideal) x2 w (ix2 r c) = ∑ k : Fin 64, x2 (ix3 (0 : Fin 1) P k) * w (ix2 k Q) :=
  chromaB_at' x2 w r c P Q hP hQ

/-- The fused decoder read at image b, channel ch, pixel (r, c). -/
theorem fused_at (y2 : S16x4096x64.Idx → EReal) (cb2 cr2 : S16x1024x64.Idx → EReal) (wy : S64x64.Idx → EReal) (wc : S64x128.Idx → EReal)
    (b : Fin 16) (ch : Fin 3) (r c : Fin 512) :
    Decode.fused y2 cb2 cr2 wy wc (ix4 b ch r c)
      = Decode.rgb ch
          ((∑ k : Fin 64, y2 (ix3 b ⟨r.val / 8 * 64 + c.val / 8, Decode.lumaBlk_lt r c⟩ k) * wy (ix2 k ⟨r.val % 8 * 8 + c.val % 8, Decode.lumaEnt_lt r c⟩)) + Decode.k128)
          (∑ k : Fin 64, cb2 (ix3 b ⟨r.val / 16 * 32 + c.val / 16, Decode.chromaBlk_lt r c⟩ k) * wc (ix2 k ⟨r.val / 2 % 8 * 16 + c.val % 16, Decode.chromaEnt_lt r c⟩))
          (∑ k : Fin 64, cr2 (ix3 b ⟨r.val / 16 * 32 + c.val / 16, Decode.chromaBlk_lt r c⟩ k) * wc (ix2 k ⟨r.val / 2 % 8 * 16 + c.val % 16, Decode.chromaEnt_lt r c⟩)) :=
  rfl

/-- THE BLOCK OF POINT (b, i): if the three coefficient blocks are rows 512·i …, 128·i …, 128·i … of image b of the three
    coefficient arrays and the two matrices are whole, then the output block at (z, ch, r, c) is the fused decoder at
    (b, ch, 64·i + r, c): (64·i + r)/8·64 = 512·i + (r/8)·64, (64·i + r)/16·32 = 128·i + (r/16)·32, and the entries
    inside a block depend on r through r%8 and (r/2)%8 alone. -/
theorem block_eq (y2 : S16x4096x64.Idx → EReal) (cb2 cr2 : S16x1024x64.Idx → EReal) (wy : S64x64.Idx → EReal) (wc : S64x128.Idx → EReal)
    (x0 : Vec Ideal S1x512x64 .f32) (x1 x2 : Vec Ideal S1x128x64 .f32) (x3 : Vec Ideal S64x64 .f32) (x4 : Vec Ideal S64x128 .f32)
    (b i : Nat)
    (h0 : ∀ (p : Fin 512) (k : Fin 64) (P : S16x4096x64.Idx), (P 0).val = b → (P 1).val = 512 * i + p.val → (P 2).val = k.val →
      x0 (ix3 (0 : Fin 1) p k) = y2 P)
    (h1 : ∀ (p : Fin 128) (k : Fin 64) (P : S16x1024x64.Idx), (P 0).val = b → (P 1).val = 128 * i + p.val → (P 2).val = k.val →
      x1 (ix3 (0 : Fin 1) p k) = cb2 P)
    (h2 : ∀ (p : Fin 128) (k : Fin 64) (P : S16x1024x64.Idx), (P 0).val = b → (P 1).val = 128 * i + p.val → (P 2).val = k.val →
      x2 (ix3 (0 : Fin 1) p k) = cr2 P)
    (h3 : x3 = wy) (h4 : x4 = wc)
    (y : S1x3x64x512.Idx) (g : S16x3x512x512.Idx)
    (hg0 : (g 0).val = b) (hg1 : (g 1).val = (y 1).val) (hg2 : (g 2).val = 64 * i + (y 2).val) (hg3 : (g 3).val = (y 3).val) :
    out0_5 (F := Ideal) x0 x1 x2 x3 x4 y = Decode.fused y2 cb2 cr2 wy wc g := by
  subst h3 h4
  obtain ⟨z, ch, r, c, rfl⟩ : ∃ (z : Fin 1) (ch : Fin 3) (r : Fin 64) (c : Fin 512), y = ix4 z ch r c := ⟨y 0, y 1, y 2, y 3, eq_ix4 y⟩
  obtain ⟨gb, gch, gr, gc, rfl⟩ : ∃ (gb : Fin 16) (gch : Fin 3) (gr gc : Fin 512), g = ix4 gb gch gr gc := ⟨g 0, g 1, g 2, g 3, eq_ix4 g⟩
  obtain rfl : gch = ch := Fin.ext hg1
  obtain rfl : gc = c := Fin.ext hg3
  have hb : gb.val = b := hg0
  have hr : gr.val = 64 * i + r.val := hg2
  have hl : k0_pay4 (F := Ideal) x0 x3 (ix2 r gc)
      = (∑ k : Fin 64, y2 (ix3 gb ⟨gr.val / 8 * 64 + gc.val / 8, Decode.lumaBlk_lt gr gc⟩ k) * x3 (ix2 k ⟨gr.val % 8 * 8 + gc.val % 8, Decode.lumaEnt_lt gr gc⟩)) + Decode.k128 := by
    rw [luma_at' x0 x3 r gc ⟨r.val / 8 * 64 + gc.val / 8, lumaRow_lt r gc⟩ ⟨gr.val % 8 * 8 + gc.val % 8, Decode.lumaEnt_lt gr gc⟩ rfl
      (by show gr.val % 8 * 8 + gc.val % 8 = r.val % 8 * 8 + gc.val % 8; omega)]
    refine congrArg (· + Decode.k128) (Finset.sum_congr rfl fun k _ => ?_)
    rw [h0 _ k (ix3 gb ⟨gr.val / 8 * 64 + gc.val / 8, Decode.lumaBlk_lt gr gc⟩ k) hb
      (by show gr.val / 8 * 64 + gc.val / 8 = 512 * i + (r.val / 8 * 64 + gc.val / 8); omega) rfl]
  have hcb : k0_pay5 (F := Ideal) x1 x4 (ix2 r gc)
      = ∑ k : Fin 64, cb2 (ix3 gb ⟨gr.val / 16 * 32 + gc.val / 16, Decode.chromaBlk_lt gr gc⟩ k) * x4 (ix2 k ⟨gr.val / 2 % 8 * 16 + gc.val % 16, Decode.chromaEnt_lt gr gc⟩) := by
    rw [chromaB_at' x1 x4 r gc ⟨r.val / 2 / 8 * 32 + gc.val / 16, chromaRow_lt r gc⟩ ⟨gr.val / 2 % 8 * 16 + gc.val % 16, Decode.chromaEnt_lt gr gc⟩ rfl
      (by show gr.val / 2 % 8 * 16 + gc.val % 16 = r.val / 2 % 8 * 16 + gc.val % 16; omega)]
    refine Finset.sum_congr rfl fun k _ => ?_
    rw [h1 _ k (ix3 gb ⟨gr.val / 16 * 32 + gc.val / 16, Decode.chromaBlk_lt gr gc⟩ k) hb
      (by show gr.val / 16 * 32 + gc.val / 16 = 128 * i + (r.val / 2 / 8 * 32 + gc.val / 16); omega) rfl]
  have hcr : k0_pay6 (F := Ideal) x2 x4 (ix2 r gc)
      = ∑ k : Fin 64, cr2 (ix3 gb ⟨gr.val / 16 * 32 + gc.val / 16, Decode.chromaBlk_lt gr gc⟩ k) * x4 (ix2 k ⟨gr.val / 2 % 8 * 16 + gc.val % 16, Decode.chromaEnt_lt gr gc⟩) := by
    rw [chromaR_at' x2 x4 r gc ⟨r.val / 2 / 8 * 32 + gc.val / 16, chromaRow_lt r gc⟩ ⟨gr.val / 2 % 8 * 16 + gc.val % 16, Decode.chromaEnt_lt gr gc⟩ rfl
      (by show gr.val / 2 % 8 * 16 + gc.val % 16 = r.val / 2 % 8 * 16 + gc.val % 16; omega)]
    refine Finset.sum_congr rfl fun k _ => ?_
    rw [h2 _ k (ix3 gb ⟨gr.val / 16 * 32 + gc.val / 16, Decode.chromaBlk_lt gr gc⟩ k) hb
      (by show gr.val / 16 * 32 + gc.val / 16 = 128 * i + (r.val / 2 / 8 * 32 + gc.val / 16); omega) rfl]
  rw [out_at, fused_at, hl, hcb, hcr]

/-! ## From the blocks to the whole array -/

variable (m : (ℓ : Loc nD τ sig) → Buf (Elt Ideal) ℓ)

/-- The index maps over the 128 grid points: the three coefficient windows move with the output window (image
    index on axis 0, the output's row-block index on their block axis), the two matrices stay whole, and the output's
    block index is (image, 0, row block, 0) with the image below 16 and the row block below 8. -/
theorem idx_facts : ∀ t : Fin cfg0.N,
    win0_0.index t (0 : Fin 3) = win0_5.index t (0 : Fin 4) ∧ win0_0.index t (1 : Fin 3) = win0_5.index t (2 : Fin 4) ∧ win0_0.index t (2 : Fin 3) = 0
    ∧ win0_1.index t (0 : Fin 3) = win0_5.index t (0 : Fin 4) ∧ win0_1.index t (1 : Fin 3) = win0_5.index t (2 : Fin 4) ∧ win0_1.index t (2 : Fin 3) = 0
    ∧ win0_2.index t (0 : Fin 3) = win0_5.index t (0 : Fin 4) ∧ win0_2.index t (1 : Fin 3) = win0_5.index t (2 : Fin 4) ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 4) = 0 ∧ win0_5.index t (3 : Fin 4) = 0
    ∧ win0_5.index t (0 : Fin 4) < 16 ∧ win0_5.index t (2 : Fin 4) < 8 :=
  (by decide +kernel : ∀ t : Fin grid0.N, _)

/-- Every (image, row block) is some grid point's. -/
theorem idx_onto : ∀ (q0 : Fin 16) (q2 : Fin 8), ∃ t : Fin cfg0.N, win0_5.index t = ![q0.val, 0, q2.val, 0] :=
  (by decide +kernel : ∀ (q0 : Fin 16) (q2 : Fin 8), ∃ t : Fin grid0.N, win0_5.index t = ![q0.val, 0, q2.val, 0])

/-- WHAT POINT t WRITES BACK is block t of the fused decoder of the five arrays as the region finds them. -/
theorem flushed_eq (c : Dev nD) (t : Fin cfg0.N) :
    (dats m 0 c).flushed 5 t = ((cfg0.win 5).blk t).view.read (Elt Ideal)
      (Decode.fused (V m c main_v0) (V m c main_v1) (V m c main_v2) (V m c main_v9) (V m c main_v20)) := by
  rw [Value.flushed5]
  obtain ⟨a0, a1, a2, b0, b1, b2, c0, c1, c2, d0, d1, e0, e1, f1, f3, l0, l2⟩ := idx_facts t
  funext j
  show out0_5 (iblk m c 0 t) (iblk m c 1 t) (iblk m c 2 t) (iblk m c 3 t) (iblk m c 4 t) j
    = Decode.fused (V m c main_v0) (V m c main_v1) (V m c main_v2) (V m c main_v9) (V m c main_v20) (((cfg0.win 5).blk t).view.emb j)
  refine block_eq (V m c main_v0) (V m c main_v1) (V m c main_v2) (V m c main_v9) (V m c main_v20)
    (iblk m c 0 t) (iblk m c 1 t) (iblk m c 2 t) (iblk m c 3 t) (iblk m c 4 t) (win0_5.index t (0 : Fin 4)) (win0_5.index t (2 : Fin 4))
    ?_ ?_ ?_ ?_ ?_ j (((cfg0.win 5).blk t).view.emb j) ?_ ?_ ?_ ?_
  · intro p k P hP0 hP1 hP2
    have h : ((cfg0.win 0).blk t).view.emb (ix3 (0 : Fin 1) p k) = P := by
      funext a; apply Fin.ext
      match a with
      | ⟨0, _⟩ => show win0_0.index t (0 : Fin 3) * 1 + 1 * 0 = (P 0).val; omega
      | ⟨1, _⟩ => show win0_0.index t (1 : Fin 3) * 512 + 1 * p.val = (P 1).val; omega
      | ⟨2, _⟩ => show win0_0.index t (2 : Fin 3) * 64 + 1 * k.val = (P 2).val; omega
    show V m c main_v0 (((cfg0.win 0).blk t).view.emb (ix3 (0 : Fin 1) p k)) = V m c main_v0 P
    rw [h]
  · intro p k P hP0 hP1 hP2
    have h : ((cfg0.win 1).blk t).view.emb (ix3 (0 : Fin 1) p k) = P := by
      funext a; apply Fin.ext
      match a with
      | ⟨0, _⟩ => show win0_1.index t (0 : Fin 3) * 1 + 1 * 0 = (P 0).val; omega
      | ⟨1, _⟩ => show win0_1.index t (1 : Fin 3) * 128 + 1 * p.val = (P 1).val; omega
      | ⟨2, _⟩ => show win0_1.index t (2 : Fin 3) * 64 + 1 * k.val = (P 2).val; omega
    show V m c main_v1 (((cfg0.win 1).blk t).view.emb (ix3 (0 : Fin 1) p k)) = V m c main_v1 P
    rw [h]
  · intro p k P hP0 hP1 hP2
    have h : ((cfg0.win 2).blk t).view.emb (ix3 (0 : Fin 1) p k) = P := by
      funext a; apply Fin.ext
      match a with
      | ⟨0, _⟩ => show win0_2.index t (0 : Fin 3) * 1 + 1 * 0 = (P 0).val; omega
      | ⟨1, _⟩ => show win0_2.index t (1 : Fin 3) * 128 + 1 * p.val = (P 1).val; omega
      | ⟨2, _⟩ => show win0_2.index t (2 : Fin 3) * 64 + 1 * k.val = (P 2).val; omega
    show V m c main_v2 (((cfg0.win 2).blk t).view.emb (ix3 (0 : Fin 1) p k)) = V m c main_v2 P
    rw [h]
  · funext x
    have h : ((cfg0.win 3).blk t).view.emb x = x := by
      funext a; apply Fin.ext
      match a with
      | ⟨0, _⟩ => show win0_3.index t (0 : Fin 2) * 64 + 1 * (x 0).val = (x 0).val; omega
      | ⟨1, _⟩ => show win0_3.index t (1 : Fin 2) * 64 + 1 * (x 1).val = (x 1).val; omega
    show V m c main_v9 (((cfg0.win 3).blk t).view.emb x) = V m c main_v9 x
    rw [h]
  · funext x
    have h : ((cfg0.win 4).blk t).view.emb x = x := by
      funext a; apply Fin.ext
      match a with
      | ⟨0, _⟩ => show win0_4.index t (0 : Fin 2) * 64 + 1 * (x 0).val = (x 0).val; omega
      | ⟨1, _⟩ => show win0_4.index t (1 : Fin 2) * 128 + 1 * (x 1).val = (x 1).val; omega
    show V m c main_v20 (((cfg0.win 4).blk t).view.emb x) = V m c main_v20 x
    rw [h]
  · show win0_5.index t (0 : Fin 4) * 1 + 1 * (j 0).val = win0_5.index t (0 : Fin 4)
    have hj : (j 0).val < 1 := (j 0).isLt
    omega
  · show win0_5.index t (1 : Fin 4) * 3 + 1 * (j 1).val = (j 1).val
    omega
  · show win0_5.index t (2 : Fin 4) * 64 + 1 * (j 2).val = 64 * win0_5.index t (2 : Fin 4) + (j 2).val
    omega
  · show win0_5.index t (3 : Fin 4) * 512 + 1 * (j 3).val = (j 3).val
    omega

/-- An index of the output array is in point t's block iff each coordinate is in the block's range on its axis. -/
theorem mem_blk (t : Fin cfg0.N) (i : S16x3x512x512.Idx) :
    i ∈ ((cfg0.win 5).blk t).view.set ↔ ∀ a : Fin 4, win0_5.index t a * S1x3x64x512.size a ≤ (i a).val
      ∧ (i a).val < win0_5.index t a * S1x3x64x512.size a + S1x3x64x512.size a := by
  show i ∈ ((View.whole main_v21).slice (win0_5.rect t)).set ↔ _
  rw [View.set_slice_whole, Rect.mem_set_unit]
  exact Iff.rfl

/-- THE COVER: index (b, ch, r, c) of the output array lies in the block of the point with image b and row block r/64. -/
theorem cover (i : S16x3x512x512.Idx) : ∃ t : Fin cfg0.N, (cfg0.win 5).flush t = true ∧ i ∈ ((cfg0.win 5).blk t).view.set := by
  have hi0 : (i 0).val < 16 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩ ⟨(i 2).val / 64, by omega⟩
  have q0 : win0_5.index t (0 : Fin 4) = (i 0).val := congrFun ht 0
  have q1 : win0_5.index t (1 : Fin 4) = 0 := congrFun ht 1
  have q2 : win0_5.index t (2 : Fin 4) = (i 2).val / 64 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 3 ≤ (i 1).val ∧ (i 1).val < win0_5.index t (1 : Fin 4) * 3 + 3; omega
  | ⟨2, _⟩ => show win0_5.index t (2 : Fin 4) * 64 ≤ (i 2).val ∧ (i 2).val < win0_5.index t (2 : Fin 4) * 64 + 64; omega
  | ⟨3, _⟩ => show win0_5.index t (3 : Fin 4) * 512 ≤ (i 3).val ∧ (i 3).val < win0_5.index t (3 : Fin 4) * 512 + 512; omega

/-- THE OUTPUT ARRAY after the run is the fused decoder of the five arrays as the region finds them. -/
theorem final (c : Dev nD) :
    (Gen.dats m 0 c).arrAt 5 cfg0.N
      = Decode.fused (Gen.V m c main_v0) (Gen.V m c main_v1) (Gen.V m c main_v2) (Gen.V m c main_v9) (Gen.V m c main_v20) :=
  (dats m 0 c).arrAt_eq_of_cover 5 _ (fun t _ => flushed_eq m c t) cover

end Cert.KernelIdeal.Fused

end
-- ==== Proof.KernelHost.lean ====
/-
  The arrays the fused kernel's windows are cut from, as the launch finds them. Before the launch a stretch
  of host operations lays each coefficient array as rows of 64 (one 8×8 block per row), builds the 64×64
  dequantise-and-transform matrix of the luma table, and builds the chroma matrix the same way and then
  widens it to 64×128 by writing every column twice in a row (so that the product already carries the 2×
  repetition of chroma pixels along an image row).
-/
import proofs.«133770_g2000209683478752_pallasbulk_677_4_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.Host

open Cert.KernelIdeal Cert.KernelIdeal.Gen

/-- The 64×64 dequantise-and-transform matrix of a quantisation table `q`, from the table of scale factors `al`
    and the table of cosine products `bs`: entry (k, j) is (¼ · (q k · al k)) · bs (k, j). -/
def wT (q : FVec Ideal S8x8 .f32) (al : FVec Ideal S64 .f32) (bs : FVec Ideal S64x64 .f32) : FVec Ideal S64x64 .f32 :=
  mulf (broadcastInDim S64x64 ![0, 1] bcast_S64x1_S64x64_0_1
    (mulf (broadcastInDim S64x1 ![] bcast_S_S64x1 (constant S_ .f32 0x3E800000#32))
      (broadcastInDim S64x1 ![0] bcast_S64_S64x1_0 (mulf (shapeCast S64 q shapeCasts_S8x8_S64) al)))) bs

/-- The scale factors and the cosine products, as the program's literal tables. -/
def alT : FVec Ideal S64 .f32 := fun i => FloatOps.ofBits .f32 (lit0 (S64.rowMajor i))
def bsT : FVec Ideal S64x64 .f32 := fun i => FloatOps.ofBits .f32 (lit1 (S64x64.rowMajor i))

/-- A 64×64 matrix widened to 64×128: column 16·u + 2·v + d of the result is column 8·u + v of the operand. -/
def widenT (W : FVec Ideal S64x64 .f32) : FVec Ideal S64x128 .f32 :=
  shapeCast S64x128
    (shapeCast S64x8x16
      (broadcastInDim S64x8x8x2 ![0, 1, 2] bcast_S64x8x8_S64x8x8x2_0_1_2 (shapeCast S64x8x8 W shapeCasts_S64x64_S64x8x8))
      shapeCasts_S64x8x8x2_S64x8x16)
    shapeCasts_S64x8x16_S64x128

/-- Luma blocks [16, 4096, 8, 8] as rows of 64: one block per row. -/
def rowsY (a : FVec Ideal S16x4096x8x8 .f32) : FVec Ideal S16x4096x64 .f32 :=
  shapeCast S16x4096x64 a shapeCasts_S16x4096x8x8_S16x4096x64

/-- Chroma blocks [16, 1024, 8, 8] as rows of 64: one block per row. -/
def rowsC (a : FVec Ideal S16x1024x8x8 .f32) : FVec Ideal S16x1024x64 .f32 :=
  shapeCast S16x1024x64 a shapeCasts_S16x1024x8x8_S16x1024x64

variable (m : (ℓ : Loc nD τ sig) → Buf (Elt Ideal) ℓ)

/-- The luma coefficients as rows of 64. -/
theorem luma_rows (c : Dev nD) : (V m c main_v0 : FVec Ideal S16x4096x64 .f32)
    = rowsY (m ((c : Thread nD τ).loc main_arg0)) := by
  dsimp only [V, hostOps0]
  after_results
  rfl

/-- The first chroma plane's coefficients as rows of 64. -/
theorem chroma1_rows (c : Dev nD) : (V m c main_v1 : FVec Ideal S16x1024x64 .f32)
    = rowsC (m ((c : Thread nD τ).loc main_arg1)) := by
  dsimp only [V, hostOps0]
  after_results
  rfl

/-- The second chroma plane's coefficients as rows of 64. -/
theorem chroma2_rows (c : Dev nD) : (V m c main_v2 : FVec Ideal S16x1024x64 .f32)
    = rowsC (m ((c : Thread nD τ).loc main_arg2)) := by
  dsimp only [V, hostOps0]
  after_results
  rfl

/-- The luma matrix. -/
theorem luma_matrix (c : Dev nD) : (V m c main_v9 : FVec Ideal S64x64 .f32)
    = wT (m ((c : Thread nD τ).loc main_arg3)) alT bsT := by
  dsimp only [V, hostOps0]
  after_results
  rfl

/-- The widened chroma matrix. -/
theorem chroma_matrix (c : Dev nD) : (V m c main_v20 : FVec Ideal S64x128 .f32)
    = widenT (wT (m ((c : Thread nD τ).loc main_arg4)) alT bsT) := by
  dsimp only [V, hostOps0]
  after_results
  rfl

end Cert.KernelIdeal.Host

end
-- ==== Proof.RefRun.lean ====
/-
  The reference's run with its result named. The reference is four kernel launches among stretches of
  host operations; the theorem for a program of launches among stretches of host operations gives, for every weakly fair execution from a
  memory with zero counters, termination without a fault in a state where every unscoped buffer of the
  TensorCore holds what the fold of the program's segments over the launch memory leaves in it
  (`Gen.W14`). Read at the result buffer this names the result; read at the arguments it gives them back
  unchanged.
-/
import proofs.«133770_g2000209683478752_pallasbulk_677_4_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with the result buffer at the
    fold's contents and the five arguments as launched. -/
theorem run : θ_run defs (onTc (τ := τ) (main (F := F))) ⟨m, fun _ => 0, ρ⟩ (fun r => ∀ c : Dev nD,
      r.2.mem ((c.tc : Thread nD τ).loc main_v68) = W14 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v68 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c)⟩)

end Cert.ReferenceIdeal.RefRun

end
-- ==== Proof.RefTerms.lean ====
/-
  The reference's result as one closed term of its five argument arrays, built from named parts: the 2×2
  identity, the 64×64 dequantise-and-transform matrix of a quantisation table, the Kronecker product that
  places it twice on the diagonal of a 128×128 matrix, the packing of coefficient blocks two per row, the
  merging of stage outputs into full planes (with the 2×2 repetition of chroma pixels), and the colour stage.
-/
import proofs.«133770_g2000209683478752_pallasbulk_677_4_alg».proof.ReferenceIdeal
import proofs.«133770_g2000209683478752_pallasbulk_677_4_alg».proof.Proof.Gen.ReferenceIdeal
import proofs.«133770_g2000209683478752_pallasbulk_677_4_alg».proof.Proof.DecodeSpec
import Idealize.ShloMosaic.PureOps.Ideal

set_option maxRecDepth 16384

noncomputable section

open Idealize.ShloMosaic Idealize.ShloMosaic.TcCoe Idealize.SL.Sem

namespace Cert.ReferenceIdeal.Fold

open Cert.ReferenceIdeal Cert.ReferenceIdeal.Gen

/-! ## The closed terms -/

/-- The 2×2 identity: 1 where the row number equals the column number, 0 elsewhere. -/
def eyeT : FVec Ideal S2x2 .f32 :=
  uitofp .f32 (cmpi .eq (addi (iotaInDim S2x2 32 0) (broadcastInDim S2x2 ![] bcast_S_S2x2 (constantI S_ 32 0#32))) (iotaInDim S2x2 32 1))

/-- The 64×64 dequantise-and-transform matrix of a quantisation table `q`, from the table of scale factors `al`
    and the table of cosine products `bs`: entry (k, j) is (¼ · (q k · al k)) · bs (k, j). -/
def wT (q : FVec Ideal S8x8 .f32) (al : FVec Ideal S64 .f32) (bs : FVec Ideal S64x64 .f32) : FVec Ideal S64x64 .f32 :=
  mulf (broadcastInDim S64x64 ![0, 1] bcast_S64x1_S64x64_0_1
    (mulf (broadcastInDim S64x1 ![] bcast_S_S64x1 (constant S_ .f32 0x3E800000#32))
      (broadcastInDim S64x1 ![0] bcast_S64_S64x1_0 (mulf (shapeCast S64 q shapeCasts_S8x8_S64) al)))) bs

/-- The scale factors and the cosine products, as the program's literal tables. -/
def alT : FVec Ideal S64 .f32 := fun i => FloatOps.ofBits .f32 (lit0 (S64.rowMajor i))
def bsT : FVec Ideal S64x64 .f32 := fun i => FloatOps.ofBits .f32 (lit1 (S64x64.rowMajor i))

/-- The Kronecker product of a 2×2 matrix with a 64×64 matrix, as a 128×128 matrix. -/
def kronT (E : FVec Ideal S2x2 .f32) (W : FVec Ideal S64x64 .f32) : FVec Ideal S128x128 .f32 :=
  shapeCast S128x128
    (mulf (broadcastInDim S2x64x2x64 ![0, 1, 2, 3] bcast_S2x1x2x1_S2x64x2x64_0_1_2_3 (broadcastInDim S2x1x2x1 ![0, 2] bcast_S2x2_S2x1x2x1_0_2 E))
      (broadcastInDim S2x64x2x64 ![0, 1, 2, 3] bcast_S1x64x1x64_S2x64x2x64_0_1_2_3 (broadcastInDim S1x64x1x64 ![1, 3] bcast_S64x64_S1x64x1x64_1_3 W)))
    shapeCasts_S2x64x2x64_S128x128

/-- Luma blocks [16, 4096, 8, 8] as the 512×512 plane: blocks laid 64 per block-row, each block's rows
    interleaved into image rows. -/
def planeYB (x : FVec Ideal S16x4096x8x8 .f32) : FVec Ideal S16x512x512 .f32 :=
  shapeCast S16x512x512
    (transpose S16x64x8x64x8 [0, 1, 3, 2, 4] (shapeCast S16x64x64x8x8 x shapeCasts_S16x4096x8x8_S16x64x64x8x8)
      transposes_S16x64x64x8x8_S16x64x8x64x8_0_1_3_2_4)
    shapeCasts_S16x64x8x64x8_S16x512x512

/-- A luma stage output (two blocks per row) as the plane: rows back to blocks, then `planeYB`. -/
def planeYT (s : FVec Ideal S32768x128 .f32) : FVec Ideal S16x512x512 .f32 :=
  planeYB (shapeCast S16x4096x8x8 s shapeCasts_S32768x128_S16x4096x8x8)

/-- Chroma blocks [16, 1024, 8, 8] as the 512×512 plane: merged into a 256×256 image (32 blocks per block-row),
    then every pixel repeated twice down and twice across. -/
def planeCB (x : FVec Ideal S16x1024x8x8 .f32) : FVec Ideal S16x512x512 .f32 :=
  shapeCast S16x512x512
    (broadcastInDim S16x512x256x2 ![0, 1, 2] bcast_S16x512x256_S16x512x256x2_0_1_2
      (shapeCast S16x512x256
        (broadcastInDim S16x256x2x256 ![0, 1, 3] bcast_S16x256x256_S16x256x2x256_0_1_3
          (shapeCast S16x256x256
            (transpose S16x32x8x32x8 [0, 1, 3, 2, 4] (shapeCast S16x32x32x8x8 x shapeCasts_S16x1024x8x8_S16x32x32x8x8)
              transposes_S16x32x32x8x8_S16x32x8x32x8_0_1_3_2_4)
            shapeCasts_S16x32x8x32x8_S16x256x256))
        shapeCasts_S16x256x2x256_S16x512x256))
    shapeCasts_S16x512x256x2_S16x512x512

/-- A chroma stage output as the plane: rows back to blocks, then `planeCB`. -/
def planeCT (s : FVec Ideal S8192x128 .f32) : FVec Ideal S16x512x512 .f32 :=
  planeCB (shapeCast S16x1024x8x8 s shapeCasts_S8192x128_S16x1024x8x8)

/-- Luma blocks [16, 4096, 8, 8] packed two per row of 128. -/
def packY (a : FVec Ideal S16x4096x8x8 .f32) : FVec Ideal S32768x128 .f32 :=
  shapeCast S32768x128 a shapeCasts_S16x4096x8x8_S32768x128

/-- Chroma blocks [16, 1024, 8, 8] packed two per row of 128. -/
def packC (a : FVec Ideal S16x1024x8x8 .f32) : FVec Ideal S8192x128 .f32 :=
  shapeCast S8192x128 a shapeCasts_S16x1024x8x8_S8192x128

/-- The matrix of one stage: the 64×64 matrix of the table `q` twice on the diagonal. -/
def stageMat (q : FVec Ideal S8x8 .f32) : FVec Ideal S128x128 .f32 := kronT eyeT (wT q alT bsT)

/-- THE REFERENCE'S RESULT as one term of its five arguments. -/
def result (a0 : FVec Ideal S16x4096x8x8 .f32) (a1 a2 : FVec Ideal S16x1024x8x8 .f32) (a3 a4 : FVec Ideal S8x8 .f32) :
    FVec Ideal S16x3x512x512 .f32 :=
  Decode.colour
    (planeYT (Decode.stage (packY a0) (stageMat a3)))
    (planeCT (Decode.stage (packC a1) (stageMat a4)))
    (planeCT (Decode.stage (packC a2) (stageMat a4)))

end Cert.ReferenceIdeal.Fold

end
-- ==== Proof.StageValue.lean ====
/-
  The reference's three dequantise-and-transform stages, each read as one whole-array function.

  Each stage takes packed coefficient rows x (n rows of 128: two 8×8 blocks side by side) and a
  128×128 matrix w, and produces, row by row, the vector-matrix product plus 128:
      out (r, q) = (∑ k < 128, x (r, k) · w (k, q)) + 128.
  The rows are processed in slabs of 2048: slab t holds rows 2048·t … 2048·t + 2047, every slab
  sees the whole matrix, and slab t of the output depends on slab t of x alone. An output row r
  therefore lies in exactly the slab r / 2048, the slabs fill the array, and the array after the
  stage is the function above at every index. Nothing here needs finiteness: the product into a
  zero accumulator is a plain finite sum of products in the extended reals, and 0 + s = s there.
-/
import proofs.«133770_g2000209683478752_pallasbulk_677_4_alg».proof.Proof.Gen.ReferenceIdeal.Frame
import proofs.«133770_g2000209683478752_pallasbulk_677_4_alg».proof.Proof.DecodeSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Cert.ReferenceIdeal Cert.ReferenceIdeal.Gen
open Idealize.ShloMosaic Idealize.ShloMosaic.TcCoe Idealize.SL.Sem Idealize.ShloMosaic.ValueIdx
open Idealize.ShloMosaic.Pipeline (Dat)

/-! ## The product's dimension numbers: rows of the left operand against columns of the right -/

/-- The one dimension record the three stages share: contract the left operand's axis 1 with the
    right operand's axis 0; the result's axes are the left's axis 0, then the right's axis 1. -/
abbrev rowsByCols : DotDims S2048x128 S128x128 S2048x128 := dot_S2048x128_S128x128_S2048x128_1_0_0_1_n_n

/-- The left operand is read in the result's row … -/
theorem lhs_row (i : S2048x128.Idx) (q : rowsByCols.contr.Idx) : (rowsByCols.lhsIdx i q 0).val = (i 0).val := by
  unfold DotDims.lhsIdx
  rw [dif_neg (show ¬(0 : Fin S2048x128.rank) ∈ rowsByCols.lhsBatch by decide),
    dif_pos (show (0 : Fin S2048x128.rank) ∈ rowsByCols.lhsNonContracting by decide)]
  rfl
/-- … at the contracted position; -/
theorem lhs_col (i : S2048x128.Idx) (q : rowsByCols.contr.Idx) : (rowsByCols.lhsIdx i q 1).val = (q ⟨0, by decide⟩).val :=
  rowsByCols.lhsIdx_val_of_single rfl i q
/-- the right operand at the contracted position … -/
theorem rhs_row (i : S2048x128.Idx) (q : rowsByCols.contr.Idx) : (rowsByCols.rhsIdx i q 0).val = (q ⟨0, by decide⟩).val :=
  rowsByCols.rhsIdx_val_of_single rfl i q
/-- … in the result's column. -/
theorem rhs_col (i : S2048x128.Idx) (q : rowsByCols.contr.Idx) : (rowsByCols.rhsIdx i q 1).val = (i 1).val := by
  unfold DotDims.rhsIdx
  rw [dif_neg (show ¬(1 : Fin S128x128.rank) ∈ rowsByCols.rhsBatch by decide),
    dif_pos (show (1 : Fin S128x128.rank) ∈ rowsByCols.rhsNonContracting by decide)]
  rfl

/-! ## One slab: the body's stored value at an entry -/

/-- Entry (p, q) of a slab's result: row p of the slab times column q of the matrix, plus 128. The
    two casts are between equal shapes, the accumulator is the zero splat, and the contraction's
    index set is its one coordinate. -/
theorem slab_apply (x : Vec Ideal S2048x128 .f32) (w : Vec Ideal S128x128 .f32) (p : Fin 2048) (q : Fin 128) :
    k0_pay1 (F := Ideal) x w (ix2 p q) = (∑ k : Fin 128, x (ix2 p k) * w (ix2 k q)) + Decode.k128 := by
  unfold k0_pay1
  show FloatOps.matmul rowsByCols none (shapeCast S2048x128 x shapeCasts_S2048x128_S2048x128)
      (shapeCast S128x128 w shapeCasts_S128x128_S128x128) (constant (F := Ideal) S2048x128 .f32 0x00000000#32) (ix2 p q)
    + Ideal.ofBits .f32 0x43000000#32 = _
  rw [shapeCast_self, shapeCast_self]
  refine congrArg (· + Decode.k128) ?_
  refine (Ideal.matmul_constant_zero_apply rowsByCols none x w (ix2 p q)).trans ?_
  rw [← Equiv.sum_comp (contrEquiv1 rowsByCols 128 rfl rfl).symm]
  refine Finset.sum_congr rfl fun k _ => ?_
  have hk := contrEquiv1_symm_val rowsByCols 128 rfl rfl k
  have el : rowsByCols.lhsIdx (ix2 p q) ((contrEquiv1 rowsByCols 128 rfl rfl).symm k) = ix2 p k :=
    funext fun a => Fin.ext (by
      match a with
      | ⟨0, _⟩ => exact lhs_row _ _
      | ⟨1, _⟩ => exact (lhs_col _ _).trans hk)
  have er : rowsByCols.rhsIdx (ix2 p q) ((contrEquiv1 rowsByCols 128 rfl rfl).symm k) = ix2 k q :=
    funext fun a => Fin.ext (by
      match a with
      | ⟨0, _⟩ => exact (rhs_row _ _).trans hk
      | ⟨1, _⟩ => exact rhs_col _ _)
  rw [el, er]

/-- The three stages' bodies are one and the same term of their two loaded blocks. -/
theorem body1_eq (x : Vec Ideal S2048x128 .f32) (w : Vec Ideal S128x128 .f32) : k1_pay1 (F := Ideal) x w = k0_pay1 x w := rfl
theorem body2_eq (x : Vec Ideal S2048x128 .f32) (w : Vec Ideal S128x128 .f32) : k2_pay1 (F := Ideal) x w = k0_pay1 x w := rfl

/-! ## From slabs to the whole array -/

/-- Every access of the body is at offset zero of its buffer. -/
theorem zero_offsets : (![0, 0] : Fin 2 → Nat) = fun _ => 0 := funext fun a => by fin_cases a <;> rfl

/-! ## Stage 0: 32768 rows in 16 slabs -/

section Stage0
variable (V : (c : Dev nD) → (b : Ref sig .tc) → Buf (Elt Ideal) ((c : Thread nD τ).loc b))

/-- The index maps, evaluated at each of the 16 slabs: slab t of the rows and of the result is
    block (t, 0), and the matrix is block (0, 0) at every slab. -/
theorem slab_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What slab t writes back is slab t of the stage's function of the arrays the stage finds: the
    result's entry (p, q) of slab t is row 2048·t + p of the rows against column q of the matrix.
    Both sides read the rows at (2048·t + p, k) and the matrix at (k, q), for each k. -/
theorem slab_written0 (c : Dev nD) (t : Fin cfg0.N) :
    (dat0 V c).flushed 2 t = ((cfg0.win 2).blk t).view.read (Elt Ideal) (Decode.stage (V c main_v14) (V c main_v13)) := by
  show (cfg0.win 2).cut (grid0.coords t) ((dat0 V c).after 2 t) = _
  rw [after0_2]
  unfold out0_2
  rw [View.canon_unit_zero zero_offsets]
  simp only [View.ld_unit_zero (S := S2048x128) zero_offsets, View.ld_unit_zero (S := S128x128) zero_offsets]
  obtain ⟨e0, e1, e2, e3, e4, e5⟩ := slab_index0 t
  funext j
  obtain ⟨p, q, rfl⟩ : ∃ (p : Fin 2048) (q : Fin 128), j = ix2 p q := ⟨j 0, j 1, eq_ix2 j⟩
  refine (slab_apply (iblk0 V c 0 t) (iblk0 V c 1 t) p q).trans ?_
  show _ = Decode.stage (V c main_v14) (V c main_v13) (((cfg0.win 2).blk t).view.emb (ix2 p q))
  unfold Decode.stage
  refine congrArg (· + Decode.k128) (Finset.sum_congr rfl fun k _ => ?_)
  congr 1
  · show V c main_v14 (((cfg0.win 0).blk t).view.emb (ix2 p k)) = V c main_v14 _
    refine congrArg (V c main_v14) ?_
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 128 + 1 * k.val = k.val; omega
  · show V c main_v13 (((cfg0.win 1).blk t).view.emb (ix2 k q)) = V c main_v13 _
    refine congrArg (V c main_v13) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the result lies in slab t iff each coordinate is in the slab's range on its axis. -/
theorem mem_slab0 (t : Fin cfg0.N) (i : S32768x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v15).slice (win0_2.rect t)).set ↔ _
  rw [View.set_slice_whole, Rect.mem_set_unit]
  exact Iff.rfl

/-- Every slab number below 16 is some point's. -/
theorem slab_onto0 : ∀ s : Fin 16, ∃ t : Fin cfg0.N, t.val = s.val :=
  (by decide +kernel : ∀ s : Fin 16, ∃ t : Fin grid0.N, t.val = s.val)

/-- The array the stage leaves: row r is written by slab r / 2048 (2048·(r / 2048) ≤ r < 2048·(r / 2048) + 2048,
    and r / 2048 < 16 since r < 32768), the column range is all 128 columns, so the slabs fill the array. -/
theorem stage0 (c : Dev nD) : (dat0 V c).arrAt 2 cfg0.N = Decode.stage (V c main_v14) (V c main_v13) :=
  (dat0 V c).arrAt_eq_of_cover 2 (Decode.stage (V c main_v14) (V c main_v13)) (fun t _ => slab_written0 V c t) fun i => by
    have hi0 : (i 0).val < 32768 := (i 0).isLt
    have hi1 : (i 1).val < 128 := (i 1).isLt
    obtain ⟨t, ht⟩ := slab_onto0 ⟨(i 0).val / 2048, by omega⟩
    have ht' : t.val = (i 0).val / 2048 := ht
    obtain ⟨e0, e1, e2, e3, e4, e5⟩ := slab_index0 t
    refine ⟨t, flush0_2 t, ?_⟩
    rw [mem_slab0]
    intro a
    match a with
    | ⟨0, _⟩ => show win0_2.index t (0 : Fin 2) * 2048 ≤ (i 0).val ∧ (i 0).val < win0_2.index t (0 : Fin 2) * 2048 + 2048; omega
    | ⟨1, _⟩ => show win0_2.index t (1 : Fin 2) * 128 ≤ (i 1).val ∧ (i 1).val < win0_2.index t (1 : Fin 2) * 128 + 128; omega

end Stage0

/-! ## Stage 1: 8192 rows in 4 slabs -/

section Stage1
variable (V : (c : Dev nD) → (b : Ref sig .tc) → Buf (Elt Ideal) ((c : Thread nD τ).loc b))

/-- The index maps, evaluated at each of the 4 slabs: slab t of the rows and of the result is
    block (t, 0), and the matrix is block (0, 0) at every slab. -/
theorem slab_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What slab t writes back is slab t of the stage's function of the arrays the stage finds: the
    result's entry (p, q) of slab t is row 2048·t + p of the rows against column q of the matrix.
    Both sides read the rows at (2048·t + p, k) and the matrix at (k, q), for each k. -/
theorem slab_written1 (c : Dev nD) (t : Fin cfg1.N) :
    (dat1 V c).flushed 2 t = ((cfg1.win 2).blk t).view.read (Elt Ideal) (Decode.stage (V c main_v31) (V c main_v30)) := by
  show (cfg1.win 2).cut (grid1.coords t) ((dat1 V c).after 2 t) = _
  rw [after1_2]
  unfold out1_2
  rw [View.canon_unit_zero zero_offsets]
  simp only [View.ld_unit_zero (S := S2048x128) zero_offsets, View.ld_unit_zero (S := S128x128) zero_offsets]
  obtain ⟨e0, e1, e2, e3, e4, e5⟩ := slab_index1 t
  funext j
  obtain ⟨p, q, rfl⟩ : ∃ (p : Fin 2048) (q : Fin 128), j = ix2 p q := ⟨j 0, j 1, eq_ix2 j⟩
  refine ((congrFun (body1_eq (iblk1 V c 0 t) (iblk1 V c 1 t)) (ix2 p q)).trans
    (slab_apply (iblk1 V c 0 t) (iblk1 V c 1 t) p q)).trans ?_
  show _ = Decode.stage (V c main_v31) (V c main_v30) (((cfg1.win 2).blk t).view.emb (ix2 p q))
  unfold Decode.stage
  refine congrArg (· + Decode.k128) (Finset.sum_congr rfl fun k _ => ?_)
  congr 1
  · show V c main_v31 (((cfg1.win 0).blk t).view.emb (ix2 p k)) = V c main_v31 _
    refine congrArg (V c main_v31) ?_
    funext a; apply Fin.ext
    match a with
    | ⟨0, _⟩ => show win1_0.index t (0 : Fin 2) * 2048 + 1 * p.val = win1_2.index t (0 : Fin 2) * 2048 + 1 * p.val; omega
    | ⟨1, _⟩ => show win1_0.index t (1 : Fin 2) * 128 + 1 * k.val = k.val; omega
  · show V c main_v30 (((cfg1.win 1).blk t).view.emb (ix2 k q)) = V c main_v30 _
    refine congrArg (V c main_v30) ?_
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-- An index of the result lies in slab t iff each coordinate is in the slab's range on its axis. -/
theorem mem_slab1 (t : Fin cfg1.N) (i : S8192x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v32).slice (win1_2.rect t)).set ↔ _
  rw [View.set_slice_whole, Rect.mem_set_unit]
  exact Iff.rfl

/-- Every slab number below 4 is some point's. -/
theorem slab_onto1 : ∀ s : Fin 4, ∃ t : Fin cfg1.N, t.val = s.val :=
  (by decide +kernel : ∀ s : Fin 4, ∃ t : Fin grid1.N, t.val = s.val)

/-- The array the stage leaves: row r is written by slab r / 2048 (2048·(r / 2048) ≤ r < 2048·(r / 2048) + 2048,
    and r / 2048 < 4 since r < 8192), the column range is all 128 columns, so the slabs fill the array. -/
theorem stage1 (c : Dev nD) : (dat1 V c).arrAt 2 cfg1.N = Decode.stage (V c main_v31) (V c main_v30) :=
  (dat1 V c).arrAt_eq_of_cover 2 (Decode.stage (V c main_v31) (V c main_v30)) (fun t _ => slab_written1 V c t) fun i => by
    have hi0 : (i 0).val < 8192 := (i 0).isLt
    have hi1 : (i 1).val < 128 := (i 1).isLt
    obtain ⟨t, ht⟩ := slab_onto1 ⟨(i 0).val / 2048, by omega⟩
    have ht' : t.val = (i 0).val / 2048 := ht
    obtain ⟨e0, e1, e2, e3, e4, e5⟩ := slab_index1 t
    refine ⟨t, flush1_2 t, ?_⟩
    rw [mem_slab1]
    intro a
    match a with
    | ⟨0, _⟩ => show win1_2.index t (0 : Fin 2) * 2048 ≤ (i 0).val ∧ (i 0).val < win1_2.index t (0 : Fin 2) * 2048 + 2048; omega
    | ⟨1, _⟩ => show win1_2.index t (1 : Fin 2) * 128 ≤ (i 1).val ∧ (i 1).val < win1_2.index t (1 : Fin 2) * 128 + 128; omega

end Stage1

/-! ## Stage 2: 8192 rows in 4 slabs -/

section Stage2
variable (V : (c : Dev nD) → (b : Ref sig .tc) → Buf (Elt Ideal) ((c : Thread nD τ).loc b))

/-- The index maps, evaluated at each of the 4 slabs: slab t of the rows and of the result is
    block (t, 0), and the matrix is block (0, 0) at every slab. -/
theorem slab_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What slab t writes back is slab t of the stage's function of the arrays the stage finds: the
    result's entry (p, q) of slab t is row 2048·t + p of the rows against column q of the matrix.
    Both sides read the rows at (2048·t + p, k) and the matrix at (k, q), for each k. -/
theorem slab_written2 (c : Dev nD) (t : Fin cfg2.N) :
    (dat2 V c).flushed 2 t = ((cfg2.win 2).blk t).view.read (Elt Ideal) (Decode.stage (V c main_v48) (V c main_v47)) := by
  show (cfg2.win 2).cut (grid2.coords t) ((dat2 V c).after 2 t) = _
  rw [after2_2]
  unfold out2_2
  rw [View.canon_unit_zero zero_offsets]
  simp only [View.ld_unit_zero (S := S2048x128) zero_offsets, View.ld_unit_zero (S := S128x128) zero_offsets]
  obtain ⟨e0, e1, e2, e3, e4, e5⟩ := slab_index2 t
  funext j
  obtain ⟨p, q, rfl⟩ : ∃ (p : Fin 2048) (q : Fin 128), j = ix2 p q := ⟨j 0, j 1, eq_ix2 j⟩
  refine ((congrFun (body2_eq (iblk2 V c 0 t) (iblk2 V c 1 t)) (ix2 p q)).trans
    (slab_apply (iblk2 V c 0 t) (iblk2 V c 1 t) p q)).trans ?_
  show _ = Decode.stage (V c main_v48) (V c main_v47) (((cfg2.win 2).blk t).view.emb (ix2 p q))
  unfold Decode.stage
  refine congrArg (· + Decode.k128) (Finset.sum_congr rfl fun k _ => ?_)
  congr 1
  · show V c main_v48 (((cfg2.win 0).blk t).view.emb (ix2 p k)) = V c main_v48 _
    refine congrArg (V c main_v48) ?_
    funext a; apply Fin.ext
    match a with
    | ⟨0, _⟩ => show win2_0.index t (0 : Fin 2) * 2048 + 1 * p.val = win2_2.index t (0 : Fin 2) * 2048 + 1 * p.val; omega
    | ⟨1, _⟩ => show win2_0.index t (1 : Fin 2) * 128 + 1 * k.val = k.val; omega
  · show V c main_v47 (((cfg2.win 1).blk t).view.emb (ix2 k q)) = V c main_v47 _
    refine congrArg (V c main_v47) ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the result lies in slab t iff each coordinate is in the slab's range on its axis. -/
theorem mem_slab2 (t : Fin cfg2.N) (i : S8192x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v49).slice (win2_2.rect t)).set ↔ _
  rw [View.set_slice_whole, Rect.mem_set_unit]
  exact Iff.rfl

/-- Every slab number below 4 is some point's. -/
theorem slab_onto2 : ∀ s : Fin 4, ∃ t : Fin cfg2.N, t.val = s.val :=
  (by decide +kernel : ∀ s : Fin 4, ∃ t : Fin grid2.N, t.val = s.val)

/-- The array the stage leaves: row r is written by slab r / 2048 (2048·(r / 2048) ≤ r < 2048·(r / 2048) + 2048,
    and r / 2048 < 4 since r < 8192), the column range is all 128 columns, so the slabs fill the array. -/
theorem stage2 (c : Dev nD) : (dat2 V c).arrAt 2 cfg2.N = Decode.stage (V c main_v48) (V c main_v47) :=
  (dat2 V c).arrAt_eq_of_cover 2 (Decode.stage (V c main_v48) (V c main_v47)) (fun t _ => slab_written2 V c t) fun i => by
    have hi0 : (i 0).val < 8192 := (i 0).isLt
    have hi1 : (i 1).val < 128 := (i 1).isLt
    obtain ⟨t, ht⟩ := slab_onto2 ⟨(i 0).val / 2048, by omega⟩
    have ht' : t.val = (i 0).val / 2048 := ht
    obtain ⟨e0, e1, e2, e3, e4, e5⟩ := slab_index2 t
    refine ⟨t, flush2_2 t, ?_⟩
    rw [mem_slab2]
    intro a
    match a with
    | ⟨0, _⟩ => show win2_2.index t (0 : Fin 2) * 2048 ≤ (i 0).val ∧ (i 0).val < win2_2.index t (0 : Fin 2) * 2048 + 2048; omega
    | ⟨1, _⟩ => show win2_2.index t (1 : Fin 2) * 128 ≤ (i 1).val ∧ (i 1).val < win2_2.index t (1 : Fin 2) * 128 + 128; omega

end Stage2

end Cert.ReferenceIdeal.Stages

end
-- ==== Proof.ColourValue.lean ====
/-
  The colour stage of the reference program, read as one whole-array function.

  The stage walks a 16 × 2 grid. At point (b, i) it takes rows 256·i … 256·i + 255 of image b from each of three
  512 × 512 planes (luma and the two chroma planes), lowers the two chroma tiles by 128, and writes the three
  clamped affine combinations of the tiles to channels 0, 1, 2 of the same rows of image b of the result. Every
  operation of the body acts entry by entry, so entry (b, ch, r, q) of the result depends only on entry (b, r, q)
  of the three planes, and the 32 tiles of rows cover the result exactly once: the result is `Decode.colour` of
  the three planes.
-/
import proofs.«133770_g2000209683478752_pallasbulk_677_4_alg».proof.Proof.Gen.ReferenceIdeal.Frame
import proofs.«133770_g2000209683478752_pallasbulk_677_4_alg».proof.Proof.DecodeSpec
import Idealize.ShloMosaic.Lib.ValueIdx
import Idealize.ShloMosaic.Lib.ValueLayout
import Idealize.ShloMosaic.Lib.Pipeline.Value

noncomputable section

namespace Cert.ReferenceIdeal.Colour

open Cert.ReferenceIdeal Cert.ReferenceIdeal.Gen Idealize.ShloMosaic Idealize.ShloMosaic.ValueIdx
open Idealize.ShloMosaic.TcCoe Idealize.SL.Sem
open Idealize.ShloMosaic.Pipeline (Dat)

/-! ## A tile read at an entry -/

theorem hz3 : (![0, 0, 0] : Fin 3 → Nat) = fun _ => 0 := funext fun a => by fin_cases a <;> rfl

/-- A 256 × 512 tile viewed with two leading unit axes reads, at (0, 0, r, q), the tile at (r, q): both entries
    sit at row-major position 512 r + q. -/
theorem cast_ab_11ab {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- Channel 0's stored tile at (r, q): the luma entry plus `kR` times the lowered second chroma entry, clamped. -/
theorem red_apply (x0 x2 : Vec Ideal S1x256x512 .f32) (r : Fin 256) (q : Fin 512) :
    k3_pay6 x0 x2 (ix4 (0 : Fin 1) (0 : Fin 1) r q)
      = Decode.clamp (x0 (ix3 (0 : Fin 1) r q) + Decode.kR * (x2 (ix3 (0 : Fin 1) r q) - Decode.k128)) := by
  unfold k3_pay6 k3_pay5 k3_pay3
  refine (cast_ab_11ab _ _ 0 0 r q).trans ?_
  show min _ (max _ (shapeCast S256x512 x0 _ (ix2 r q) + _ * (shapeCast S256x512 x2 _ (ix2 r q) - _))) = _
  rw [shapeCast_1ab_ab_apply, shapeCast_1ab_ab_apply]
  rfl

/-- Channel 1's stored tile at (r, q): the luma entry less `kGb` times the lowered first chroma entry, less `kGr`
    times the lowered second chroma entry, clamped. -/
theorem green_apply (x0 x1 x2 : Vec Ideal S1x256x512 .f32) (r : Fin 256) (q : Fin 512) :
    k3_pay1 (k3_pay7 x0 x1 x2) (ix4 (0 : Fin 1) (0 : Fin 1) r q)
      = Decode.clamp ((x0 (ix3 (0 : Fin 1) r q) - Decode.kGb * (x1 (ix3 (0 : Fin 1) r q) - Decode.k128))
          - Decode.kGr * (x2 (ix3 (0 : Fin 1) r q) - Decode.k128)) := by
  unfold k3_pay1 k3_pay7 k3_pay5 k3_pay4 k3_pay3
  refine (cast_ab_11ab _ _ 0 0 r q).trans ?_
  show min _ (max _ ((shapeCast S256x512 x0 _ (ix2 r q) - _ * (shapeCast S256x512 x1 _ (ix2 r q) - _))
    - _ * (shapeCast S256x512 x2 _ (ix2 r q) - _))) = _
  rw [shapeCast_1ab_ab_apply, shapeCast_1ab_ab_apply, shapeCast_1ab_ab_apply]
  rfl

/-- Channel 2's stored tile at (r, q): the luma entry plus `kB` times the lowered first chroma entry, clamped. -/
theorem blue_apply (x0 x1 : Vec Ideal S1x256x512 .f32) (r : Fin 256) (q : Fin 512) :
    k3_pay2 (k3_pay3 x0) (k3_pay4 x1) (ix4 (0 : Fin 1) (0 : Fin 1) r q)
      = Decode.clamp (x0 (ix3 (0 : Fin 1) r q) + Decode.kB * (x1 (ix3 (0 : Fin 1) r q) - Decode.k128)) := by
  unfold k3_pay2 k3_pay4 k3_pay3
  refine (cast_ab_11ab _ _ 0 0 r q).trans ?_
  show min _ (max _ (shapeCast S256x512 x0 _ (ix2 r q) + _ * (shapeCast S256x512 x1 _ (ix2 r q) - _))) = _
  rw [shapeCast_1ab_ab_apply, shapeCast_1ab_ab_apply]
  rfl

/-! ## The three stores, read back -/

/-- The rectangle of channel `k`'s store places tile entry (r, q) at (0, k, r, q) of the 1 × 3 × 256 × 512 buffer. -/
theorem emb_ch0 (r : Fin 256) (q : Fin 512) :
    r3_1.emb (ix4 (0 : Fin 1) (0 : Fin 1) r q) = ix4 (0 : Fin 1) (0 : Fin 3) r q := by
  funext a; apply Fin.ext
  match a with
  | ⟨0, _⟩ => rfl
  | ⟨1, _⟩ => rfl
  | ⟨2, _⟩ => show 0 + 1 * r.val = r.val; omega
  | ⟨3, _⟩ => show 0 + 1 * q.val = q.val; omega

theorem emb_ch1 (r : Fin 256) (q : Fin 512) :
    r3_2.emb (ix4 (0 : Fin 1) (0 : Fin 1) r q) = ix4 (0 : Fin 1) (1 : Fin 3) r q := by
  funext a; apply Fin.ext
  match a with
  | ⟨0, _⟩ => rfl
  | ⟨1, _⟩ => rfl
  | ⟨2, _⟩ => show 0 + 1 * r.val = r.val; omega
  | ⟨3, _⟩ => show 0 + 1 * q.val = q.val; omega

theorem emb_ch2 (r : Fin 256) (q : Fin 512) :
    r3_3.emb (ix4 (0 : Fin 1) (0 : Fin 1) r q) = ix4 (0 : Fin 1) (2 : Fin 3) r q := by
  funext a; apply Fin.ext
  match a with
  | ⟨0, _⟩ => rfl
  | ⟨1, _⟩ => rfl
  | ⟨2, _⟩ => show 0 + 1 * r.val = r.val; omega
  | ⟨3, _⟩ => show 0 + 1 * q.val = q.val; omega

/-- The three stores write disjoint channels, so each channel of the buffer reads back its own store's tile. -/
theorem stores_apply (p2 p1 p0 : Vec Ideal S1x1x256x512 .f32) (r : Fin 256) (q : Fin 512) :
    View.canon ([⟨r3_3, p2⟩, ⟨r3_2, p1⟩, ⟨r3_1, p0⟩] : List (View.Piece (Elt Ideal) S1x3x256x512 .f32)) (ix4 (0 : Fin 1) (0 : Fin 3) r q)
        = p0 (ix4 (0 : Fin 1) (0 : Fin 1) r q)
    ∧ View.canon ([⟨r3_3, p2⟩, ⟨r3_2, p1⟩, ⟨r3_1, p0⟩] : List (View.Piece (Elt Ideal) S1x3x256x512 .f32)) (ix4 (0 : Fin 1) (1 : Fin 3) r q)
        = p1 (ix4 (0 : Fin 1) (0 : Fin 1) r q)
    ∧ View.canon ([⟨r3_3, p2⟩, ⟨r3_2, p1⟩, ⟨r3_1, p0⟩] : List (View.Piece (Elt Ideal) S1x3x256x512 .f32)) (ix4 (0 : Fin 1) (2 : Fin 3) r q)
        = p2 (ix4 (0 : Fin 1) (0 : Fin 1) r q) := by
  have n02 : (ix4 (0 : Fin 1) (0 : Fin 3) r q : S1x3x256x512.Idx) ∉ r3_3.set :=
    fun h => absurd (show (2 : Nat) ≤ 0 from ((Rect.mem_set_unit.mp h) 1).1) (by decide)
  have n01 : (ix4 (0 : Fin 1) (0 : Fin 3) r q : S1x3x256x512.Idx) ∉ r3_2.set :=
    fun h => absurd (show (1 : Nat) ≤ 0 from ((Rect.mem_set_unit.mp h) 1).1) (by decide)
  have n12 : (ix4 (0 : Fin 1) (1 : Fin 3) r q : S1x3x256x512.Idx) ∉ r3_3.set :=
    fun h => absurd (show (2 : Nat) ≤ 1 from ((Rect.mem_set_unit.mp h) 1).1) (by decide)
  refine ⟨?_, ?_, ?_⟩
  · exact (View.canon_cons_of_not_mem (⟨r3_3, p2⟩ : View.Piece (Elt Ideal) S1x3x256x512 .f32) [⟨r3_2, p1⟩, ⟨r3_1, p0⟩] n02).trans
      ((View.canon_cons_of_not_mem (⟨r3_2, p1⟩ : View.Piece (Elt Ideal) S1x3x256x512 .f32) [⟨r3_1, p0⟩] n01).trans
        ((congrArg (View.canon ([⟨r3_1, p0⟩] : List (View.Piece (Elt Ideal) S1x3x256x512 .f32))) (emb_ch0 r q).symm).trans
          (View.canon_cons_emb r3_1 p0 [] _)))
  · exact (View.canon_cons_of_not_mem (⟨r3_3, p2⟩ : View.Piece (Elt Ideal) S1x3x256x512 .f32) [⟨r3_2, p1⟩, ⟨r3_1, p0⟩] n12).trans
      ((congrArg (View.canon ([⟨r3_2, p1⟩, ⟨r3_1, p0⟩] : List (View.Piece (Elt Ideal) S1x3x256x512 .f32))) (emb_ch1 r q).symm).trans
        (View.canon_cons_emb r3_2 p1 [⟨r3_1, p0⟩] _))
  · exact (congrArg (View.canon ([⟨r3_3, p2⟩, ⟨r3_2, p1⟩, ⟨r3_1, p0⟩] : List (View.Piece (Elt Ideal) S1x3x256x512 .f32))) (emb_ch2 r q).symm).trans
      (View.canon_cons_emb r3_3 p2 [⟨r3_2, p1⟩, ⟨r3_1, p0⟩] _)

/-- The buffer the body leaves, entry by entry: channel `ch` at (r, q) is `Decode.rgb ch` of the luma tile's entry
    and the two lowered chroma entries. -/
theorem tile_apply (x0 x1 x2 : Vec Ideal S1x256x512 .f32) (ch : Fin 3) (r : Fin 256) (q : Fin 512) :
    out3_3 x0 x1 x2 (ix4 (0 : Fin 1) ch r q)
      = Decode.rgb ch (x0 (ix3 (0 : Fin 1) r q)) (x1 (ix3 (0 : Fin 1) r q) - Decode.k128) (x2 (ix3 (0 : Fin 1) r q) - Decode.k128) := by
  unfold out3_3
  simp only [View.ld_unit_zero (S := S1x256x512) hz3]
  match ch with
  | ⟨0, _⟩ => exact ((stores_apply _ _ _ r q).1).trans (red_apply x0 x2 r q)
  | ⟨1, _⟩ => exact ((stores_apply _ _ _ r q).2.1).trans (green_apply x0 x1 x2 r q)
  | ⟨2, _⟩ => exact ((stores_apply _ _ _ r q).2.2).trans (blue_apply x0 x1 r q)

/-! ## From tiles to the whole array -/

variable (V : (c : Dev nD) → (b : Ref sig .tc) → Buf (Elt Ideal) ((c : Thread nD τ).loc b))

/-- The four index maps over the 32 grid points: each plane's tile sits at the image and the row tile of the result's
    tile, all of a row (column tile 0), all three channels (channel tile 0); 16 images, 2 row tiles. -/
theorem idx_facts : ∀ t : Fin cfg3.N,
    win3_0.index t (0 : Fin 3) = win3_3.index t (0 : Fin 4) ∧ win3_0.index t (1 : Fin 3) = win3_3.index t (2 : Fin 4)
    ∧ win3_0.index t (2 : Fin 3) = 0
    ∧ win3_1.index t (0 : Fin 3) = win3_3.index t (0 : Fin 4) ∧ win3_1.index t (1 : Fin 3) = win3_3.index t (2 : Fin 4)
    ∧ win3_1.index t (2 : Fin 3) = 0
    ∧ win3_2.index t (0 : Fin 3) = win3_3.index t (0 : Fin 4) ∧ win3_2.index t (1 : Fin 3) = win3_3.index t (2 : Fin 4)
    ∧ win3_2.index t (2 : Fin 3) = 0
    ∧ win3_3.index t (1 : Fin 4) = 0 ∧ win3_3.index t (3 : Fin 4) = 0
    ∧ win3_3.index t (0 : Fin 4) ≤ 15 ∧ win3_3.index t (2 : Fin 4) ≤ 1 :=
  (by decide +kernel : ∀ t : Fin grid3.N, _)

/-- Every (image, row tile) pair is some grid point's. -/
theorem idx_onto : ∀ (b : Fin 16) (k : Fin 2), ∃ t : Fin cfg3.N, win3_3.index t = ![b.val, 0, k.val, 0] :=
  (by decide +kernel : ∀ (b : Fin 16) (k : Fin 2), ∃ t : Fin grid3.N, win3_3.index t = ![b.val, 0, k.val, 0])

/-- The luma tile at a point, entry (r, q): the luma plane at the point's image, row 256 · (row tile) + r, column q. -/
theorem luma_apply (c : Dev nD) (t : Fin cfg3.N) (b : Fin 16) (R : Fin 512) (r : Fin 256) (q : Fin 512)
    (hb : b.val = win3_3.index t (0 : Fin 4)) (hR : R.val = win3_3.index t (2 : Fin 4) * 256 + r.val) :
    iblk3 V c 0 t (ix3 (0 : Fin 1) r q) = V c main_v53 (ix3 b R q) := by
  obtain ⟨e00, e01, e02, e10, e11, e12, e20, e21, e22, e31, e33, b0, b2⟩ := idx_facts t
  unfold iblk3
  rw [View.read_apply]
  show V c main_v53 (((cfg3.win 0).blk t).view.emb (ix3 (0 : Fin 1) r q)) = V c main_v53 (ix3 b R q)
  refine congrArg (V c main_v53 : S16x512x512.Idx → EReal) ?_
  funext a; apply Fin.ext
  match a with
  | ⟨0, _⟩ => show win3_0.index t (0 : Fin 3) * 1 + 1 * 0 = b.val; omega
  | ⟨1, _⟩ => show win3_0.index t (1 : Fin 3) * 256 + 1 * r.val = R.val; omega
  | ⟨2, _⟩ => show win3_0.index t (2 : Fin 3) * 512 + 1 * q.val = q.val; omega

/-- The first chroma tile at a point, entry (r, q), likewise. -/
theorem chromaB_apply (c : Dev nD) (t : Fin cfg3.N) (b : Fin 16) (R : Fin 512) (r : Fin 256) (q : Fin 512)
    (hb : b.val = win3_3.index t (0 : Fin 4)) (hR : R.val = win3_3.index t (2 : Fin 4) * 256 + r.val) :
    iblk3 V c 1 t (ix3 (0 : Fin 1) r q) = V c main_v63 (ix3 b R q) := by
  obtain ⟨e00, e01, e02, e10, e11, e12, e20, e21, e22, e31, e33, b0, b2⟩ := idx_facts t
  unfold iblk3
  rw [View.read_apply]
  show V c main_v63 (((cfg3.win 1).blk t).view.emb (ix3 (0 : Fin 1) r q)) = V c main_v63 (ix3 b R q)
  refine congrArg (V c main_v63 : S16x512x512.Idx → EReal) ?_
  funext a; apply Fin.ext
  match a with
  | ⟨0, _⟩ => show win3_1.index t (0 : Fin 3) * 1 + 1 * 0 = b.val; omega
  | ⟨1, _⟩ => show win3_1.index t (1 : Fin 3) * 256 + 1 * r.val = R.val; omega
  | ⟨2, _⟩ => show win3_1.index t (2 : Fin 3) * 512 + 1 * q.val = q.val; omega

/-- The second chroma tile at a point, entry (r, q), likewise. -/
theorem chromaR_apply (c : Dev nD) (t : Fin cfg3.N) (b : Fin 16) (R : Fin 512) (r : Fin 256) (q : Fin 512)
    (hb : b.val = win3_3.index t (0 : Fin 4)) (hR : R.val = win3_3.index t (2 : Fin 4) * 256 + r.val) :
    iblk3 V c 2 t (ix3 (0 : Fin 1) r q) = V c main_v67 (ix3 b R q) := by
  obtain ⟨e00, e01, e02, e10, e11, e12, e20, e21, e22, e31, e33, b0, b2⟩ := idx_facts t
  unfold iblk3
  rw [View.read_apply]
  show V c main_v67 (((cfg3.win 2).blk t).view.emb (ix3 (0 : Fin 1) r q)) = V c main_v67 (ix3 b R q)
  refine congrArg (V c main_v67 : S16x512x512.Idx → EReal) ?_
  funext a; apply Fin.ext
  match a with
  | ⟨0, _⟩ => show win3_2.index t (0 : Fin 3) * 1 + 1 * 0 = b.val; omega
  | ⟨1, _⟩ => show win3_2.index t (1 : Fin 3) * 256 + 1 * r.val = R.val; omega
  | ⟨2, _⟩ => show win3_2.index t (2 : Fin 3) * 512 + 1 * q.val = q.val; omega

/-- What a grid point writes back is its tile of `Decode.colour` of the three planes: entry (0, ch, r, q) of the
    tile is entry (image, ch, 256 · (row tile) + r, q) of the result, and the body's value there is `Decode.rgb ch`
    of the three planes' entries at (image, 256 · (row tile) + r, q). -/
theorem flushed_eq (c : Dev nD) (t : Fin cfg3.N) :
    (dat3 V c).flushed 3 t
      = ((cfg3.win 3).blk t).view.read (Elt Ideal) (Decode.colour (V c main_v53) (V c main_v63) (V c main_v67)) := by
  show (cfg3.win 3).cut (grid3.coords t) ((dat3 V c).after 3 t) = _
  rw [after3_3]
  obtain ⟨e00, e01, e02, e10, e11, e12, e20, e21, e22, e31, e33, b0, b2⟩ := idx_facts t
  refine funext fun (j : S1x3x256x512.Idx) => ?_
  obtain ⟨u, ch, r, q, rfl⟩ : ∃ (u : Fin 1) (ch : Fin 3) (r : Fin 256) (q : Fin 512), j = ix4 u ch r q :=
    ⟨j 0, j 1, j 2, j 3, eq_ix4 j⟩
  obtain rfl : u = 0 := Fin.ext (by omega)
  have hE : ((cfg3.win 3).blk t).view.emb (ix4 (0 : Fin 1) ch r q)
      = ix4 (⟨win3_3.index t (0 : Fin 4), by omega⟩ : Fin 16) ch (⟨win3_3.index t (2 : Fin 4) * 256 + r.val, by omega⟩ : Fin 512) q := by
    funext a; apply Fin.ext
    match a with
    | ⟨0, _⟩ => show win3_3.index t (0 : Fin 4) * 1 + 1 * 0 = win3_3.index t (0 : Fin 4); omega
    | ⟨1, _⟩ => show win3_3.index t (1 : Fin 4) * 3 + 1 * ch.val = ch.val; omega
    | ⟨2, _⟩ => show win3_3.index t (2 : Fin 4) * 256 + 1 * r.val = win3_3.index t (2 : Fin 4) * 256 + r.val; omega
    | ⟨3, _⟩ => show win3_3.index t (3 : Fin 4) * 512 + 1 * q.val = q.val; omega
  show out3_3 (iblk3 V c 0 t) (iblk3 V c 1 t) (iblk3 V c 2 t) (ix4 (0 : Fin 1) ch r q)
    = Decode.colour (V c main_v53) (V c main_v63) (V c main_v67) (((cfg3.win 3).blk t).view.emb (ix4 (0 : Fin 1) ch r q))
  rw [hE, tile_apply (iblk3 V c 0 t) (iblk3 V c 1 t) (iblk3 V c 2 t) ch r q,
    luma_apply V c t ⟨win3_3.index t (0 : Fin 4), by omega⟩ ⟨win3_3.index t (2 : Fin 4) * 256 + r.val, by omega⟩ r q rfl rfl,
    chromaB_apply V c t ⟨win3_3.index t (0 : Fin 4), by omega⟩ ⟨win3_3.index t (2 : Fin 4) * 256 + r.val, by omega⟩ r q rfl rfl,
    chromaR_apply V c t ⟨win3_3.index t (0 : Fin 4), by omega⟩ ⟨win3_3.index t (2 : Fin 4) * 256 + r.val, by omega⟩ r q rfl rfl]
  rfl

/-- An entry of the result is in a point's tile iff each coordinate is in the tile's range on its axis. -/
theorem mem_blk (t : Fin cfg3.N) (i : S16x3x512x512.Idx) :
    i ∈ ((cfg3.win 3).blk t).view.set ↔ ∀ a : Fin 4, win3_3.index t a * S1x3x256x512.size a ≤ (i a).val
      ∧ (i a).val < win3_3.index t a * S1x3x256x512.size a + S1x3x256x512.size a := by
  show i ∈ ((View.whole main_v68).slice (win3_3.rect t)).set ↔ _
  rw [View.set_slice_whole, Rect.mem_set_unit]
  exact Iff.rfl

/-- Entry (b, ch, R, q) of the result lies in the tile of the point with image b and row tile R / 256. -/
theorem cover (i : S16x3x512x512.Idx) :
    ∃ t : Fin cfg3.N, (cfg3.win 3).flush t = true ∧ i ∈ ((cfg3.win 3).blk t).view.set := by
  have h0 : (i 0).val < 16 := (i 0).isLt
  have h1 : (i 1).val < 3 := (i 1).isLt
  have h2 : (i 2).val < 512 := (i 2).isLt
  have h3 : (i 3).val < 512 := (i 3).isLt
  obtain ⟨t, ht⟩ := idx_onto ⟨(i 0).val, h0⟩ ⟨(i 2).val / 256, by omega⟩
  have q0 : win3_3.index t (0 : Fin 4) = (i 0).val := congrFun ht 0
  have q1 : win3_3.index t (1 : Fin 4) = 0 := congrFun ht 1
  have q2 : win3_3.index t (2 : Fin 4) = (i 2).val / 256 := congrFun ht 2
  have q3 : win3_3.index t (3 : Fin 4) = 0 := congrFun ht 3
  refine ⟨t, flush3_3 t, ?_⟩
  rw [mem_blk]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 3 ≤ (i 1).val ∧ (i 1).val < win3_3.index t (1 : Fin 4) * 3 + 3; omega
  | ⟨2, _⟩ => show win3_3.index t (2 : Fin 4) * 256 ≤ (i 2).val ∧ (i 2).val < win3_3.index t (2 : Fin 4) * 256 + 256; omega
  | ⟨3, _⟩ => show win3_3.index t (3 : Fin 4) * 512 ≤ (i 3).val ∧ (i 3).val < win3_3.index t (3 : Fin 4) * 512 + 512; omega

/-- THE COLOUR STAGE: after its 32 write-backs the result array is `Decode.colour` of the three planes as the stage
    found them. -/
theorem colour3 (c : Dev nD) :
    (dat3 V c).arrAt 3 cfg3.N = Decode.colour (V c main_v53) (V c main_v63) (V c main_v67) :=
  (dat3 V c).arrAt_eq_of_cover 3 (Decode.colour (V c main_v53) (V c main_v63) (V c main_v67))
    (fun t _ => flushed_eq V c t) cover

end Cert.ReferenceIdeal.Colour

end
-- ==== Proof.RefFold.lean ====
/-
  The reference's result, read back through the program. The reference runs, in order: a stretch of host
  operations that builds the luma stage's 128×128 matrix (the 64×64 dequantise-and-transform matrix placed
  twice on the diagonal by a Kronecker product with the 2×2 identity) and packs the luma coefficients two
  blocks per row; the luma stage; the same twice more for the two chroma planes; a stretch that turns the
  three stage outputs into three full-size planes (blocks merged into an image; each chroma pixel repeated
  2×2); and the colour stage. Each buffer's contents at each boundary is the fold of those segments over the
  launch memory; this module walks the fold backwards from the result buffer and names what it finds as one
  closed term of the five argument arrays.
-/
import proofs.«133770_g2000209683478752_pallasbulk_677_4_alg».proof.Proof.Gen.ReferenceIdeal.Frame
import proofs.«133770_g2000209683478752_pallasbulk_677_4_alg».proof.Proof.DecodeSpec
import proofs.«133770_g2000209683478752_pallasbulk_677_4_alg».proof.Proof.RefTerms
import proofs.«133770_g2000209683478752_pallasbulk_677_4_alg».proof.Proof.StageValue
import proofs.«133770_g2000209683478752_pallasbulk_677_4_alg».proof.Proof.ColourValue
import Idealize.ShloMosaic.Lib.StableHlo.Run
import Idealize.ShloMosaic.PureOps.Ideal

set_option maxRecDepth 16384

noncomputable section

open Idealize.ShloMosaic Idealize.ShloMosaic.TcCoe Idealize.SL.Sem

namespace Cert.ReferenceIdeal.Fold

open Cert.ReferenceIdeal Cert.ReferenceIdeal.Gen

variable (m : (ℓ : Loc nD τ sig) → Buf (Elt Ideal) ℓ) (ρ : Dev nD → PrngReg)

/-- A buffer that no operation of a stretch writes holds after the stretch what it held before. -/
local macro "kept_by " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-- A buffer that no operation of a stretch writes holds after the stretch what it held before. -/
local macro "kept_by " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Buffers that stretches and stages leave alone -/

/-- The luma coefficients are untouched up to their packing. -/
theorem arg0_kept (c : Dev nD) : W2 m ρ c (Proc.devRef .tc main_arg0) = W0 m ρ c (Proc.devRef .tc main_arg0) :=
  calc W2 m ρ c (Proc.devRef .tc main_arg0)
    _ = W1 m ρ c (Proc.devRef .tc main_arg0) := by
          show StableHlo.after hostOps0_1 (W1 m ρ c) (Proc.devRef .tc main_arg0) = _
          kept_by hostOps0_1
    _ = W0 m ρ c (Proc.devRef .tc main_arg0) := by
          show StableHlo.after hostOps0 (W0 m ρ c) (Proc.devRef .tc main_arg0) = _
          kept_by hostOps0

/-- The luma matrix is untouched by the packing of the coefficients. -/
theorem v13_kept (c : Dev nD) : W3 m ρ c (Proc.devRef .tc main_v13) = W2 m ρ c (Proc.devRef .tc main_v13) :=
  calc W3 m ρ c (Proc.devRef .tc main_v13)
    _ = W2 m ρ c (Proc.devRef .tc main_v13) := by
          show StableHlo.after hostOps0_2 (W2 m ρ c) (Proc.devRef .tc main_v13) = _
          kept_by hostOps0_2

/-- The chroma quantisation table is untouched up to the second stretch. -/
theorem arg4_kept4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by
          show StableHlo.after hostOps0_2 (W2 m ρ c) (Proc.devRef .tc main_arg4) = _
          kept_by hostOps0_2
    _ = W1 m ρ c (Proc.devRef .tc main_arg4) := by
          show StableHlo.after hostOps0_1 (W1 m ρ c) (Proc.devRef .tc main_arg4) = _
          kept_by hostOps0_1
    _ = W0 m ρ c (Proc.devRef .tc main_arg4) := by
          show StableHlo.after hostOps0 (W0 m ρ c) (Proc.devRef .tc main_arg4) = _
          kept_by hostOps0

/-- The scale factors are untouched from their definition to the second stretch. -/
theorem cst_kept4 (c : Dev nD) : W4 m ρ c (Proc.devRef .tc main_cst) = W1 m ρ c (Proc.devRef .tc main_cst) :=
  calc W4 m ρ c (Proc.devRef .tc main_cst)
    _ = W3 m ρ c (Proc.devRef .tc main_cst) := W4_of_ne m ρ c main_cst (by decide)
    _ = W2 m ρ c (Proc.devRef .tc main_cst) := by
          show StableHlo.after hostOps0_2 (W2 m ρ c) (Proc.devRef .tc main_cst) = _
          kept_by hostOps0_2
    _ = W1 m ρ c (Proc.devRef .tc main_cst) := by
          show StableHlo.after hostOps0_1 (W1 m ρ c) (Proc.devRef .tc main_cst) = _
          kept_by hostOps0_1

/-- The cosine products are untouched from their definition to the second stretch. -/
theorem cst0_kept4 (c : Dev nD) : W4 m ρ c (Proc.devRef .tc main_cst_0) = W1 m ρ c (Proc.devRef .tc main_cst_0) :=
  calc W4 m ρ c (Proc.devRef .tc main_cst_0)
    _ = W3 m ρ c (Proc.devRef .tc main_cst_0) := W4_of_ne m ρ c main_cst_0 (by decide)
    _ = W2 m ρ c (Proc.devRef .tc main_cst_0) := by
          show StableHlo.after hostOps0_2 (W2 m ρ c) (Proc.devRef .tc main_cst_0) = _
          kept_by hostOps0_2
    _ = W1 m ρ c (Proc.devRef .tc main_cst_0) := by
          show StableHlo.after hostOps0_1 (W1 m ρ c) (Proc.devRef .tc main_cst_0) = _
          kept_by hostOps0_1

/-- The first chroma plane's coefficients are untouched up to their packing. -/
theorem arg1_kept (c : Dev nD) : W6 m ρ c (Proc.devRef .tc main_arg1) = W0 m ρ c (Proc.devRef .tc main_arg1) :=
  calc W6 m ρ c (Proc.devRef .tc main_arg1)
    _ = W5 m ρ c (Proc.devRef .tc main_arg1) := by
          show StableHlo.after hostOps1_1 (W5 m ρ c) (Proc.devRef .tc main_arg1) = _
          kept_by hostOps1_1
    _ = W4 m ρ c (Proc.devRef .tc main_arg1) := by
          show StableHlo.after hostOps1 (W4 m ρ c) (Proc.devRef .tc main_arg1) = _
          kept_by hostOps1
    _ = W3 m ρ c (Proc.devRef .tc main_arg1) := W4_of_ne m ρ c main_arg1 (by decide)
    _ = W2 m ρ c (Proc.devRef .tc main_arg1) := by
          show StableHlo.after hostOps0_2 (W2 m ρ c) (Proc.devRef .tc main_arg1) = _
          kept_by hostOps0_2
    _ = W1 m ρ c (Proc.devRef .tc main_arg1) := by
          show StableHlo.after hostOps0_1 (W1 m ρ c) (Proc.devRef .tc main_arg1) = _
          kept_by hostOps0_1
    _ = W0 m ρ c (Proc.devRef .tc main_arg1) := by
          show StableHlo.after hostOps0 (W0 m ρ c) (Proc.devRef .tc main_arg1) = _
          kept_by hostOps0

/-- The first chroma matrix is untouched by the packing of the coefficients. -/
theorem v30_kept (c : Dev nD) : W7 m ρ c (Proc.devRef .tc main_v30) = W6 m ρ c (Proc.devRef .tc main_v30) :=
  calc W7 m ρ c (Proc.devRef .tc main_v30)
    _ = W6 m ρ c (Proc.devRef .tc main_v30) := by
          show StableHlo.after hostOps1_2 (W6 m ρ c) (Proc.devRef .tc main_v30) = _
          kept_by hostOps1_2

/-- The chroma quantisation table is untouched between the second and the third stretch. -/
theorem arg4_kept8 (c : Dev nD) : W8 m ρ c (Proc.devRef .tc main_arg4) = W4 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := by
          show StableHlo.after hostOps1_2 (W6 m ρ c) (Proc.devRef .tc main_arg4) = _
          kept_by hostOps1_2
    _ = W5 m ρ c (Proc.devRef .tc main_arg4) := by
          show StableHlo.after hostOps1_1 (W5 m ρ c) (Proc.devRef .tc main_arg4) = _
          kept_by hostOps1_1
    _ = W4 m ρ c (Proc.devRef .tc main_arg4) := by
          show StableHlo.after hostOps1 (W4 m ρ c) (Proc.devRef .tc main_arg4) = _
          kept_by hostOps1

/-- The scale factors are untouched between the second and the third stretch. -/
theorem cst_kept8 (c : Dev nD) : W8 m ρ c (Proc.devRef .tc main_cst) = W4 m ρ c (Proc.devRef .tc main_cst) :=
  calc W8 m ρ c (Proc.devRef .tc main_cst)
    _ = W7 m ρ c (Proc.devRef .tc main_cst) := W8_of_ne m ρ c main_cst (by decide)
    _ = W6 m ρ c (Proc.devRef .tc main_cst) := by
          show StableHlo.after hostOps1_2 (W6 m ρ c) (Proc.devRef .tc main_cst) = _
          kept_by hostOps1_2
    _ = W5 m ρ c (Proc.devRef .tc main_cst) := by
          show StableHlo.after hostOps1_1 (W5 m ρ c) (Proc.devRef .tc main_cst) = _
          kept_by hostOps1_1
    _ = W4 m ρ c (Proc.devRef .tc main_cst) := by
          show StableHlo.after hostOps1 (W4 m ρ c) (Proc.devRef .tc main_cst) = _
          kept_by hostOps1

/-- The cosine products are untouched between the second and the third stretch. -/
theorem cst0_kept8 (c : Dev nD) : W8 m ρ c (Proc.devRef .tc main_cst_0) = W4 m ρ c (Proc.devRef .tc main_cst_0) :=
  calc W8 m ρ c (Proc.devRef .tc main_cst_0)
    _ = W7 m ρ c (Proc.devRef .tc main_cst_0) := W8_of_ne m ρ c main_cst_0 (by decide)
    _ = W6 m ρ c (Proc.devRef .tc main_cst_0) := by
          show StableHlo.after hostOps1_2 (W6 m ρ c) (Proc.devRef .tc main_cst_0) = _
          kept_by hostOps1_2
    _ = W5 m ρ c (Proc.devRef .tc main_cst_0) := by
          show StableHlo.after hostOps1_1 (W5 m ρ c) (Proc.devRef .tc main_cst_0) = _
          kept_by hostOps1_1
    _ = W4 m ρ c (Proc.devRef .tc main_cst_0) := by
          show StableHlo.after hostOps1 (W4 m ρ c) (Proc.devRef .tc main_cst_0) = _
          kept_by hostOps1

/-- The second chroma plane's coefficients are untouched up to their packing. -/
theorem arg2_kept (c : Dev nD) : W10 m ρ c (Proc.devRef .tc main_arg2) = W0 m ρ c (Proc.devRef .tc main_arg2) :=
  calc W10 m ρ c (Proc.devRef .tc main_arg2)
    _ = W9 m ρ c (Proc.devRef .tc main_arg2) := by
          show StableHlo.after hostOps2_1 (W9 m ρ c) (Proc.devRef .tc main_arg2) = _
          kept_by hostOps2_1
    _ = W8 m ρ c (Proc.devRef .tc main_arg2) := by
          show StableHlo.after hostOps2 (W8 m ρ c) (Proc.devRef .tc main_arg2) = _
          kept_by hostOps2
    _ = W7 m ρ c (Proc.devRef .tc main_arg2) := W8_of_ne m ρ c main_arg2 (by decide)
    _ = W6 m ρ c (Proc.devRef .tc main_arg2) := by
          show StableHlo.after hostOps1_2 (W6 m ρ c) (Proc.devRef .tc main_arg2) = _
          kept_by hostOps1_2
    _ = W5 m ρ c (Proc.devRef .tc main_arg2) := by
          show StableHlo.after hostOps1_1 (W5 m ρ c) (Proc.devRef .tc main_arg2) = _
          kept_by hostOps1_1
    _ = W4 m ρ c (Proc.devRef .tc main_arg2) := by
          show StableHlo.after hostOps1 (W4 m ρ c) (Proc.devRef .tc main_arg2) = _
          kept_by hostOps1
    _ = W3 m ρ c (Proc.devRef .tc main_arg2) := W4_of_ne m ρ c main_arg2 (by decide)
    _ = W2 m ρ c (Proc.devRef .tc main_arg2) := by
          show StableHlo.after hostOps0_2 (W2 m ρ c) (Proc.devRef .tc main_arg2) = _
          kept_by hostOps0_2
    _ = W1 m ρ c (Proc.devRef .tc main_arg2) := by
          show StableHlo.after hostOps0_1 (W1 m ρ c) (Proc.devRef .tc main_arg2) = _
          kept_by hostOps0_1
    _ = W0 m ρ c (Proc.devRef .tc main_arg2) := by
          show StableHlo.after hostOps0 (W0 m ρ c) (Proc.devRef .tc main_arg2) = _
          kept_by hostOps0

/-- The second chroma matrix is untouched by the packing of the coefficients. -/
theorem v47_kept (c : Dev nD) : W11 m ρ c (Proc.devRef .tc main_v47) = W10 m ρ c (Proc.devRef .tc main_v47) :=
  calc W11 m ρ c (Proc.devRef .tc main_v47)
    _ = W10 m ρ c (Proc.devRef .tc main_v47) := by
          show StableHlo.after hostOps2_2 (W10 m ρ c) (Proc.devRef .tc main_v47) = _
          kept_by hostOps2_2

/-- The first chroma stage's blocks are untouched up to the last stretch. -/
theorem v33_kept (c : Dev nD) : W12 m ρ c (Proc.devRef .tc main_v33) = W9 m ρ c (Proc.devRef .tc main_v33) :=
  calc W12 m ρ c (Proc.devRef .tc main_v33)
    _ = W11 m ρ c (Proc.devRef .tc main_v33) := W12_of_ne m ρ c main_v33 (by decide)
    _ = W10 m ρ c (Proc.devRef .tc main_v33) := by
          show StableHlo.after hostOps2_2 (W10 m ρ c) (Proc.devRef .tc main_v33) = _
          kept_by hostOps2_2
    _ = W9 m ρ c (Proc.devRef .tc main_v33) := by
          show StableHlo.after hostOps2_1 (W9 m ρ c) (Proc.devRef .tc main_v33) = _
          kept_by hostOps2_1

/-- The luma stage's blocks are untouched up to the last stretch. -/
theorem v16_kept (c : Dev nD) : W12 m ρ c (Proc.devRef .tc main_v16) = W5 m ρ c (Proc.devRef .tc main_v16) :=
  calc W12 m ρ c (Proc.devRef .tc main_v16)
    _ = W11 m ρ c (Proc.devRef .tc main_v16) := W12_of_ne m ρ c main_v16 (by decide)
    _ = W10 m ρ c (Proc.devRef .tc main_v16) := by
          show StableHlo.after hostOps2_2 (W10 m ρ c) (Proc.devRef .tc main_v16) = _
          kept_by hostOps2_2
    _ = W9 m ρ c (Proc.devRef .tc main_v16) := by
          show StableHlo.after hostOps2_1 (W9 m ρ c) (Proc.devRef .tc main_v16) = _
          kept_by hostOps2_1
    _ = W8 m ρ c (Proc.devRef .tc main_v16) := by
          show StableHlo.after hostOps2 (W8 m ρ c) (Proc.devRef .tc main_v16) = _
          kept_by hostOps2
    _ = W7 m ρ c (Proc.devRef .tc main_v16) := W8_of_ne m ρ c main_v16 (by decide)
    _ = W6 m ρ c (Proc.devRef .tc main_v16) := by
          show StableHlo.after hostOps1_2 (W6 m ρ c) (Proc.devRef .tc main_v16) = _
          kept_by hostOps1_2
    _ = W5 m ρ c (Proc.devRef .tc main_v16) := by
          show StableHlo.after hostOps1_1 (W5 m ρ c) (Proc.devRef .tc main_v16) = _
          kept_by hostOps1_1

/-! ## The first stretch: the tables, the luma matrix, the identity -/

theorem w1_cst (c : Dev nD) : (W1 m ρ c (Proc.devRef .tc main_cst) : FVec Ideal S64 .f32) = alT := by
  show StableHlo.after hostOps0 (W0 m ρ c) (Proc.devRef .tc main_cst) = _
  after_results
  rfl

theorem w1_cst_0 (c : Dev nD) : (W1 m ρ c (Proc.devRef .tc main_cst_0) : FVec Ideal S64x64 .f32) = bsT := by
  show StableHlo.after hostOps0 (W0 m ρ c) (Proc.devRef .tc main_cst_0) = _
  after_results
  rfl

/-- The luma stage's matrix, as the stage finds it. -/
theorem luma_matrix (c : Dev nD) : (W3 m ρ c (Proc.devRef .tc main_v13) : FVec Ideal S128x128 .f32)
    = stageMat (m ((c : Thread nD τ).loc main_arg3)) := by
  rw [v13_kept m ρ c]
  have h6 : (W1 m ρ c (Proc.devRef .tc main_v6) : FVec Ideal S64x64 .f32) = wT (m ((c : Thread nD τ).loc main_arg3)) alT bsT := by
    show StableHlo.after hostOps0 (W0 m ρ c) (Proc.devRef .tc main_v6) = _
    after_results
    rfl
  have h12 : (W1 m ρ c (Proc.devRef .tc main_v12) : FVec Ideal S2x2 .f32) = eyeT := by
    show StableHlo.after hostOps0 (W0 m ρ c) (Proc.devRef .tc main_v12) = _
    after_results
    rfl
  have hk : (W2 m ρ c (Proc.devRef .tc main_v13) : FVec Ideal S128x128 .f32)
      = kronT (W1 m ρ c (Proc.devRef .tc main_v12)) (W1 m ρ c (Proc.devRef .tc main_v6)) := rfl
  rw [hk, h6, h12]
  rfl

/-- The luma coefficients, packed two blocks per row, as the stage finds them. -/
theorem luma_rows (c : Dev nD) : (W3 m ρ c (Proc.devRef .tc main_v14) : FVec Ideal S32768x128 .f32)
    = packY (m ((c : Thread nD τ).loc main_arg0)) := by
  have h : (W3 m ρ c (Proc.devRef .tc main_v14) : FVec Ideal S32768x128 .f32)
      = shapeCast S32768x128 (W2 m ρ c (Proc.devRef .tc main_arg0)) shapeCasts_S16x4096x8x8_S32768x128 := by
    show StableHlo.after hostOps0_2 (W2 m ρ c) (Proc.devRef .tc main_v14) = _
    after_results
    rfl
  rw [h, arg0_kept m ρ c]
  rfl

/-- What the luma stage leaves. -/
theorem luma_stage (c : Dev nD) : (W4 m ρ c (Proc.devRef .tc main_v15) : FVec Ideal S32768x128 .f32)
    = Decode.stage (packY (m ((c : Thread nD τ).loc main_arg0)))
        (stageMat (m ((c : Thread nD τ).loc main_arg3))) := by
  have h : (W4 m ρ c (Proc.devRef .tc main_v15) : FVec Ideal S32768x128 .f32)
      = Decode.stage (V3 m ρ c main_v14) (V3 m ρ c main_v13) :=
    (W4_arr m ρ c 2).trans (Cert.ReferenceIdeal.Stages.stage0 (V3 m ρ) c)
  rw [h]
  show Decode.stage (W3 m ρ c (Proc.devRef .tc main_v14) : FVec Ideal S32768x128 .f32) (W3 m ρ c (Proc.devRef .tc main_v13) : FVec Ideal S128x128 .f32) = _
  rw [luma_rows m ρ c, luma_matrix m ρ c]

/-! ## The second stretch and the first chroma stage -/

theorem chroma1_matrix (c : Dev nD) : (W7 m ρ c (Proc.devRef .tc main_v30) : FVec Ideal S128x128 .f32)
    = stageMat (m ((c : Thread nD τ).loc main_arg4)) := by
  rw [v30_kept m ρ c]
  have h23 : (W5 m ρ c (Proc.devRef .tc main_v23) : FVec Ideal S64x64 .f32)
      = wT (W4 m ρ c (Proc.devRef .tc main_arg4)) (W4 m ρ c (Proc.devRef .tc main_cst)) (W4 m ρ c (Proc.devRef .tc main_cst_0)) := by
    show StableHlo.after hostOps1 (W4 m ρ c) (Proc.devRef .tc main_v23) = _
    after_results
    rfl
  have h29 : (W5 m ρ c (Proc.devRef .tc main_v29) : FVec Ideal S2x2 .f32) = eyeT := by
    show StableHlo.after hostOps1 (W4 m ρ c) (Proc.devRef .tc main_v29) = _
    after_results
    rfl
  have hk : (W6 m ρ c (Proc.devRef .tc main_v30) : FVec Ideal S128x128 .f32)
      = kronT (W5 m ρ c (Proc.devRef .tc main_v29)) (W5 m ρ c (Proc.devRef .tc main_v23)) := rfl
  rw [hk, h23, h29, arg4_kept4 m ρ c, cst_kept4 m ρ c, cst0_kept4 m ρ c, w1_cst m ρ c, w1_cst_0 m ρ c]
  rfl

theorem chroma1_rows (c : Dev nD) : (W7 m ρ c (Proc.devRef .tc main_v31) : FVec Ideal S8192x128 .f32)
    = packC (m ((c : Thread nD τ).loc main_arg1)) := by
  have h : (W7 m ρ c (Proc.devRef .tc main_v31) : FVec Ideal S8192x128 .f32)
      = shapeCast S8192x128 (W6 m ρ c (Proc.devRef .tc main_arg1)) shapeCasts_S16x1024x8x8_S8192x128 := by
    show StableHlo.after hostOps1_2 (W6 m ρ c) (Proc.devRef .tc main_v31) = _
    after_results
    rfl
  rw [h, arg1_kept m ρ c]
  rfl

theorem chroma1_stage (c : Dev nD) : (W8 m ρ c (Proc.devRef .tc main_v32) : FVec Ideal S8192x128 .f32)
    = Decode.stage (packC (m ((c : Thread nD τ).loc main_arg1)))
        (stageMat (m ((c : Thread nD τ).loc main_arg4))) := by
  have h : (W8 m ρ c (Proc.devRef .tc main_v32) : FVec Ideal S8192x128 .f32)
      = Decode.stage (V7 m ρ c main_v31) (V7 m ρ c main_v30) :=
    (W8_arr m ρ c 2).trans (Cert.ReferenceIdeal.Stages.stage1 (V7 m ρ) c)
  rw [h]
  show Decode.stage (W7 m ρ c (Proc.devRef .tc main_v31) : FVec Ideal S8192x128 .f32) (W7 m ρ c (Proc.devRef .tc main_v30) : FVec Ideal S128x128 .f32) = _
  rw [chroma1_rows m ρ c, chroma1_matrix m ρ c]

/-! ## The third stretch and the second chroma stage -/

theorem chroma2_matrix (c : Dev nD) : (W11 m ρ c (Proc.devRef .tc main_v47) : FVec Ideal S128x128 .f32)
    = stageMat (m ((c : Thread nD τ).loc main_arg4)) := by
  rw [v47_kept m ρ c]
  have h40 : (W9 m ρ c (Proc.devRef .tc main_v40) : FVec Ideal S64x64 .f32)
      = wT (W8 m ρ c (Proc.devRef .tc main_arg4)) (W8 m ρ c (Proc.devRef .tc main_cst)) (W8 m ρ c (Proc.devRef .tc main_cst_0)) := by
    show StableHlo.after hostOps2 (W8 m ρ c) (Proc.devRef .tc main_v40) = _
    after_results
    rfl
  have h46 : (W9 m ρ c (Proc.devRef .tc main_v46) : FVec Ideal S2x2 .f32) = eyeT := by
    show StableHlo.after hostOps2 (W8 m ρ c) (Proc.devRef .tc main_v46) = _
    after_results
    rfl
  have hk : (W10 m ρ c (Proc.devRef .tc main_v47) : FVec Ideal S128x128 .f32)
      = kronT (W9 m ρ c (Proc.devRef .tc main_v46)) (W9 m ρ c (Proc.devRef .tc main_v40)) := rfl
  rw [hk, h40, h46, arg4_kept8 m ρ c, cst_kept8 m ρ c, cst0_kept8 m ρ c, arg4_kept4 m ρ c, cst_kept4 m ρ c, cst0_kept4 m ρ c,
    w1_cst m ρ c, w1_cst_0 m ρ c]
  rfl

theorem chroma2_rows (c : Dev nD) : (W11 m ρ c (Proc.devRef .tc main_v48) : FVec Ideal S8192x128 .f32)
    = packC (m ((c : Thread nD τ).loc main_arg2)) := by
  have h : (W11 m ρ c (Proc.devRef .tc main_v48) : FVec Ideal S8192x128 .f32)
      = shapeCast S8192x128 (W10 m ρ c (Proc.devRef .tc main_arg2)) shapeCasts_S16x1024x8x8_S8192x128 := by
    show StableHlo.after hostOps2_2 (W10 m ρ c) (Proc.devRef .tc main_v48) = _
    after_results
    rfl
  rw [h, arg2_kept m ρ c]
  rfl

theorem chroma2_stage (c : Dev nD) : (W12 m ρ c (Proc.devRef .tc main_v49) : FVec Ideal S8192x128 .f32)
    = Decode.stage (packC (m ((c : Thread nD τ).loc main_arg2)))
        (stageMat (m ((c : Thread nD τ).loc main_arg4))) := by
  have h : (W12 m ρ c (Proc.devRef .tc main_v49) : FVec Ideal S8192x128 .f32)
      = Decode.stage (V11 m ρ c main_v48) (V11 m ρ c main_v47) :=
    (W12_arr m ρ c 2).trans (Cert.ReferenceIdeal.Stages.stage2 (V11 m ρ) c)
  rw [h]
  show Decode.stage (W11 m ρ c (Proc.devRef .tc main_v48) : FVec Ideal S8192x128 .f32) (W11 m ρ c (Proc.devRef .tc main_v47) : FVec Ideal S128x128 .f32) = _
  rw [chroma2_rows m ρ c, chroma2_matrix m ρ c]

/-! ## The last stretch: the three planes -/

theorem luma_blocks (c : Dev nD) : (W12 m ρ c (Proc.devRef .tc main_v16) : FVec Ideal S16x4096x8x8 .f32)
    = shapeCast S16x4096x8x8 (W4 m ρ c (Proc.devRef .tc main_v15)) shapeCasts_S32768x128_S16x4096x8x8 := by
  rw [v16_kept m ρ c]
  show StableHlo.after hostOps1 (W4 m ρ c) (Proc.devRef .tc main_v16) = _
  after_results
  rfl

theorem chroma1_blocks (c : Dev nD) : (W12 m ρ c (Proc.devRef .tc main_v33) : FVec Ideal S16x1024x8x8 .f32)
    = shapeCast S16x1024x8x8 (W8 m ρ c (Proc.devRef .tc main_v32)) shapeCasts_S8192x128_S16x1024x8x8 := by
  rw [v33_kept m ρ c]
  show StableHlo.after hostOps2 (W8 m ρ c) (Proc.devRef .tc main_v33) = _
  after_results
  rfl

theorem luma_plane (c : Dev nD) : (W13 m ρ c (Proc.devRef .tc main_v53) : FVec Ideal S16x512x512 .f32)
    = planeYB (W12 m ρ c (Proc.devRef .tc main_v16)) := by
  show StableHlo.after hostOps3 (W12 m ρ c) (Proc.devRef .tc main_v53) = _
  after_results
  rfl

theorem chroma1_plane (c : Dev nD) : (W13 m ρ c (Proc.devRef .tc main_v63) : FVec Ideal S16x512x512 .f32)
    = planeCB (W12 m ρ c (Proc.devRef .tc main_v33)) := by
  show StableHlo.after hostOps3 (W12 m ρ c) (Proc.devRef .tc main_v63) = _
  after_results
  rfl

theorem chroma2_plane (c : Dev nD) : (W13 m ρ c (Proc.devRef .tc main_v67) : FVec Ideal S16x512x512 .f32)
    = planeCT (W12 m ρ c (Proc.devRef .tc main_v49)) := by
  show StableHlo.after hostOps3 (W12 m ρ c) (Proc.devRef .tc main_v67) = _
  after_results
  rfl

/-! ## The colour stage: the result -/

/-- The result buffer after the run holds the closed term of the launch contents of the five arguments. -/
theorem result_eq (c : Dev nD) : (W14 m ρ c (Proc.devRef .tc main_v68) : FVec Ideal S16x3x512x512 .f32)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  have h : (W14 m ρ c (Proc.devRef .tc main_v68) : FVec Ideal S16x3x512x512 .f32)
      = Decode.colour (V13 m ρ c main_v53) (V13 m ρ c main_v63) (V13 m ρ c main_v67) :=
    (W14_arr m ρ c 3).trans (Cert.ReferenceIdeal.Colour.colour3 (V13 m ρ) c)
  rw [h]
  show Decode.colour (W13 m ρ c (Proc.devRef .tc main_v53) : FVec Ideal S16x512x512 .f32)
      (W13 m ρ c (Proc.devRef .tc main_v63) : FVec Ideal S16x512x512 .f32)
      (W13 m ρ c (Proc.devRef .tc main_v67) : FVec Ideal S16x512x512 .f32) = _
  rw [luma_plane m ρ c, chroma1_plane m ρ c, chroma2_plane m ρ c, luma_blocks m ρ c, chroma1_blocks m ρ c,
    luma_stage m ρ c, chroma1_stage m ρ c, chroma2_stage m ρ c]
  rfl

end Cert.ReferenceIdeal.Fold

end
-- ==== Proof.KronSum.lean ====
/-
  Two facts about sums and extended reals that join the packed (two blocks per row, block-diagonal matrix)
  arrangement of a dequantise-and-transform stage to the plain one (one block per row).

  A row of 128 coefficients is two blocks of 64 side by side; the 128×128 matrix is block diagonal with the
  same 64×64 matrix `W` twice. A column of it is therefore zero on one half and a column of `W` on the other,
  so the 128-term product collapses to the 64-term product of the matching half: zero times anything is zero
  and one times anything is itself on the extended reals, infinities included, so nothing about finiteness is used.

  Adding the real 128 and taking it away again is the identity on every extended real.
-/
import Idealize.ShloMosaic.PureOps.Ideal
import Idealize.ShloMosaic.PureOps.Ideal.Laws

noncomputable section

namespace Decode

open Idealize.ShloMosaic

/-- The lower half of a row, as an index of the row. -/
abbrev lo (k : Fin 64) : Fin 128 := ⟨k.val, by omega⟩
/-- The upper half of a row, as an index of the row. -/
abbrev hi (k : Fin 64) : Fin 128 := ⟨64 + k.val, by omega⟩

/-- A sum over a row of 128 is the sum over its lower half plus the sum over its upper half. -/
theorem sum_halves (f : Fin 128 → EReal) : ∑ k' : Fin 128, f k' = ∑ k : Fin 64, f (lo k) + ∑ k : Fin 64, f (hi k) := by
  have h := Fin.sum_univ_add (M := EReal) (a := 64) (b := 64) (f : Fin (64 + 64) → EReal)
  exact h

/-- A column that is `W` on the lower half and zero on the upper half: the product is the lower half's. -/
theorem sum_lower (X K : Fin 128 → EReal) (W : Fin 64 → EReal)
    (hlo : ∀ k, K (lo k) = 1 * W k) (hhi : ∀ k, K (hi k) = 0 * W k) :
    ∑ k' : Fin 128, X k' * K k' = ∑ k : Fin 64, X (lo k) * W k := by
  rw [sum_halves]
  have h2 : ∑ k : Fin 64, X (hi k) * K (hi k) = 0 :=
    Finset.sum_eq_zero fun k _ => by rw [hhi, zero_mul, mul_zero]
  rw [h2, add_zero]
  exact Finset.sum_congr rfl fun k _ => by rw [hlo, one_mul]

/-- A column that is zero on the lower half and `W` on the upper half: the product is the upper half's. -/
theorem sum_upper (X K : Fin 128 → EReal) (W : Fin 64 → EReal)
    (hlo : ∀ k, K (lo k) = 0 * W k) (hhi : ∀ k, K (hi k) = 1 * W k) :
    ∑ k' : Fin 128, X k' * K k' = ∑ k : Fin 64, X (hi k) * W k := by
  rw [sum_halves]
  have h1 : ∑ k : Fin 64, X (lo k) * K (lo k) = 0 :=
    Finset.sum_eq_zero fun k _ => by rw [hlo, zero_mul, mul_zero]
  rw [h1, zero_add]
  exact Finset.sum_congr rfl fun k _ => by rw [hhi, one_mul]

/-- The float 128.0 is the real number 128. -/
theorem ofBits_128 : Ideal.ofBits .f32 0x43000000#32 = ((128 : ℝ) : EReal) := by
  simp [Ideal.ofBits, Ideal.ieee]
  rw [← EReal.coe_mul]
  norm_num

/-- Raising by 128 and lowering by 128 again changes nothing, on every extended real. -/
theorem add_sub_128 (x : EReal) :
    (x + Ideal.ofBits .f32 0x43000000#32) - Ideal.ofBits .f32 0x43000000#32 = x := by
  rw [ofBits_128]
  exact EReal.add_sub_cancel_right

end Decode

end
-- ==== Proof.Layouts.lean ====
/-
  Re-laid arrays read at an index.

  A reshape keeps the row-major position: the entry at position ((i₀·d₁ + i₁)·d₂ + …) of the
  source is the entry at the same position of the result. A transposition permutes coordinates. A
  broadcast along new axes forgets the new coordinates (and reads 0 along an axis of extent one).
  Every lemma below follows one chain of such steps from a target index back to the index of the
  innermost array, and closes each step by the arithmetic of positions:

  * a plane of 8×8 tiles, stored tile by tile in rows of 128 (two tiles per row), read at a pixel;
  * the same with every pixel doubled along both axes (a 256×256 plane shown at 512×512);
  * the packing itself, and its unpacking to rows of 64;
  * the Kronecker product of a 2×2 matrix with a 64×64 matrix as a 128×128 matrix;
  * the 2×2 identity as a comparison of row and column numbers;
  * a 64×64 matrix with every column doubled inside groups of 8.
-/
import Idealize.ShloMosaic.PureOps.Ideal
import Idealize.ShloMosaic.Lib.ValueIdx
import Idealize.ShloMosaic.Lib.Pipeline.Value
import Idealize.ShloMosaic.Lib.ValueLayout

noncomputable section

namespace Decode.Layout

open Idealize.ShloMosaic Idealize.ShloMosaic.ValueIdx

/-! ## The Kronecker product of a 2×2 and a 64×64 matrix -/

/-- Entry (k', j) of the 128×128 matrix is E (k'/64, j/64) · W (k'%64, j%64): the 2×2 factor is
    spread over axes 0 and 2 of a [2,64,2,64] array, the 64×64 factor over axes 1 and 3, the two are
    multiplied entry by entry, and the pairs of axes (0,1) and (2,3) are then merged. -/
theorem kron_apply (E : (⟨2, ![2, 2]⟩ : Shape).Idx → EReal) (W : (⟨2, ![64, 64]⟩ : Shape).Idx → EReal)
    (f1 : (⟨2, ![2, 2]⟩ : Shape).BroadcastsInDim ⟨4, ![2, 1, 2, 1]⟩ ![0, 2])
    (f2 : (⟨4, ![2, 1, 2, 1]⟩ : Shape).BroadcastsInDim ⟨4, ![2, 64, 2, 64]⟩ ![0, 1, 2, 3])
    (f3 : (⟨2, ![64, 64]⟩ : Shape).BroadcastsInDim ⟨4, ![1, 64, 1, 64]⟩ ![1, 3])
    (f4 : (⟨4, ![1, 64, 1, 64]⟩ : Shape).BroadcastsInDim ⟨4, ![2, 64, 2, 64]⟩ ![0, 1, 2, 3])
    (f5 : (⟨4, ![2, 64, 2, 64]⟩ : Shape).ShapeCasts ⟨2, ![128, 128]⟩)
    (k' j : Fin 128) (a a' : Fin 2) (k0 j0 : Fin 64)
    (ha : a.val = k'.val / 64) (ha' : a'.val = j.val / 64) (hk : k0.val = k'.val % 64) (hj : j0.val = j.val % 64) :
    shapeCast ⟨2, ![128, 128]⟩
      (mulf (F := Ideal) (φ := .f32)
        (broadcastInDim ⟨4, ![2, 64, 2, 64]⟩ ![0, 1, 2, 3] f2 (broadcastInDim ⟨4, ![2, 1, 2, 1]⟩ ![0, 2] f1 E))
        (broadcastInDim ⟨4, ![2, 64, 2, 64]⟩ ![0, 1, 2, 3] f4 (broadcastInDim ⟨4, ![1, 64, 1, 64]⟩ ![1, 3] f3 W)))
      f5 (ix2 k' j) = E (ix2 a a') * W (ix2 k0 j0) := by
  have hk' := k'.isLt
  have hj' := j.isLt
  refine (shapeCast_apply _ f5 _ (ix4 a k0 a' j0) (by
    rw [Shape.rowMajor_val_four, Shape.rowMajor_val_two]
    show ((a.val * 64 + k0.val) * 2 + a'.val) * 64 + j0.val = k'.val * 128 + j.val
    omega)).trans ?_
  refine (mulf_apply _ _ _).trans ?_
  congr 1
  · refine (broadcastInDim_apply _ f2 _ _ (ix4 a (0 : Fin 1) a' (0 : Fin 1)) fun d => ?_).trans
      (broadcastInDim_apply _ f1 _ _ (ix2 a a') fun d => ?_)
    · match d with
      | ⟨0, _⟩ => rfl
      | ⟨1, _⟩ => rfl
      | ⟨2, _⟩ => rfl
      | ⟨3, _⟩ => rfl
    · match d with
      | ⟨0, _⟩ => rfl
      | ⟨1, _⟩ => rfl
  · refine (broadcastInDim_apply _ f4 _ _ (ix4 (0 : Fin 1) k0 (0 : Fin 1) j0) fun d => ?_).trans
      (broadcastInDim_apply _ f3 _ _ (ix2 k0 j0) fun d => ?_)
    · match d with
      | ⟨0, _⟩ => rfl
      | ⟨1, _⟩ => rfl
      | ⟨2, _⟩ => rfl
      | ⟨3, _⟩ => rfl
    · match d with
      | ⟨0, _⟩ => rfl
      | ⟨1, _⟩ => rfl

/-! ## The 2×2 identity -/

/-- The matrix whose entry (a, a') is 1 where the row number plus zero equals the column number and 0
    elsewhere, the one-bit answer read as a number. -/
theorem eye_apply (g : (⟨0, ![]⟩ : Shape).BroadcastsInDim ⟨2, ![2, 2]⟩ ![]) (a a' : Fin 2) :
    (uitofp (F := Ideal) .f32
        (cmpi .eq (addi (iotaInDim ⟨2, ![2, 2]⟩ 32 0) (broadcastInDim ⟨2, ![2, 2]⟩ ![] g (constantI ⟨0, ![]⟩ 32 0#32)))
          (iotaInDim ⟨2, ![2, 2]⟩ 32 1)) : (⟨2, ![2, 2]⟩ : Shape).Idx → EReal) (ix2 a a')
      = if a = a' then 1 else 0 := by
  show (((IntOp.cmpi .eq (IntOp.addi (BitVec.ofNat 32 a.val) 0#32) (BitVec.ofNat 32 a'.val)).toNat : ℝ) : EReal) = _
  fin_cases a <;> fin_cases a' <;> simp [IntOp.cmpi, IntOp.addi]

/-! ## A plane of 8×8 tiles stored two tiles to a row of 128 -/

/-- Pixel (r, c) of image b lies in tile n = (r/8)·64 + c/8 of the image, at entry (r%8)·8 + c%8 of the
    tile; tile number b·4096 + n sits in row (b·4096 + n)/2 of the packed array, in its left or right
    half as the tile number is even or odd. The chain: merge (tile row, row in tile) and (tile
    column, column in tile) ← swap the two middle axes ← split the tile number ← unpack. -/
theorem planeY_apply (s : (⟨2, ![32768, 128]⟩ : Shape).Idx → EReal)
    (h1 : (⟨2, ![32768, 128]⟩ : Shape).ShapeCasts ⟨4, ![16, 4096, 8, 8]⟩)
    (h2 : (⟨4, ![16, 4096, 8, 8]⟩ : Shape).ShapeCasts ⟨5, ![16, 64, 64, 8, 8]⟩)
    (h3 : (⟨5, ![16, 64, 64, 8, 8]⟩ : Shape).Transposes [0, 1, 3, 2, 4] ⟨5, ![16, 64, 8, 64, 8]⟩)
    (h4 : (⟨5, ![16, 64, 8, 64, 8]⟩ : Shape).ShapeCasts ⟨3, ![16, 512, 512]⟩)
    (b : Fin 16) (r c : Fin 512) (p : Fin 32768) (q : Fin 128)
    (hp : p.val = (b.val * 4096 + (r.val / 8 * 64 + c.val / 8)) / 2)
    (hq : q.val = (r.val / 8 * 64 + c.val / 8) % 2 * 64 + (r.val % 8 * 8 + c.val % 8)) :
    shapeCast ⟨3, ![16, 512, 512]⟩
      (transpose ⟨5, ![16, 64, 8, 64, 8]⟩ [0, 1, 3, 2, 4]
        (shapeCast ⟨5, ![16, 64, 64, 8, 8]⟩ (shapeCast ⟨4, ![16, 4096, 8, 8]⟩ s h1) h2) h3)
      h4 (ix3 b r c) = s (ix2 p q) := by
  have hb := b.isLt
  have hr := r.isLt
  have hc := c.isLt
  obtain ⟨R, hR⟩ : ∃ R : Fin 64, R.val = r.val / 8 := ⟨⟨r.val / 8, by omega⟩, rfl⟩
  obtain ⟨r8, hr8⟩ : ∃ r8 : Fin 8, r8.val = r.val % 8 := ⟨⟨r.val % 8, by omega⟩, rfl⟩
  obtain ⟨C, hC⟩ : ∃ C : Fin 64, C.val = c.val / 8 := ⟨⟨c.val / 8, by omega⟩, rfl⟩
  obtain ⟨c8, hc8⟩ : ∃ c8 : Fin 8, c8.val = c.val % 8 := ⟨⟨c.val % 8, by omega⟩, rfl⟩
  obtain ⟨n, hn⟩ : ∃ n : Fin 4096, n.val = r.val / 8 * 64 + c.val / 8 := ⟨⟨r.val / 8 * 64 + c.val / 8, by omega⟩, rfl⟩
  refine (shapeCast_apply _ h4 _ (ix5 b R r8 C c8) (by
    rw [Shape.rowMajor_val_five, Shape.rowMajor_val_three]
    show (((b.val * 64 + R.val) * 8 + r8.val) * 64 + C.val) * 8 + c8.val = (b.val * 512 + r.val) * 512 + c.val
    omega)).trans ?_
  refine (transpose_apply _ _ h3 _ (ix5 b R C r8 c8) (fun d => match d with | ⟨0, _⟩ => rfl | ⟨1, _⟩ => rfl | ⟨2, _⟩ => rfl | ⟨3, _⟩ => rfl | ⟨4, _⟩ => rfl)).trans ?_
  refine (shapeCast_apply _ h2 _ (ix4 b n r8 c8) (by
    rw [Shape.rowMajor_val_four, Shape.rowMajor_val_five]
    show ((b.val * 4096 + n.val) * 8 + r8.val) * 8 + c8.val = (((b.val * 64 + R.val) * 64 + C.val) * 8 + r8.val) * 8 + c8.val
    omega)).trans ?_
  exact shapeCast_apply _ h1 _ (ix2 p q) (by
    rw [Shape.rowMajor_val_two, Shape.rowMajor_val_four]
    show p.val * 128 + q.val = ((b.val * 4096 + n.val) * 8 + r8.val) * 8 + c8.val
    omega)

/-! ## Packing tiles two to a row, and unpacking -/

/-- Entry k of tile n of image b, at (k/8, k%8) of the tile, sits in row (b·4096 + n)/2 of the packed
    array, at column (n%2)·64 + k: two tiles share a row. -/
theorem pack4096_apply (y : (⟨4, ![16, 4096, 8, 8]⟩ : Shape).Idx → EReal)
    (h : (⟨4, ![16, 4096, 8, 8]⟩ : Shape).ShapeCasts ⟨2, ![32768, 128]⟩)
    (b : Fin 16) (n : Fin 4096) (k : Fin 64) (p : Fin 32768) (q : Fin 128) (u v : Fin 8)
    (hp : p.val = (b.val * 4096 + n.val) / 2) (hq : q.val = n.val % 2 * 64 + k.val)
    (hu : u.val = k.val / 8) (hv : v.val = k.val % 8) :
    shapeCast ⟨2, ![32768, 128]⟩ y h (ix2 p q) = y (ix4 b n u v) := by
  have hb := b.isLt
  have hn := n.isLt
  have hk := k.isLt
  exact shapeCast_apply _ h _ (ix4 b n u v) (by
    rw [Shape.rowMajor_val_four, Shape.rowMajor_val_two]
    show ((b.val * 4096 + n.val) * 8 + u.val) * 8 + v.val = p.val * 128 + q.val
    omega)

/-- Entry k of tile n of image b, at (k/8, k%8) of the tile, sits in row (b·1024 + n)/2 of the packed
    array, at column (n%2)·64 + k: two tiles share a row. -/
theorem pack1024_apply (y : (⟨4, ![16, 1024, 8, 8]⟩ : Shape).Idx → EReal)
    (h : (⟨4, ![16, 1024, 8, 8]⟩ : Shape).ShapeCasts ⟨2, ![8192, 128]⟩)
    (b : Fin 16) (n : Fin 1024) (k : Fin 64) (p : Fin 8192) (q : Fin 128) (u v : Fin 8)
    (hp : p.val = (b.val * 1024 + n.val) / 2) (hq : q.val = n.val % 2 * 64 + k.val)
    (hu : u.val = k.val / 8) (hv : v.val = k.val % 8) :
    shapeCast ⟨2, ![8192, 128]⟩ y h (ix2 p q) = y (ix4 b n u v) := by
  have hb := b.isLt
  have hn := n.isLt
  have hk := k.isLt
  exact shapeCast_apply _ h _ (ix4 b n u v) (by
    rw [Shape.rowMajor_val_four, Shape.rowMajor_val_two]
    show ((b.val * 1024 + n.val) * 8 + u.val) * 8 + v.val = p.val * 128 + q.val
    omega)

end Decode.Layout

end
-- ==== Proof.Layouts2.lean ====
/-
  Re-layouts read at an entry.

  The decoder keeps its 8 × 8 blocks of coefficients in several arrangements: packed two blocks to a row of 128,
  one block per row of 64, as a stack of blocks, and as full planes in which block (i, j) of an image fills rows
  8 i … 8 i + 7 and columns 8 j … 8 j + 7. A chroma plane is also widened twofold along rows and along columns
  by repeating entries. Each arrangement is a chain of reshapes (equal row-major positions), one swap of two axes,
  and broadcasts along a new axis of extent 2; read at one entry, a chain is its first array at one entry, and
  the lemmas here name that entry by quotients and remainders of the coordinates.
-/
import Idealize.ShloMosaic.PureOps.Ideal
import Idealize.ShloMosaic.Lib.ValueIdx
import Idealize.ShloMosaic.Lib.Pipeline.Value
import Idealize.ShloMosaic.Lib.ValueLayout

noncomputable section

namespace Decode.Layout2

open Idealize.ShloMosaic Idealize.ShloMosaic.ValueIdx

variable {α : Type}

/-! ## A chroma plane from its stack of blocks -/

/-- A stack of 1024 blocks per image (32 per block row), laid out as a 256 × 256 plane and then widened twofold
    along rows and along columns: entry (b, r, c) of the 512 × 512 plane is entry ((r/2) % 8, (c/2) % 8) of block
    (r/16) · 32 + c/16 of image b. -/
theorem planeCB_apply (x : (⟨4, ![16, 1024, 8, 8]⟩ : Shape).Idx → α)
    (g2 : (⟨4, ![16, 1024, 8, 8]⟩ : Shape).ShapeCasts ⟨5, ![16, 32, 32, 8, 8]⟩)
    (g3 : (⟨5, ![16, 32, 32, 8, 8]⟩ : Shape).Transposes [0, 1, 3, 2, 4] ⟨5, ![16, 32, 8, 32, 8]⟩)
    (g4 : (⟨5, ![16, 32, 8, 32, 8]⟩ : Shape).ShapeCasts ⟨3, ![16, 256, 256]⟩)
    (g5 : (⟨3, ![16, 256, 256]⟩ : Shape).BroadcastsInDim ⟨4, ![16, 256, 2, 256]⟩ ![0, 1, 3])
    (g6 : (⟨4, ![16, 256, 2, 256]⟩ : Shape).ShapeCasts ⟨3, ![16, 512, 256]⟩)
    (g7 : (⟨3, ![16, 512, 256]⟩ : Shape).BroadcastsInDim ⟨4, ![16, 512, 256, 2]⟩ ![0, 1, 2])
    (g8 : (⟨4, ![16, 512, 256, 2]⟩ : Shape).ShapeCasts ⟨3, ![16, 512, 512]⟩)
    (b : Fin 16) (r c : Fin 512) (n : Fin 1024) (u v : Fin 8)
    (hn : n.val = r.val / 16 * 32 + c.val / 16) (hu : u.val = r.val / 2 % 8) (hv : v.val = c.val / 2 % 8) :
    shapeCast ⟨3, ![16, 512, 512]⟩ (broadcastInDim ⟨4, ![16, 512, 256, 2]⟩ ![0, 1, 2] g7
      (shapeCast ⟨3, ![16, 512, 256]⟩ (broadcastInDim ⟨4, ![16, 256, 2, 256]⟩ ![0, 1, 3] g5
        (shapeCast ⟨3, ![16, 256, 256]⟩ (transpose ⟨5, ![16, 32, 8, 32, 8]⟩ [0, 1, 3, 2, 4]
          (shapeCast ⟨5, ![16, 32, 32, 8, 8]⟩ x g2) g3) g4)) g6)) g8 (ix3 b r c)
      = x (ix4 b n u v) := by
  obtain ⟨c2, hc2⟩ : ∃ c2 : Fin 256, c2.val = c.val / 2 := ⟨⟨c.val / 2, by omega⟩, rfl⟩
  obtain ⟨c1, hc1⟩ : ∃ c1 : Fin 2, c1.val = c.val % 2 := ⟨⟨c.val % 2, by omega⟩, rfl⟩
  obtain ⟨r2, hr2⟩ : ∃ r2 : Fin 256, r2.val = r.val / 2 := ⟨⟨r.val / 2, by omega⟩, rfl⟩
  obtain ⟨r1, hr1⟩ : ∃ r1 : Fin 2, r1.val = r.val % 2 := ⟨⟨r.val % 2, by omega⟩, rfl⟩
  obtain ⟨A, hA⟩ : ∃ A : Fin 32, A.val = r.val / 16 := ⟨⟨r.val / 16, by omega⟩, rfl⟩
  obtain ⟨C, hC⟩ : ∃ C : Fin 32, C.val = c.val / 16 := ⟨⟨c.val / 16, by omega⟩, rfl⟩
  -- the 512 columns as 256 pairs
  refine (shapeCast_apply _ g8 (ix3 b r c) (ix4 b r c2 c1) ?_).trans ?_
  · rw [Shape.rowMajor_val_four, Shape.rowMajor_val_three]
    show ((b.val * 512 + r.val) * 256 + c2.val) * 2 + c1.val = (b.val * 512 + r.val) * 512 + c.val
    omega
  -- both entries of a pair are the one entry of the narrow plane
  refine (broadcastInDim_apply ![0, 1, 2] g7 _ (ix4 b r c2 c1) (ix3 b r c2)
    (fun a => match a with | ⟨0, _⟩ => rfl | ⟨1, _⟩ => rfl | ⟨2, _⟩ => rfl)).trans ?_
  -- the 512 rows as 256 pairs
  refine (shapeCast_apply _ g6 (ix3 b r c2) (ix4 b r2 r1 c2) ?_).trans ?_
  · rw [Shape.rowMajor_val_four, Shape.rowMajor_val_three]
    show ((b.val * 256 + r2.val) * 2 + r1.val) * 256 + c2.val = (b.val * 512 + r.val) * 256 + c2.val
    omega
  -- both rows of a pair are the one row of the small plane
  refine (broadcastInDim_apply ![0, 1, 3] g5 _ (ix4 b r2 r1 c2) (ix3 b r2 c2)
    (fun a => match a with | ⟨0, _⟩ => rfl | ⟨1, _⟩ => rfl | ⟨2, _⟩ => rfl)).trans ?_
  -- the small plane as block rows × rows × block columns × columns
  refine (shapeCast_apply _ g4 (ix3 b r2 c2) (ix5 b A u C v) ?_).trans ?_
  · rw [Shape.rowMajor_val_five, Shape.rowMajor_val_three]
    show (((b.val * 32 + A.val) * 8 + u.val) * 32 + C.val) * 8 + v.val = (b.val * 256 + r2.val) * 256 + c2.val
    omega
  -- rows within a block and block columns swapped
  refine (transpose_apply [0, 1, 3, 2, 4] _ g3 (ix5 b A u C v) (ix5 b A C u v)
    (fun a => match a with | ⟨0, _⟩ => rfl | ⟨1, _⟩ => rfl | ⟨2, _⟩ => rfl | ⟨3, _⟩ => rfl | ⟨4, _⟩ => rfl)).trans ?_
  -- block (A, C) is block 32 A + C of the stack
  refine shapeCast_apply _ g2 (ix5 b A C u v) (ix4 b n u v) ?_
  rw [Shape.rowMajor_val_five, Shape.rowMajor_val_four]
  show ((b.val * 1024 + n.val) * 8 + u.val) * 8 + v.val = (((b.val * 32 + A.val) * 32 + C.val) * 8 + u.val) * 8 + v.val
  omega

/-- The same plane from the packed rows (two blocks of 64 to a row of 128): entry (b, r, c) is entry
    (m % 2) · 64 + ((r/2) % 8) · 8 + (c/2) % 8 of packed row (1024 b + m) / 2, where m = (r/16) · 32 + c/16. -/
theorem planeC_apply (s : (⟨2, ![8192, 128]⟩ : Shape).Idx → α)
    (g1 : (⟨2, ![8192, 128]⟩ : Shape).ShapeCasts ⟨4, ![16, 1024, 8, 8]⟩)
    (g2 : (⟨4, ![16, 1024, 8, 8]⟩ : Shape).ShapeCasts ⟨5, ![16, 32, 32, 8, 8]⟩)
    (g3 : (⟨5, ![16, 32, 32, 8, 8]⟩ : Shape).Transposes [0, 1, 3, 2, 4] ⟨5, ![16, 32, 8, 32, 8]⟩)
    (g4 : (⟨5, ![16, 32, 8, 32, 8]⟩ : Shape).ShapeCasts ⟨3, ![16, 256, 256]⟩)
    (g5 : (⟨3, ![16, 256, 256]⟩ : Shape).BroadcastsInDim ⟨4, ![16, 256, 2, 256]⟩ ![0, 1, 3])
    (g6 : (⟨4, ![16, 256, 2, 256]⟩ : Shape).ShapeCasts ⟨3, ![16, 512, 256]⟩)
    (g7 : (⟨3, ![16, 512, 256]⟩ : Shape).BroadcastsInDim ⟨4, ![16, 512, 256, 2]⟩ ![0, 1, 2])
    (g8 : (⟨4, ![16, 512, 256, 2]⟩ : Shape).ShapeCasts ⟨3, ![16, 512, 512]⟩)
    (b : Fin 16) (r c : Fin 512) (p : Fin 8192) (q : Fin 128)
    (hp : p.val = (b.val * 1024 + (r.val / 16 * 32 + c.val / 16)) / 2)
    (hq : q.val = (r.val / 16 * 32 + c.val / 16) % 2 * 64 + (r.val / 2 % 8 * 8 + c.val / 2 % 8)) :
    shapeCast ⟨3, ![16, 512, 512]⟩ (broadcastInDim ⟨4, ![16, 512, 256, 2]⟩ ![0, 1, 2] g7
      (shapeCast ⟨3, ![16, 512, 256]⟩ (broadcastInDim ⟨4, ![16, 256, 2, 256]⟩ ![0, 1, 3] g5
        (shapeCast ⟨3, ![16, 256, 256]⟩ (transpose ⟨5, ![16, 32, 8, 32, 8]⟩ [0, 1, 3, 2, 4]
          (shapeCast ⟨5, ![16, 32, 32, 8, 8]⟩ (shapeCast ⟨4, ![16, 1024, 8, 8]⟩ s g1) g2) g3) g4)) g6)) g8 (ix3 b r c)
      = s (ix2 p q) := by
  obtain ⟨n, hn⟩ : ∃ n : Fin 1024, n.val = r.val / 16 * 32 + c.val / 16 := ⟨⟨r.val / 16 * 32 + c.val / 16, by omega⟩, rfl⟩
  obtain ⟨u, hu⟩ : ∃ u : Fin 8, u.val = r.val / 2 % 8 := ⟨⟨r.val / 2 % 8, by omega⟩, rfl⟩
  obtain ⟨v, hv⟩ : ∃ v : Fin 8, v.val = c.val / 2 % 8 := ⟨⟨c.val / 2 % 8, by omega⟩, rfl⟩
  refine (planeCB_apply (shapeCast ⟨4, ![16, 1024, 8, 8]⟩ s g1) g2 g3 g4 g5 g6 g7 g8 b r c n u v hn hu hv).trans ?_
  refine shapeCast_apply s g1 (ix4 b n u v) (ix2 p q) ?_
  rw [Shape.rowMajor_val_two, Shape.rowMajor_val_four]
  show p.val * 128 + q.val = ((b.val * 1024 + n.val) * 8 + u.val) * 8 + v.val
  omega

/-! ## The widening matrix -/

/-- A 64 × 64 matrix whose columns are repeated in adjacent pairs within each group of 8: column j' of the
    64 × 128 result is column (j'/16) · 8 + (j' % 16)/2 of the matrix. -/
theorem widen_apply (W : (⟨2, ![64, 64]⟩ : Shape).Idx → α)
    (e1 : (⟨2, ![64, 64]⟩ : Shape).ShapeCasts ⟨3, ![64, 8, 8]⟩)
    (e2 : (⟨3, ![64, 8, 8]⟩ : Shape).BroadcastsInDim ⟨4, ![64, 8, 8, 2]⟩ ![0, 1, 2])
    (e3 : (⟨4, ![64, 8, 8, 2]⟩ : Shape).ShapeCasts ⟨3, ![64, 8, 16]⟩)
    (e4 : (⟨3, ![64, 8, 16]⟩ : Shape).ShapeCasts ⟨2, ![64, 128]⟩)
    (k : Fin 64) (j' : Fin 128) (j : Fin 64) (hj : j.val = j'.val / 16 * 8 + j'.val % 16 / 2) :
    shapeCast ⟨2, ![64, 128]⟩ (shapeCast ⟨3, ![64, 8, 16]⟩ (broadcastInDim ⟨4, ![64, 8, 8, 2]⟩ ![0, 1, 2] e2
      (shapeCast ⟨3, ![64, 8, 8]⟩ W e1)) e3) e4 (ix2 k j') = W (ix2 k j) := by
  obtain ⟨g, hg⟩ : ∃ g : Fin 8, g.val = j'.val / 16 := ⟨⟨j'.val / 16, by omega⟩, rfl⟩
  obtain ⟨w, hw⟩ : ∃ w : Fin 16, w.val = j'.val % 16 := ⟨⟨j'.val % 16, by omega⟩, rfl⟩
  obtain ⟨w2, hw2⟩ : ∃ w2 : Fin 8, w2.val = j'.val % 16 / 2 := ⟨⟨j'.val % 16 / 2, by omega⟩, rfl⟩
  obtain ⟨w1, hw1⟩ : ∃ w1 : Fin 2, w1.val = j'.val % 16 % 2 := ⟨⟨j'.val % 16 % 2, by omega⟩, rfl⟩
  refine (shapeCast_apply _ e4 (ix2 k j') (ix3 k g w) ?_).trans ?_
  · rw [Shape.rowMajor_val_three, Shape.rowMajor_val_two]
    show (k.val * 8 + g.val) * 16 + w.val = k.val * 128 + j'.val
    omega
  refine (shapeCast_apply _ e3 (ix3 k g w) (ix4 k g w2 w1) ?_).trans ?_
  · rw [Shape.rowMajor_val_four, Shape.rowMajor_val_three]
    show ((k.val * 8 + g.val) * 8 + w2.val) * 2 + w1.val = (k.val * 8 + g.val) * 16 + w.val
    omega
  refine (broadcastInDim_apply ![0, 1, 2] e2 _ (ix4 k g w2 w1) (ix3 k g w2)
    (fun a => match a with | ⟨0, _⟩ => rfl | ⟨1, _⟩ => rfl | ⟨2, _⟩ => rfl)).trans ?_
  refine shapeCast_apply W e1 (ix3 k g w2) (ix2 k j) ?_
  rw [Shape.rowMajor_val_two, Shape.rowMajor_val_three]
  show k.val * 64 + j.val = (k.val * 8 + g.val) * 8 + w2.val
  omega

/-! ## One block per row -/

/-- A stack of 4096 blocks per image with each 8 × 8 block flattened to a row of 64: entry k of row n is entry
    (k/8, k % 8) of block n. -/
theorem rows4096_apply (y : (⟨4, ![16, 4096, 8, 8]⟩ : Shape).Idx → α)
    (h : (⟨4, ![16, 4096, 8, 8]⟩ : Shape).ShapeCasts ⟨3, ![16, 4096, 64]⟩)
    (b : Fin 16) (n : Fin 4096) (k : Fin 64) (u v : Fin 8) (hu : u.val = k.val / 8) (hv : v.val = k.val % 8) :
    shapeCast ⟨3, ![16, 4096, 64]⟩ y h (ix3 b n k) = y (ix4 b n u v) := by
  refine shapeCast_apply y h (ix3 b n k) (ix4 b n u v) ?_
  rw [Shape.rowMajor_val_four, Shape.rowMajor_val_three]
  show ((b.val * 4096 + n.val) * 8 + u.val) * 8 + v.val = (b.val * 4096 + n.val) * 64 + k.val
  omega

/-- The same for a stack of 1024 blocks per image. -/
theorem rows1024_apply (y : (⟨4, ![16, 1024, 8, 8]⟩ : Shape).Idx → α)
    (h : (⟨4, ![16, 1024, 8, 8]⟩ : Shape).ShapeCasts ⟨3, ![16, 1024, 64]⟩)
    (b : Fin 16) (n : Fin 1024) (k : Fin 64) (u v : Fin 8) (hu : u.val = k.val / 8) (hv : v.val = k.val % 8) :
    shapeCast ⟨3, ![16, 1024, 64]⟩ y h (ix3 b n k) = y (ix4 b n u v) := by
  refine shapeCast_apply y h (ix3 b n k) (ix4 b n u v) ?_
  rw [Shape.rowMajor_val_four, Shape.rowMajor_val_three]
  show ((b.val * 1024 + n.val) * 8 + u.val) * 8 + v.val = (b.val * 1024 + n.val) * 64 + k.val
  omega

/-! ## The luma plane from its stack of blocks -/

/-- A stack of 4096 blocks per image (64 per block row) laid out as a 512 × 512 plane: entry (b, r, c) is entry
    (r % 8, c % 8) of block (r/8) · 64 + c/8 of image b. -/
theorem planeYB_apply (x : (⟨4, ![16, 4096, 8, 8]⟩ : Shape).Idx → α)
    (f1 : (⟨4, ![16, 4096, 8, 8]⟩ : Shape).ShapeCasts ⟨5, ![16, 64, 64, 8, 8]⟩)
    (f2 : (⟨5, ![16, 64, 64, 8, 8]⟩ : Shape).Transposes [0, 1, 3, 2, 4] ⟨5, ![16, 64, 8, 64, 8]⟩)
    (f3 : (⟨5, ![16, 64, 8, 64, 8]⟩ : Shape).ShapeCasts ⟨3, ![16, 512, 512]⟩)
    (b : Fin 16) (r c : Fin 512) (n : Fin 4096) (u v : Fin 8)
    (hn : n.val = r.val / 8 * 64 + c.val / 8) (hu : u.val = r.val % 8) (hv : v.val = c.val % 8) :
    shapeCast ⟨3, ![16, 512, 512]⟩ (transpose ⟨5, ![16, 64, 8, 64, 8]⟩ [0, 1, 3, 2, 4]
      (shapeCast ⟨5, ![16, 64, 64, 8, 8]⟩ x f1) f2) f3 (ix3 b r c) = x (ix4 b n u v) := by
  obtain ⟨A, hA⟩ : ∃ A : Fin 64, A.val = r.val / 8 := ⟨⟨r.val / 8, by omega⟩, rfl⟩
  obtain ⟨C, hC⟩ : ∃ C : Fin 64, C.val = c.val / 8 := ⟨⟨c.val / 8, by omega⟩, rfl⟩
  refine (shapeCast_apply _ f3 (ix3 b r c) (ix5 b A u C v) ?_).trans ?_
  · rw [Shape.rowMajor_val_five, Shape.rowMajor_val_three]
    show (((b.val * 64 + A.val) * 8 + u.val) * 64 + C.val) * 8 + v.val = (b.val * 512 + r.val) * 512 + c.val
    omega
  refine (transpose_apply [0, 1, 3, 2, 4] _ f2 (ix5 b A u C v) (ix5 b A C u v)
    (fun a => match a with | ⟨0, _⟩ => rfl | ⟨1, _⟩ => rfl | ⟨2, _⟩ => rfl | ⟨3, _⟩ => rfl | ⟨4, _⟩ => rfl)).trans ?_
  refine shapeCast_apply x f1 (ix5 b A C u v) (ix4 b n u v) ?_
  rw [Shape.rowMajor_val_five, Shape.rowMajor_val_four]
  show ((b.val * 4096 + n.val) * 8 + u.val) * 8 + v.val = (((b.val * 64 + A.val) * 64 + C.val) * 8 + u.val) * 8 + v.val
  omega

end Decode.Layout2

end
-- ==== Proof.Bridge.lean ====
/-
  The one-pass decoder and the staged decoder compute the same image.

  Staged: coefficient tiles are packed two to a row of 128 and multiplied by the 128×128 matrix that
  carries the 64×64 transform matrix W twice on its diagonal (the Kronecker product of the 2×2
  identity with W); 128 is added; the rows are unpacked into a plane; the colour stage then lowers the
  two chroma planes by 128 again. One pass: each tile is one row of 64 and is multiplied by W itself
  (for chroma by W with every column doubled, which repeats each chroma pixel along an image row).

  Why they agree, entry by entry. Column q of the block-diagonal matrix is column q % 64 of W on the
  half q / 64 of its 128 rows and zero on the other half. A packed row times that column is therefore
  the 64-term product of the matching half of the row with the column of W: 1·w = w and 0·w = 0 hold
  on all extended reals, so no finiteness is needed. The matching half of packed row (b·N + n)/2 is
  tile n of image b: its lower half when n is even, its upper half when n is odd. For luma that is
  the whole statement. For chroma the staged side adds 128 and later takes 128 away, which is the
  identity on every extended real, and the doubled column 16·u + 2·v + d of the widened matrix is
  column 8·u + v of W.
-/
import proofs.«133770_g2000209683478752_pallasbulk_677_4_alg».proof.Proof.DecodeSpec
import proofs.«133770_g2000209683478752_pallasbulk_677_4_alg».proof.Proof.KronSum
import proofs.«133770_g2000209683478752_pallasbulk_677_4_alg».proof.Proof.Layouts
import proofs.«133770_g2000209683478752_pallasbulk_677_4_alg».proof.Proof.Layouts2
import proofs.«133770_g2000209683478752_pallasbulk_677_4_alg».proof.Proof.RefTerms
import proofs.«133770_g2000209683478752_pallasbulk_677_4_alg».proof.Proof.KernelHost

set_option maxRecDepth 16384

noncomputable section

namespace Cert.Bridge

open Idealize.ShloMosaic Idealize.ShloMosaic.ValueIdx

/-! ## One entry of a packed stage -/

/-- Entry (p, q) of a packed stage whose matrix has, at (k', j), the entry of Wm at (k' % 64, j % 64)
    when k' and j lie in the same half and zero otherwise: with q = par·64 + e, it is the product of
    half number par of row p (entries par·64 + k, k < 64) with column e of Wm, plus 128. -/
theorem packed_entry {n : Nat} (x : (⟨2, ![n, 128]⟩ : Shape).Idx → EReal)
    (Km : (⟨2, ![128, 128]⟩ : Shape).Idx → EReal) (Wm : (⟨2, ![64, 64]⟩ : Shape).Idx → EReal)
    (hK : ∀ (k' j : Fin 128) (a a' : Fin 2) (k0 j0 : Fin 64), a.val = k'.val / 64 → a'.val = j.val / 64 →
      k0.val = k'.val % 64 → j0.val = j.val % 64 → Km (ix2 k' j) = (if a = a' then 1 else 0) * Wm (ix2 k0 j0))
    (p : Fin n) (q : Fin 128) (par : Nat) (e : Fin 64) (hpar : par < 2) (hq : q.val = par * 64 + e.val)
    (sel : Fin 64 → Fin 128) (hsel : ∀ k, (sel k).val = par * 64 + k.val) :
    Decode.stage x Km (ix2 p q) = (∑ k : Fin 64, x (ix2 p (sel k)) * Wm (ix2 k e)) + Decode.k128 := by
  show (∑ k' : Fin 128, x (ix2 p k') * Km (ix2 k' q)) + Decode.k128 = _
  refine congrArg (· + Decode.k128) ?_
  have he := e.isLt
  rcases (by omega : par = 0 ∨ par = 1) with rfl | rfl
  · have hs : ∀ k, sel k = Decode.lo k := fun k => Fin.ext (by
      have h1 := hsel k
      show (sel k).val = k.val
      omega)
    rw [Decode.sum_lower (fun k' => x (ix2 p k')) (fun k' => Km (ix2 k' q)) (fun k => Wm (ix2 k e))
      (fun k => by
        have hk := k.isLt
        show Km (ix2 (Decode.lo k) q) = 1 * Wm (ix2 k e)
        rw [hK (Decode.lo k) q 0 0 k e (by show (0 : Nat) = k.val / 64; omega) (by show (0 : Nat) = q.val / 64; omega)
          (by show k.val = k.val % 64; omega) (by omega), if_pos rfl])
      (fun k => by
        have hk := k.isLt
        show Km (ix2 (Decode.hi k) q) = 0 * Wm (ix2 k e)
        rw [hK (Decode.hi k) q 1 0 k e (by show (1 : Nat) = (64 + k.val) / 64; omega) (by show (0 : Nat) = q.val / 64; omega)
          (by show k.val = (64 + k.val) % 64; omega) (by omega), if_neg (by decide)])]
    exact Finset.sum_congr rfl fun k _ => by rw [hs]
  · have hs : ∀ k, sel k = Decode.hi k := fun k => Fin.ext (by
      have h1 := hsel k
      show (sel k).val = 64 + k.val
      omega)
    rw [Decode.sum_upper (fun k' => x (ix2 p k')) (fun k' => Km (ix2 k' q)) (fun k => Wm (ix2 k e))
      (fun k => by
        have hk := k.isLt
        show Km (ix2 (Decode.lo k) q) = 0 * Wm (ix2 k e)
        rw [hK (Decode.lo k) q 0 1 k e (by show (0 : Nat) = k.val / 64; omega) (by show (1 : Nat) = q.val / 64; omega)
          (by show k.val = k.val % 64; omega) (by omega), if_neg (by decide)])
      (fun k => by
        have hk := k.isLt
        show Km (ix2 (Decode.hi k) q) = 1 * Wm (ix2 k e)
        rw [hK (Decode.hi k) q 1 1 k e (by show (1 : Nat) = (64 + k.val) / 64; omega) (by show (1 : Nat) = q.val / 64; omega)
          (by show k.val = (64 + k.val) % 64; omega) (by omega), if_pos rfl])]
    exact Finset.sum_congr rfl fun k _ => by rw [hs]

/-! ## The block-diagonal matrix -/

/-- Entry (k', j) of the Kronecker product of the 2×2 identity with W is W (k' % 64, j % 64) when k' and j
    lie in the same half, and zero otherwise. -/
theorem kron_entry (W : FVec Ideal Cert.ReferenceIdeal.S64x64 .f32) :
    ∀ (k' j : Fin 128) (a a' : Fin 2) (k0 j0 : Fin 64), a.val = k'.val / 64 → a'.val = j.val / 64 →
      k0.val = k'.val % 64 → j0.val = j.val % 64 → Cert.ReferenceIdeal.Fold.kronT Cert.ReferenceIdeal.Fold.eyeT W (ix2 k' j) = (if a = a' then 1 else 0) * W (ix2 k0 j0) := by
  intro k' j a a' k0 j0 ha ha' hk hj
  unfold Cert.ReferenceIdeal.Fold.kronT
  refine (Decode.Layout.kron_apply Cert.ReferenceIdeal.Fold.eyeT W _ _ _ _ _ k' j a a' k0 j0 ha ha' hk hj).trans ?_
  refine congrArg (· * W (ix2 k0 j0)) ?_
  unfold Cert.ReferenceIdeal.Fold.eyeT
  exact Decode.Layout.eye_apply _ a a'

/-! ## Luma -/

/-- Pixel (r, c) of image b: tile nY = (r/8)·64 + c/8, entry eY = (r%8)·8 + c%8. The staged side reads
    packed row (b·4096 + nY)/2 at column (nY%2)·64 + eY; half nY%2 of that row is tile nY. -/
theorem luma_eq (a0 : FVec Ideal Cert.ReferenceIdeal.S16x4096x8x8 .f32) (Wy : FVec Ideal Cert.ReferenceIdeal.S64x64 .f32)
    (b : Fin 16) (r c : Fin 512) (nY : Fin 4096) (eY : Fin 64)
    (hn : nY.val = r.val / 8 * 64 + c.val / 8) (he : eY.val = r.val % 8 * 8 + c.val % 8) :
    (∑ k : Fin 64, Cert.KernelIdeal.Host.rowsY a0 (ix3 b nY k) * Wy (ix2 k eY)) + Decode.k128
      = Cert.ReferenceIdeal.Fold.planeYT (Decode.stage (Cert.ReferenceIdeal.Fold.packY a0) (Cert.ReferenceIdeal.Fold.kronT Cert.ReferenceIdeal.Fold.eyeT Wy)) (ix3 b r c) := by
  have hb := b.isLt
  have hr := r.isLt
  have hc := c.isLt
  have hnlt := nY.isLt
  have helt := eY.isLt
  obtain ⟨p, hp⟩ : ∃ p : Fin 32768, p.val = (b.val * 4096 + nY.val) / 2 := ⟨⟨(b.val * 4096 + nY.val) / 2, by omega⟩, rfl⟩
  obtain ⟨q, hq⟩ : ∃ q : Fin 128, q.val = nY.val % 2 * 64 + eY.val := ⟨⟨nY.val % 2 * 64 + eY.val, by omega⟩, rfl⟩
  have hsel : ∀ k : Fin 64, nY.val % 2 * 64 + k.val < 128 := fun k => by have := k.isLt; omega
  symm
  unfold Cert.ReferenceIdeal.Fold.planeYT Cert.ReferenceIdeal.Fold.planeYB
  refine (Decode.Layout.planeY_apply _ _ _ _ _ b r c p q (by omega) (by omega)).trans ?_
  refine (packed_entry _ _ Wy (kron_entry Wy) p q (nY.val % 2) eY (by omega) hq
    (fun k => ⟨nY.val % 2 * 64 + k.val, hsel k⟩) (fun k => rfl)).trans ?_
  refine congrArg (· + Decode.k128) (Finset.sum_congr rfl fun k _ => ?_)
  have hk := k.isLt
  obtain ⟨u, hu⟩ : ∃ u : Fin 8, u.val = k.val / 8 := ⟨⟨k.val / 8, by omega⟩, rfl⟩
  obtain ⟨v, hv⟩ : ∃ v : Fin 8, v.val = k.val % 8 := ⟨⟨k.val % 8, by omega⟩, rfl⟩
  congr 1
  unfold Cert.ReferenceIdeal.Fold.packY Cert.KernelIdeal.Host.rowsY
  exact (Decode.Layout.pack4096_apply a0 _ b nY k p ⟨nY.val % 2 * 64 + k.val, hsel k⟩ u v hp rfl hu hv).trans
    (Decode.Layout2.rows4096_apply a0 _ b nY k u v hu hv).symm

/-! ## Chroma -/

/-- Pixel (r, c) of image b: tile nC = (r/16)·32 + c/16; the one-pass side reads column
    eC' = ((r/2)%8)·16 + c%16 of the widened matrix, which is column eC = ((r/2)%8)·8 + (c/2)%8 of W.
    The staged side reads packed row (b·1024 + nC)/2 at column (nC%2)·64 + eC, raised by 128 and
    lowered by 128 again. -/
theorem chroma_eq (a : FVec Ideal Cert.ReferenceIdeal.S16x1024x8x8 .f32) (Wc : FVec Ideal Cert.ReferenceIdeal.S64x64 .f32)
    (b : Fin 16) (r c : Fin 512) (nC : Fin 1024) (eC' : Fin 128)
    (hn : nC.val = r.val / 16 * 32 + c.val / 16) (he : eC'.val = r.val / 2 % 8 * 16 + c.val % 16) :
    ∑ k : Fin 64, Cert.KernelIdeal.Host.rowsC a (ix3 b nC k) * Cert.KernelIdeal.Host.widenT Wc (ix2 k eC')
      = Cert.ReferenceIdeal.Fold.planeCT (Decode.stage (Cert.ReferenceIdeal.Fold.packC a) (Cert.ReferenceIdeal.Fold.kronT Cert.ReferenceIdeal.Fold.eyeT Wc)) (ix3 b r c) - Decode.k128 := by
  have hb := b.isLt
  have hr := r.isLt
  have hc := c.isLt
  have hnlt := nC.isLt
  obtain ⟨eC, heC⟩ : ∃ eC : Fin 64, eC.val = r.val / 2 % 8 * 8 + c.val / 2 % 8 := ⟨⟨r.val / 2 % 8 * 8 + c.val / 2 % 8, by omega⟩, rfl⟩
  obtain ⟨p, hp⟩ : ∃ p : Fin 8192, p.val = (b.val * 1024 + nC.val) / 2 := ⟨⟨(b.val * 1024 + nC.val) / 2, by omega⟩, rfl⟩
  obtain ⟨q, hq⟩ : ∃ q : Fin 128, q.val = nC.val % 2 * 64 + eC.val := ⟨⟨nC.val % 2 * 64 + eC.val, by omega⟩, rfl⟩
  have hsel : ∀ k : Fin 64, nC.val % 2 * 64 + k.val < 128 := fun k => by have := k.isLt; omega
  symm
  unfold Cert.ReferenceIdeal.Fold.planeCT Cert.ReferenceIdeal.Fold.planeCB
  refine (congrArg (· - Decode.k128) ((Decode.Layout2.planeC_apply _ _ _ _ _ _ _ _ _ b r c p q (by omega) (by omega)).trans
    (packed_entry _ _ Wc (kron_entry Wc) p q (nC.val % 2) eC (by omega) hq
      (fun k => ⟨nC.val % 2 * 64 + k.val, hsel k⟩) (fun k => rfl)))).trans ?_
  refine (Decode.add_sub_128 _).trans ?_
  refine Finset.sum_congr rfl fun k _ => ?_
  have hk := k.isLt
  obtain ⟨u, hu⟩ : ∃ u : Fin 8, u.val = k.val / 8 := ⟨⟨k.val / 8, by omega⟩, rfl⟩
  obtain ⟨v, hv⟩ : ∃ v : Fin 8, v.val = k.val % 8 := ⟨⟨k.val % 8, by omega⟩, rfl⟩
  congr 1
  · unfold Cert.ReferenceIdeal.Fold.packC Cert.KernelIdeal.Host.rowsC
    exact (Decode.Layout.pack1024_apply a _ b nC k p ⟨nC.val % 2 * 64 + k.val, hsel k⟩ u v hp rfl hu hv).trans
      (Decode.Layout2.rows1024_apply a _ b nC k u v hu hv).symm
  · unfold Cert.KernelIdeal.Host.widenT
    exact (Decode.Layout2.widen_apply Wc _ _ _ _ k eC' eC (by omega)).symm

/-! ## The two decoders agree -/

/-- Every pixel of every channel: the two sides are the same clamped combination of a luma value and two
    chroma values, and the three values agree by the lemmas above. -/
theorem fused_eq (a0 : FVec Ideal Cert.ReferenceIdeal.S16x4096x8x8 .f32) (a1 a2 : FVec Ideal Cert.ReferenceIdeal.S16x1024x8x8 .f32)
    (Wy Wc : FVec Ideal Cert.ReferenceIdeal.S64x64 .f32) :
    Decode.fused (Cert.KernelIdeal.Host.rowsY a0) (Cert.KernelIdeal.Host.rowsC a1) (Cert.KernelIdeal.Host.rowsC a2) Wy (Cert.KernelIdeal.Host.widenT Wc)
      = Decode.colour
          (Cert.ReferenceIdeal.Fold.planeYT (Decode.stage (Cert.ReferenceIdeal.Fold.packY a0) (Cert.ReferenceIdeal.Fold.kronT Cert.ReferenceIdeal.Fold.eyeT Wy)))
          (Cert.ReferenceIdeal.Fold.planeCT (Decode.stage (Cert.ReferenceIdeal.Fold.packC a1) (Cert.ReferenceIdeal.Fold.kronT Cert.ReferenceIdeal.Fold.eyeT Wc)))
          (Cert.ReferenceIdeal.Fold.planeCT (Decode.stage (Cert.ReferenceIdeal.Fold.packC a2) (Cert.ReferenceIdeal.Fold.kronT Cert.ReferenceIdeal.Fold.eyeT Wc))) := by
  funext i
  obtain ⟨b, ch, r, c, rfl⟩ : ∃ (b : Fin 16) (ch : Fin 3) (r c : Fin 512), i = ix4 b ch r c := ⟨i 0, i 1, i 2, i 3, eq_ix4 i⟩
  unfold Decode.fused Decode.colour
  show Decode.rgb ch _ _ _ = Decode.rgb ch _ _ _
  refine congr (congr (congrArg (Decode.rgb ch) ?_) ?_) ?_
  · exact luma_eq a0 Wy b r c ⟨_, Decode.lumaBlk_lt r c⟩ ⟨_, Decode.lumaEnt_lt r c⟩ rfl rfl
  · exact chroma_eq a1 Wc b r c ⟨_, Decode.chromaBlk_lt r c⟩ ⟨_, Decode.chromaEnt_lt r c⟩ rfl rfl
  · exact chroma_eq a2 Wc b r c ⟨_, Decode.chromaBlk_lt r c⟩ ⟨_, Decode.chromaEnt_lt r c⟩ rfl rfl

end Cert.Bridge

end
-- ==== Proof.lean ====
/-
  A fused image decoder against a four-stage decoder, equal as extended reals.

  Both programs take three arrays of 8×8 blocks of transform coefficients (luma: 4096 blocks per image; two
  chroma planes: 1024 blocks each) and two 8×8 quantisation tables, and return 16 images of 3×512×512.
  For a table q let W(q) be the 64×64 matrix with entries (¼ · (q k · α k)) · β (k, j), α and β two fixed
  tables. A block's 64 pixels are its 64 coefficients times W(q); luma gets 128 added.

  The fused program does this in one pass per band of 64 image rows: one product per plane (the chroma
  product against W(q) with every column written twice, which repeats each chroma pixel along a row; each
  chroma row is then used for two image rows), the blocks re-laid into image rows, and the three clamped
  colour combinations stored. The staged program packs the blocks two per row of 128, multiplies by the
  128×128 matrix that has W(q) twice on its diagonal (a Kronecker product with the 2×2 identity), adds 128
  to all three planes, re-lays and repeats pixels by host operations, and in a last stage lowers the chroma
  planes by 128 again and combines.

  The two agree at every pixel: a column of the block-diagonal matrix is zero on one half (0 · x = 0 and
  1 · x = x on the extended reals, infinities included), so the 128-term product is the 64-term product of
  the matching block; (x + 128) − 128 = x for every extended real x; the re-layings on both sides send
  pixel (r, c) to the same block and the same entry of it. No step needs the inputs finite, so the
  precondition is never opened. Nothing was rewritten between the printed kernel and its idealization,
  so the fourth claim is `True`.
-/
import proofs.«133770_g2000209683478752_pallasbulk_677_4_alg».proof.Defs
import proofs.«133770_g2000209683478752_pallasbulk_677_4_alg».proof.Proof.Gen.Kernel
import proofs.«133770_g2000209683478752_pallasbulk_677_4_alg».proof.Proof.Gen.Kernel.Skeleton
import proofs.«133770_g2000209683478752_pallasbulk_677_4_alg».proof.Proof.Gen.Kernel.Launch
import proofs.«133770_g2000209683478752_pallasbulk_677_4_alg».proof.Proof.Gen.Kernel.Points
import proofs.«133770_g2000209683478752_pallasbulk_677_4_alg».proof.Proof.Gen.Kernel.Frame
import proofs.«133770_g2000209683478752_pallasbulk_677_4_alg».proof.Proof.Gen.KernelIdeal
import proofs.«133770_g2000209683478752_pallasbulk_677_4_alg».proof.Proof.Gen.KernelIdeal.Skeleton
import proofs.«133770_g2000209683478752_pallasbulk_677_4_alg».proof.Proof.Gen.KernelIdeal.Launch
import proofs.«133770_g2000209683478752_pallasbulk_677_4_alg».proof.Proof.Gen.KernelIdeal.Points
import proofs.«133770_g2000209683478752_pallasbulk_677_4_alg».proof.Proof.Gen.KernelIdeal.Frame
import proofs.«133770_g2000209683478752_pallasbulk_677_4_alg».proof.Proof.Gen.ReferenceIdeal
import proofs.«133770_g2000209683478752_pallasbulk_677_4_alg».proof.Proof.Gen.ReferenceIdeal.Skeleton
import proofs.«133770_g2000209683478752_pallasbulk_677_4_alg».proof.Proof.Gen.ReferenceIdeal.Launch
import proofs.«133770_g2000209683478752_pallasbulk_677_4_alg».proof.Proof.Gen.ReferenceIdeal.Points
import proofs.«133770_g2000209683478752_pallasbulk_677_4_alg».proof.Proof.Gen.ReferenceIdeal.Frame
import proofs.«133770_g2000209683478752_pallasbulk_677_4_alg».proof.Proof.Gen.Pre_finite_inputs
import proofs.«133770_g2000209683478752_pallasbulk_677_4_alg».proof.Proof.Gen.KernelIdeal.Value
import proofs.«133770_g2000209683478752_pallasbulk_677_4_alg».proof.Proof.FusedValue
import proofs.«133770_g2000209683478752_pallasbulk_677_4_alg».proof.Proof.KernelHost
import proofs.«133770_g2000209683478752_pallasbulk_677_4_alg».proof.Proof.RefRun
import proofs.«133770_g2000209683478752_pallasbulk_677_4_alg».proof.Proof.RefFold
import proofs.«133770_g2000209683478752_pallasbulk_677_4_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The two programs carry the same tables α and β, so W(q) is one matrix on both sides. -/
theorem matrix_eq (q : FVec Ideal Cert.ReferenceIdeal.S8x8 .f32) :
    Cert.KernelIdeal.Host.wT q Cert.KernelIdeal.Host.alT Cert.KernelIdeal.Host.bsT
      = Cert.ReferenceIdeal.Fold.wT q Cert.ReferenceIdeal.Fold.alT Cert.ReferenceIdeal.Fold.bsT := rfl

/-- The fused program's result array is the staged program's closed term of the same five arguments. -/
theorem fused_value (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 5 Cert.KernelIdeal.cfg0.N
      = Cert.ReferenceIdeal.Fold.result
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  refine (Cert.KernelIdeal.Fused.final m c).trans ?_
  rw [Cert.KernelIdeal.Host.luma_rows m c, Cert.KernelIdeal.Host.chroma1_rows m c, Cert.KernelIdeal.Host.chroma2_rows m c,
    Cert.KernelIdeal.Host.luma_matrix m c, Cert.KernelIdeal.Host.chroma_matrix m c]
  refine (Cert.Bridge.fused_eq _ _ _ _ _).trans ?_
  rw [matrix_eq, matrix_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote nothing. -/
theorem preserves : Cert.preserves_Kernel_KernelIdeal := trivial

/-- Both programs run; the fused one ends with its result at the closed term (its blockwise run, the band-by-band
    value, the host stretch, the pixel-by-pixel agreement), the staged one at the same term (its run with the
    result named, the fold read back), of arguments that agree. -/
theorem algebraic : Cert.algebraic_KernelIdeal_ReferenceIdeal := by
  intro m ρ m' ρ' _ hagree
  refine ⟨fun c => Cert.ReferenceIdeal.Fold.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (fused_value m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.RefRun.run (F := Ideal) m' ρ')
    rw [Cert.ReferenceIdeal.Fold.result_eq m' ρ' c, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
